-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S8x200000x2 : Shape := ⟨3, ![8, 200000, 2]⟩
abbrev S8x64x64 : Shape := ⟨3, ![8, 64, 64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_

variable [Facts]

def fn {F : FTy → Type} [FloatOps F] (main_arg0 : FVec F S4x50000x64 .f32) (main_arg1 : IVec S8x200000x2 32) (main_arg2 : FVec F S8x64x64 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S8x64x64 .f32 := Host.absf main_arg2
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  main_v8
-- ==== Kernel.lean ====
abbrev S4x50000x64 : Shape := ⟨3, ![4, 50000, 64]⟩
abbrev S8x200000x2 : Shape := ⟨3, ![8, 200000, 2]⟩
abbrev S8x64x64 : Shape := ⟨3, ![8, 64, 64]⟩
abbrev S200000x64 : Shape := ⟨2, ![200000, 64]⟩
abbrev S64x8x64 : Shape := ⟨3, ![64, 8, 64]⟩
abbrev S64x512 : Shape := ⟨2, ![64, 512]⟩
abbrev S200000x512 : Shape := ⟨2, ![200000, 512]⟩
abbrev S4000x64 : Shape := ⟨2, ![4000, 64]⟩
abbrev S4000x512 : Shape := ⟨2, ![4000, 512]⟩
abbrev S4x50000x8x64 : Shape := ⟨4, ![4, 50000, 8, 64]⟩
abbrev S_ : Shape := ⟨0, ![]⟩
abbrev S4x50000x1x64 : Shape := ⟨4, ![4, 50000, 1, 64]⟩
abbrev S1x200000x1 : Shape := ⟨3, ![1, 200000, 1]⟩
abbrev S200000 : Shape := ⟨1, ![200000]⟩
abbrev S200000x1 : Shape := ⟨2, ![200000, 1]⟩
abbrev S1 : Shape := ⟨1, ![1]⟩
abbrev S1x1 : Shape := ⟨2, ![1, 1]⟩
abbrev S4x200000x64 : Shape := ⟨3, ![4, 200000, 64]⟩
abbrev S200000x4x64 : Shape := ⟨3, ![200000, 4, 64]⟩
abbrev S50000x4x64 : Shape := ⟨3, ![50000, 4, 64]⟩

abbrev nBuf : Space → Nat
  | .hbm => 298
  | .vmem => 5
  | .smem => 0
  | _ => 0

abbrev hbmTy0_0 (i : Nat) : BufTy := match i % 128 with
  | 0 => ⟨S4x50000x64, .f32⟩
  | 1 => ⟨S8x200000x2, .i32⟩
  | 2 => ⟨S8x64x64, .f32⟩
  | 3 => ⟨S200000x64, .f32⟩
  | 4 => ⟨S64x8x64, .f32⟩
  | 5 => ⟨S64x512, .f32⟩
  | 6 => ⟨S200000x512, .f32⟩
  | 7 => ⟨S4x50000x8x64, .f32⟩
  | 8 => ⟨S_, .f32⟩
  | 9 => ⟨S4x50000x64, .f32⟩
  | 10 => ⟨S4x50000x1x64, .f32⟩
  | 11 => ⟨S4x50000x64, .f32⟩
  | 12 => ⟨S1x200000x1, .i32⟩
  | 13 => ⟨S200000, .i32⟩
  | 14 => ⟨S1x200000x1, .i32⟩
  | 15 => ⟨S200000, .i32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S1, .i32⟩
  | 25 => ⟨S_, .i32⟩
  | 26 => ⟨S200000x1, .i32⟩
  | 27 => ⟨S200000x1, .i1⟩
  | 28 => ⟨S1x1, .i32⟩
  | 29 => ⟨S200000x1, .i32⟩
  | 30 => ⟨S200000x1, .i1⟩
  | 31 => ⟨S200000x1, .i1⟩
  | 32 => ⟨S_, .i1⟩
  | 33 => ⟨S200000, .i1⟩
  | 34 => ⟨S4x200000x64, .f32⟩
  | 35 => ⟨S4x200000x64, .i1⟩
  | 36 => ⟨S_, .f32⟩
  | 37 => ⟨S4x200000x64, .f32⟩
  | 38 => ⟨S4x200000x64, .f32⟩
  | 39 => ⟨S200000x4x64, .f32⟩
  | 40 => ⟨S_, .f32⟩
  | 41 => ⟨S50000x4x64, .f32⟩
  | 42 => ⟨S200000x1, .i32⟩
  | 43 => ⟨S50000x4x64, .f32⟩
  | 44 => ⟨S4x50000x64, .f32⟩
  | 45 => ⟨S4x50000x64, .f32⟩
  | 46 => ⟨S4x50000x1x64, .f32⟩
  | 47 => ⟨S4x50000x64, .f32⟩
  | 48 => ⟨S1x200000x1, .i32⟩
  | 49 => ⟨S200000, .i32⟩
  | 50 => ⟨S1x200000x1, .i32⟩
  | 51 => ⟨S200000, .i32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S1, .i32⟩
  | 61 => ⟨S_, .i32⟩
  | 62 => ⟨S200000x1, .i32⟩
  | 63 => ⟨S200000x1, .i1⟩
  | 64 => ⟨S1x1, .i32⟩
  | 65 => ⟨S200000x1, .i32⟩
  | 66 => ⟨S200000x1, .i1⟩
  | 67 => ⟨S200000x1, .i1⟩
  | 68 => ⟨S_, .i1⟩
  | 69 => ⟨S200000, .i1⟩
  | 70 => ⟨S4x200000x64, .f32⟩
  | 71 => ⟨S4x200000x64, .i1⟩
  | 72 => ⟨S_, .f32⟩
  | 73 => ⟨S4x200000x64, .f32⟩
  | 74 => ⟨S4x200000x64, .f32⟩
  | 75 => ⟨S200000x4x64, .f32⟩
  | 76 => ⟨S_, .f32⟩
  | 77 => ⟨S50000x4x64, .f32⟩
  | 78 => ⟨S200000x1, .i32⟩
  | 79 => ⟨S50000x4x64, .f32⟩
  | 80 => ⟨S4x50000x64, .f32⟩
  | 81 => ⟨S4x50000x64, .f32⟩
  | 82 => ⟨S4x50000x1x64, .f32⟩
  | 83 => ⟨S4x50000x64, .f32⟩
  | 84 => ⟨S1x200000x1, .i32⟩
  | 85 => ⟨S200000, .i32⟩
  | 86 => ⟨S1x200000x1, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S1, .i32⟩
  | 97 => ⟨S_, .i32⟩
  | 98 => ⟨S200000x1, .i32⟩
  | 99 => ⟨S200000x1, .i1⟩
  | 100 => ⟨S1x1, .i32⟩
  | 101 => ⟨S200000x1, .i32⟩
  | 102 => ⟨S200000x1, .i1⟩
  | 103 => ⟨S200000x1, .i1⟩
  | 104 => ⟨S_, .i1⟩
  | 105 => ⟨S200000, .i1⟩
  | 106 => ⟨S4x200000x64, .f32⟩
  | 107 => ⟨S4x200000x64, .i1⟩
  | 108 => ⟨S_, .f32⟩
  | 109 => ⟨S4x200000x64, .f32⟩
  | 110 => ⟨S4x200000x64, .f32⟩
  | 111 => ⟨S200000x4x64, .f32⟩
  | 112 => ⟨S_, .f32⟩
  | 113 => ⟨S50000x4x64, .f32⟩
  | 114 => ⟨S200000x1, .i32⟩
  | 115 => ⟨S50000x4x64, .f32⟩
  | 116 => ⟨S4x50000x64, .f32⟩
  | 117 => ⟨S4x50000x64, .f32⟩
  | 118 => ⟨S4x50000x1x64, .f32⟩
  | 119 => ⟨S4x50000x64, .f32⟩
  | 120 => ⟨S1x200000x1, .i32⟩
  | 121 => ⟨S200000, .i32⟩
  | 122 => ⟨S1x200000x1, .i32⟩
  | 123 => ⟨S200000, .i32⟩
  | 124 => ⟨S_, .i32⟩
  | 125 => ⟨S200000, .i32⟩
  | 126 => ⟨S200000, .i1⟩
  | 127 => ⟨S_, .i32⟩
  | _ => ⟨S4x50000x64, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S1, .i32⟩
  | 5 => ⟨S_, .i32⟩
  | 6 => ⟨S200000x1, .i32⟩
  | 7 => ⟨S200000x1, .i1⟩
  | 8 => ⟨S1x1, .i32⟩
  | 9 => ⟨S200000x1, .i32⟩
  | 10 => ⟨S200000x1, .i1⟩
  | 11 => ⟨S200000x1, .i1⟩
  | 12 => ⟨S_, .i1⟩
  | 13 => ⟨S200000, .i1⟩
  | 14 => ⟨S4x200000x64, .f32⟩
  | 15 => ⟨S4x200000x64, .i1⟩
  | 16 => ⟨S_, .f32⟩
  | 17 => ⟨S4x200000x64, .f32⟩
  | 18 => ⟨S4x200000x64, .f32⟩
  | 19 => ⟨S200000x4x64, .f32⟩
  | 20 => ⟨S_, .f32⟩
  | 21 => ⟨S50000x4x64, .f32⟩
  | 22 => ⟨S200000x1, .i32⟩
  | 23 => ⟨S50000x4x64, .f32⟩
  | 24 => ⟨S4x50000x64, .f32⟩
  | 25 => ⟨S4x50000x64, .f32⟩
  | 26 => ⟨S4x50000x1x64, .f32⟩
  | 27 => ⟨S4x50000x64, .f32⟩
  | 28 => ⟨S1x200000x1, .i32⟩
  | 29 => ⟨S200000, .i32⟩
  | 30 => ⟨S1x200000x1, .i32⟩
  | 31 => ⟨S200000, .i32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S1, .i32⟩
  | 41 => ⟨S_, .i32⟩
  | 42 => ⟨S200000x1, .i32⟩
  | 43 => ⟨S200000x1, .i1⟩
  | 44 => ⟨S1x1, .i32⟩
  | 45 => ⟨S200000x1, .i32⟩
  | 46 => ⟨S200000x1, .i1⟩
  | 47 => ⟨S200000x1, .i1⟩
  | 48 => ⟨S_, .i1⟩
  | 49 => ⟨S200000, .i1⟩
  | 50 => ⟨S4x200000x64, .f32⟩
  | 51 => ⟨S4x200000x64, .i1⟩
  | 52 => ⟨S_, .f32⟩
  | 53 => ⟨S4x200000x64, .f32⟩
  | 54 => ⟨S4x200000x64, .f32⟩
  | 55 => ⟨S200000x4x64, .f32⟩
  | 56 => ⟨S_, .f32⟩
  | 57 => ⟨S50000x4x64, .f32⟩
  | 58 => ⟨S200000x1, .i32⟩
  | 59 => ⟨S50000x4x64, .f32⟩
  | 60 => ⟨S4x50000x64, .f32⟩
  | 61 => ⟨S4x50000x64, .f32⟩
  | 62 => ⟨S4x50000x1x64, .f32⟩
  | 63 => ⟨S4x50000x64, .f32⟩
  | 64 => ⟨S1x200000x1, .i32⟩
  | 65 => ⟨S200000, .i32⟩
  | 66 => ⟨S1x200000x1, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S1, .i32⟩
  | 77 => ⟨S_, .i32⟩
  | 78 => ⟨S200000x1, .i32⟩
  | 79 => ⟨S200000x1, .i1⟩
  | 80 => ⟨S1x1, .i32⟩
  | 81 => ⟨S200000x1, .i32⟩
  | 82 => ⟨S200000x1, .i1⟩
  | 83 => ⟨S200000x1, .i1⟩
  | 84 => ⟨S_, .i1⟩
  | 85 => ⟨S200000, .i1⟩
  | 86 => ⟨S4x200000x64, .f32⟩
  | 87 => ⟨S4x200000x64, .i1⟩
  | 88 => ⟨S_, .f32⟩
  | 89 => ⟨S4x200000x64, .f32⟩
  | 90 => ⟨S4x200000x64, .f32⟩
  | 91 => ⟨S200000x4x64, .f32⟩
  | 92 => ⟨S_, .f32⟩
  | 93 => ⟨S50000x4x64, .f32⟩
  | 94 => ⟨S200000x1, .i32⟩
  | 95 => ⟨S50000x4x64, .f32⟩
  | 96 => ⟨S4x50000x64, .f32⟩
  | 97 => ⟨S4x50000x64, .f32⟩
  | 98 => ⟨S4x50000x1x64, .f32⟩
  | 99 => ⟨S4x50000x64, .f32⟩
  | 100 => ⟨S1x200000x1, .i32⟩
  | 101 => ⟨S200000, .i32⟩
  | 102 => ⟨S1x200000x1, .i32⟩
  | 103 => ⟨S200000, .i32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S1, .i32⟩
  | 113 => ⟨S_, .i32⟩
  | 114 => ⟨S200000x1, .i32⟩
  | 115 => ⟨S200000x1, .i1⟩
  | 116 => ⟨S1x1, .i32⟩
  | 117 => ⟨S200000x1, .i32⟩
  | 118 => ⟨S200000x1, .i1⟩
  | 119 => ⟨S200000x1, .i1⟩
  | 120 => ⟨S_, .i1⟩
  | 121 => ⟨S200000, .i1⟩
  | 122 => ⟨S4x200000x64, .f32⟩
  | 123 => ⟨S4x200000x64, .i1⟩
  | 124 => ⟨S_, .f32⟩
  | 125 => ⟨S4x200000x64, .f32⟩
  | 126 => ⟨S4x200000x64, .f32⟩
  | 127 => ⟨S200000x4x64, .f32⟩
  | _ => ⟨S4x50000x64, .f32⟩

abbrev hbmTy0_2 (i : Nat) : BufTy := match i % 128 with
  | 0 => ⟨S_, .f32⟩
  | 1 => ⟨S50000x4x64, .f32⟩
  | 2 => ⟨S200000x1, .i32⟩
  | 3 => ⟨S50000x4x64, .f32⟩
  | 4 => ⟨S4x50000x64, .f32⟩
  | 5 => ⟨S4x50000x64, .f32⟩
  | 6 => ⟨S4x50000x1x64, .f32⟩
  | 7 => ⟨S4x50000x64, .f32⟩
  | 8 => ⟨S1x200000x1, .i32⟩
  | 9 => ⟨S200000, .i32⟩
  | 10 => ⟨S1x200000x1, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S1, .i32⟩
  | 21 => ⟨S_, .i32⟩
  | 22 => ⟨S200000x1, .i32⟩
  | 23 => ⟨S200000x1, .i1⟩
  | 24 => ⟨S1x1, .i32⟩
  | 25 => ⟨S200000x1, .i32⟩
  | 26 => ⟨S200000x1, .i1⟩
  | 27 => ⟨S200000x1, .i1⟩
  | 28 => ⟨S_, .i1⟩
  | 29 => ⟨S200000, .i1⟩
  | 30 => ⟨S4x200000x64, .f32⟩
  | 31 => ⟨S4x200000x64, .i1⟩
  | 32 => ⟨S_, .f32⟩
  | 33 => ⟨S4x200000x64, .f32⟩
  | 34 => ⟨S4x200000x64, .f32⟩
  | 35 => ⟨S200000x4x64, .f32⟩
  | 36 => ⟨S_, .f32⟩
  | 37 => ⟨S50000x4x64, .f32⟩
  | 38 => ⟨S200000x1, .i32⟩
  | 39 => ⟨S50000x4x64, .f32⟩
  | 40 => ⟨S4x50000x64, .f32⟩
  | 41 => ⟨S4x50000x64, .f32⟩
  | _ => ⟨S4x50000x64, .f32⟩

abbrev hbmTy (i : Nat) : BufTy := match i / 128 with
  | 0 => hbmTy0_0 i
  | 1 => hbmTy0_1 i
  | 2 => hbmTy0_2 i
  | _ => ⟨S4x50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x512, .f32⟩
  | .local _ .vmem, ⟨3, _⟩ => ⟨S4000x512, .f32⟩
  | .local _ .vmem, ⟨4, _⟩ => ⟨S4000x512, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v12 : Ref sig .tc := ⟨.hbm, 38, rfl⟩
abbrev main_v13 : Ref sig .tc := ⟨.hbm, 39, rfl⟩
abbrev main_cst_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v25 : Ref sig .tc := ⟨.hbm, 74, rfl⟩
abbrev main_v26 : Ref sig .tc := ⟨.hbm, 75, rfl⟩
abbrev main_cst_1 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v38 : Ref sig .tc := ⟨.hbm, 110, rfl⟩
abbrev main_v39 : Ref sig .tc := ⟨.hbm, 111, rfl⟩
abbrev main_cst_2 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v51 : Ref sig .tc := ⟨.hbm, 146, rfl⟩
abbrev main_v52 : Ref sig .tc := ⟨.hbm, 147, rfl⟩
abbrev main_cst_3 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_c_1 : Ref sig .tc := ⟨.hbm, 168, rfl⟩
abbrev main_call4_c_2 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_c_3 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_call4_cst : Ref sig .tc := ⟨.hbm, 180, rfl⟩
abbrev main_call4_v15 : Ref sig .tc := ⟨.hbm, 181, rfl⟩
abbrev main_v64 : Ref sig .tc := ⟨.hbm, 182, rfl⟩
abbrev main_v65 : Ref sig .tc := ⟨.hbm, 183, rfl⟩
abbrev main_cst_4 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_call5_c : Ref sig .tc := ⟨.hbm, 196, rfl⟩
abbrev main_call5_v0 : Ref sig .tc := ⟨.hbm, 197, rfl⟩
abbrev main_call5_v1 : Ref sig .tc := ⟨.hbm, 198, rfl⟩
abbrev main_call5_c_0 : Ref sig .tc := ⟨.hbm, 199, rfl⟩
abbrev main_call5_v2 : Ref sig .tc := ⟨.hbm, 200, rfl⟩
abbrev main_call5_v3 : Ref sig .tc := ⟨.hbm, 201, rfl⟩
abbrev main_call5_v4 : Ref sig .tc := ⟨.hbm, 202, rfl⟩
abbrev main_call5_v5 : Ref sig .tc := ⟨.hbm, 203, rfl⟩
abbrev main_call5_c_1 : Ref sig .tc := ⟨.hbm, 204, rfl⟩
abbrev main_call5_c_2 : Ref sig .tc := ⟨.hbm, 205, rfl⟩
abbrev main_call5_v6 : Ref sig .tc := ⟨.hbm, 206, rfl⟩
abbrev main_call5_v7 : Ref sig .tc := ⟨.hbm, 207, rfl⟩
abbrev main_call5_v8 : Ref sig .tc := ⟨.hbm, 208, rfl⟩
abbrev main_call5_v9 : Ref sig .tc := ⟨.hbm, 209, rfl⟩
abbrev main_call5_v10 : Ref sig .tc := ⟨.hbm, 210, rfl⟩
abbrev main_call5_v11 : Ref sig .tc := ⟨.hbm, 211, rfl⟩
abbrev main_call5_c_3 : Ref sig .tc := ⟨.hbm, 212, rfl⟩
abbrev main_call5_v12 : Ref sig .tc := ⟨.hbm, 213, rfl⟩
abbrev main_call5_v13 : Ref sig .tc := ⟨.hbm, 214, rfl⟩
abbrev main_call5_v14 : Ref sig .tc := ⟨.hbm, 215, rfl⟩
abbrev main_call5_cst : Ref sig .tc := ⟨.hbm, 216, rfl⟩
abbrev main_call5_v15 : Ref sig .tc := ⟨.hbm, 217, rfl⟩
abbrev main_v77 : Ref sig .tc := ⟨.hbm, 218, rfl⟩
abbrev main_v78 : Ref sig .tc := ⟨.hbm, 219, rfl⟩
abbrev main_cst_5 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev main_call6_c : Ref sig .tc := ⟨.hbm, 232, rfl⟩
abbrev main_call6_v0 : Ref sig .tc := ⟨.hbm, 233, rfl⟩
abbrev main_call6_v1 : Ref sig .tc := ⟨.hbm, 234, rfl⟩
abbrev main_call6_c_0 : Ref sig .tc := ⟨.hbm, 235, rfl⟩
abbrev main_call6_v2 : Ref sig .tc := ⟨.hbm, 236, rfl⟩
abbrev main_call6_v3 : Ref sig .tc := ⟨.hbm, 237, rfl⟩
abbrev main_call6_v4 : Ref sig .tc := ⟨.hbm, 238, rfl⟩
abbrev main_call6_v5 : Ref sig .tc := ⟨.hbm, 239, rfl⟩
abbrev main_call6_c_1 : Ref sig .tc := ⟨.hbm, 240, rfl⟩
abbrev main_call6_c_2 : Ref sig .tc := ⟨.hbm, 241, rfl⟩
abbrev main_call6_v6 : Ref sig .tc := ⟨.hbm, 242, rfl⟩
abbrev main_call6_v7 : Ref sig .tc := ⟨.hbm, 243, rfl⟩
abbrev main_call6_v8 : Ref sig .tc := ⟨.hbm, 244, rfl⟩
abbrev main_call6_v9 : Ref sig .tc := ⟨.hbm, 245, rfl⟩
abbrev main_call6_v10 : Ref sig .tc := ⟨.hbm, 246, rfl⟩
abbrev main_call6_v11 : Ref sig .tc := ⟨.hbm, 247, rfl⟩
abbrev main_call6_c_3 : Ref sig .tc := ⟨.hbm, 248, rfl⟩
abbrev main_call6_v12 : Ref sig .tc := ⟨.hbm, 249, rfl⟩
abbrev main_call6_v13 : Ref sig .tc := ⟨.hbm, 250, rfl⟩
abbrev main_call6_v14 : Ref sig .tc := ⟨.hbm, 251, rfl⟩
abbrev main_call6_cst : Ref sig .tc := ⟨.hbm, 252, rfl⟩
abbrev main_call6_v15 : Ref sig .tc := ⟨.hbm, 253, rfl⟩
abbrev main_v90 : Ref sig .tc := ⟨.hbm, 254, rfl⟩
abbrev main_v91 : Ref sig .tc := ⟨.hbm, 255, rfl⟩
abbrev main_cst_6 : Ref sig .tc := ⟨.hbm, 256, rfl⟩
abbrev main_v92 : Ref sig .tc := ⟨.hbm, 257, rfl⟩
abbrev main_v93 : Ref sig .tc := ⟨.hbm, 258, rfl⟩
abbrev main_v94 : Ref sig .tc := ⟨.hbm, 259, rfl⟩
abbrev main_v95 : Ref sig .tc := ⟨.hbm, 260, rfl⟩
abbrev main_v96 : Ref sig .tc := ⟨.hbm, 261, rfl⟩
abbrev main_v97 : Ref sig .tc := ⟨.hbm, 262, rfl⟩
abbrev main_v98 : Ref sig .tc := ⟨.hbm, 263, rfl⟩
abbrev main_v99 : Ref sig .tc := ⟨.hbm, 264, rfl⟩
abbrev main_v100 : Ref sig .tc := ⟨.hbm, 265, rfl⟩
abbrev main_v101 : Ref sig .tc := ⟨.hbm, 266, rfl⟩
abbrev main_v102 : Ref sig .tc := ⟨.hbm, 267, rfl⟩
abbrev main_call7_c : Ref sig .tc := ⟨.hbm, 268, rfl⟩
abbrev main_call7_v0 : Ref sig .tc := ⟨.hbm, 269, rfl⟩
abbrev main_call7_v1 : Ref sig .tc := ⟨.hbm, 270, rfl⟩
abbrev main_call7_c_0 : Ref sig .tc := ⟨.hbm, 271, rfl⟩
abbrev main_call7_v2 : Ref sig .tc := ⟨.hbm, 272, rfl⟩
abbrev main_call7_v3 : Ref sig .tc := ⟨.hbm, 273, rfl⟩
abbrev main_call7_v4 : Ref sig .tc := ⟨.hbm, 274, rfl⟩
abbrev main_call7_v5 : Ref sig .tc := ⟨.hbm, 275, rfl⟩
abbrev main_call7_c_1 : Ref sig .tc := ⟨.hbm, 276, rfl⟩
abbrev main_call7_c_2 : Ref sig .tc := ⟨.hbm, 277, rfl⟩
abbrev main_call7_v6 : Ref sig .tc := ⟨.hbm, 278, rfl⟩
abbrev main_call7_v7 : Ref sig .tc := ⟨.hbm, 279, rfl⟩
abbrev main_call7_v8 : Ref sig .tc := ⟨.hbm, 280, rfl⟩
abbrev main_call7_v9 : Ref sig .tc := ⟨.hbm, 281, rfl⟩
abbrev main_call7_v10 : Ref sig .tc := ⟨.hbm, 282, rfl⟩
abbrev main_call7_v11 : Ref sig .tc := ⟨.hbm, 283, rfl⟩
abbrev main_call7_c_3 : Ref sig .tc := ⟨.hbm, 284, rfl⟩
abbrev main_call7_v12 : Ref sig .tc := ⟨.hbm, 285, rfl⟩
abbrev main_call7_v13 : Ref sig .tc := ⟨.hbm, 286, rfl⟩
abbrev main_call7_v14 : Ref sig .tc := ⟨.hbm, 287, rfl⟩
abbrev main_call7_cst : Ref sig .tc := ⟨.hbm, 288, rfl⟩
abbrev main_call7_v15 : Ref sig .tc := ⟨.hbm, 289, rfl⟩
abbrev main_v103 : Ref sig .tc := ⟨.hbm, 290, rfl⟩
abbrev main_v104 : Ref sig .tc := ⟨.hbm, 291, rfl⟩
abbrev main_cst_7 : Ref sig .tc := ⟨.hbm, 292, rfl⟩
abbrev main_v105 : Ref sig .tc := ⟨.hbm, 293, rfl⟩
abbrev main_v106 : Ref sig .tc := ⟨.hbm, 294, rfl⟩
abbrev main_v107 : Ref sig .tc := ⟨.hbm, 295, rfl⟩
abbrev main_v108 : Ref sig .tc := ⟨.hbm, 296, rfl⟩
abbrev main_v109 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x50000x64_S200000x64 : S4x50000x64.ShapeCasts S200000x64
  transposes_S8x64x64_S64x8x64_1_0_2 : S8x64x64.Transposes [1, 0, 2] S64x8x64
  shapeCasts_S64x8x64_S64x512 : S64x8x64.ShapeCasts S64x512
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S4000x512_S4000x512_0_0 : ∀ a, (![0, 0] : Fin 2 → Nat) a + S4000x512.size a ≤ S4000x512.size a
  h_S4000x512 : 0 < S4000x512.numel
  shapeCasts_S200000x512_S4x50000x8x64 : S200000x512.ShapeCasts S4x50000x8x64
  bcast_S_S4x50000x64 : S_.BroadcastsInDim S4x50000x64 (![] : Fin 0 → Fin S4x50000x64.rank)
  slices_S4x50000x8x64_S4x50000x1x64_0_0_0_0 : S4x50000x8x64.Slices ![0, 0, 0, 0] S4x50000x1x64
  shapeCasts_S4x50000x1x64_S4x50000x64 : S4x50000x1x64.ShapeCasts S4x50000x64
  slices_S8x200000x2_S1x200000x1_0_0_0 : S8x200000x2.Slices ![0, 0, 0] S1x200000x1
  shapeCasts_S1x200000x1_S200000 : S1x200000x1.ShapeCasts S200000
  slices_S8x200000x2_S1x200000x1_0_0_1 : S8x200000x2.Slices ![0, 0, 1] S1x200000x1
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S4x200000x64_1 : S200000.BroadcastsInDim S4x200000x64 (![1] : Fin 1 → Fin S4x200000x64.rank)
  bcast_S_S4x200000x64 : S_.BroadcastsInDim S4x200000x64 (![] : Fin 0 → Fin S4x200000x64.rank)
  transposes_S4x200000x64_S200000x4x64_1_0_2 : S4x200000x64.Transposes [1, 0, 2] S200000x4x64
  bcast_S_S50000x4x64 : S_.BroadcastsInDim S50000x4x64 (![] : Fin 0 → Fin S50000x4x64.rank)
  transposes_S50000x4x64_S4x50000x64_1_0_2 : S50000x4x64.Transposes [1, 0, 2] S4x50000x64
  slices_S4x50000x8x64_S4x50000x1x64_0_0_1_0 : S4x50000x8x64.Slices ![0, 0, 1, 0] S4x50000x1x64
  slices_S8x200000x2_S1x200000x1_1_0_0 : S8x200000x2.Slices ![1, 0, 0] S1x200000x1
  slices_S8x200000x2_S1x200000x1_1_0_1 : S8x200000x2.Slices ![1, 0, 1] S1x200000x1
  slices_S4x50000x8x64_S4x50000x1x64_0_0_2_0 : S4x50000x8x64.Slices ![0, 0, 2, 0] S4x50000x1x64
  slices_S8x200000x2_S1x200000x1_2_0_0 : S8x200000x2.Slices ![2, 0, 0] S1x200000x1
  slices_S8x200000x2_S1x200000x1_2_0_1 : S8x200000x2.Slices ![2, 0, 1] S1x200000x1
  slices_S4x50000x8x64_S4x50000x1x64_0_0_3_0 : S4x50000x8x64.Slices ![0, 0, 3, 0] S4x50000x1x64
  slices_S8x200000x2_S1x200000x1_3_0_0 : S8x200000x2.Slices ![3, 0, 0] S1x200000x1
  slices_S8x200000x2_S1x200000x1_3_0_1 : S8x200000x2.Slices ![3, 0, 1] S1x200000x1
  slices_S4x50000x8x64_S4x50000x1x64_0_0_4_0 : S4x50000x8x64.Slices ![0, 0, 4, 0] S4x50000x1x64
  slices_S8x200000x2_S1x200000x1_4_0_0 : S8x200000x2.Slices ![4, 0, 0] S1x200000x1
  slices_S8x200000x2_S1x200000x1_4_0_1 : S8x200000x2.Slices ![4, 0, 1] S1x200000x1
  slices_S4x50000x8x64_S4x50000x1x64_0_0_5_0 : S4x50000x8x64.Slices ![0, 0, 5, 0] S4x50000x1x64
  slices_S8x200000x2_S1x200000x1_5_0_0 : S8x200000x2.Slices ![5, 0, 0] S1x200000x1
  slices_S8x200000x2_S1x200000x1_5_0_1 : S8x200000x2.Slices ![5, 0, 1] S1x200000x1
  slices_S4x50000x8x64_S4x50000x1x64_0_0_6_0 : S4x50000x8x64.Slices ![0, 0, 6, 0] S4x50000x1x64
  slices_S8x200000x2_S1x200000x1_6_0_0 : S8x200000x2.Slices ![6, 0, 0] S1x200000x1
  slices_S8x200000x2_S1x200000x1_6_0_1 : S8x200000x2.Slices ![6, 0, 1] S1x200000x1
  slices_S4x50000x8x64_S4x50000x1x64_0_0_7_0 : S4x50000x8x64.Slices ![0, 0, 7, 0] S4x50000x1x64
  slices_S8x200000x2_S1x200000x1_7_0_0 : S8x200000x2.Slices ![7, 0, 0] S1x200000x1
  slices_S8x200000x2_S1x200000x1_7_0_1 : S8x200000x2.Slices ![7, 0, 1] S1x200000x1
  dot_S4000x64_S64x512_S4000x512_1_0_0_1_n_n_wf : DotDims.WF S4000x64 S64x512 S4000x512 [1] [0] [0] [1] [] []
  gather_S4x50000x64_S200000x1_S4x200000x64_02_1_n_n_1_1_4164_wf : GatherDims.WF S4x50000x64 S200000x1 S4x200000x64 [0, 2] [1] [] [1] [] 1 ![4, 1, 64]
  scatter_S50000x4x64_S200000x1_S200000x4x64_12_0_0_1_wf : ScatterDims.WF S50000x4x64 S200000x1 S200000x4x64 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S200000x512.size a
  hwx0_2 : ∀ i : grid0.Coords, EltTy.bits .f32 = 32 ∨ (Rect.block (s := S200000x512) S4000x512.size (cc0_transform_2 i) (hinb0_2 i)).WholeWords (EltTy.packing .f32)

variable [Facts₀]

def dot_S4000x64_S64x512_S4000x512_1_0_0_1_n_n : DotDims S4000x64 S64x512 S4000x512 where
  lhsContracting := [1]
  rhsContracting := [0]
  lhsNonContracting := [0]
  rhsNonContracting := [1]
  lhsBatch := []
  rhsBatch := []
  wf := dot_S4000x64_S64x512_S4000x512_1_0_0_1_n_n_wf
def gather_S4x50000x64_S200000x1_S4x200000x64_02_1_n_n_1_1_4164 : GatherDims S4x50000x64 S200000x1 S4x200000x64 where
  offsetDims := [0, 2]
  collapsedSliceDims := [1]
  operandBatchingDims := []
  startIndicesBatchingDims := []
  startIndexMap := [1]
  indexVectorDim := 1
  sliceSizes := ![4, 1, 64]
  wf := gather_S4x50000x64_S200000x1_S4x200000x64_02_1_n_n_1_1_4164_wf
def scatter_S50000x4x64_S200000x1_S200000x4x64_12_0_0_1 : ScatterDims S50000x4x64 S200000x1 S200000x4x64 where
  updateWindowDims := [1, 2]
  insertedWindowDims := [0]
  scatterDimsToOperandDims := [0]
  indexVectorDim := 1
  wf := scatter_S50000x4x64_S200000x1_S200000x4x64_12_0_0_1_wf

abbrev win0_0 : Pipeline.Window sig grid0 :=
  Pipeline.Window.ofSpec (Memref.whole main_v0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S8x200000x2 : Shape := ⟨3, ![8, 200000, 2]⟩
abbrev S8x64x64 : Shape := ⟨3, ![8, 64, 64]⟩
abbrev S_ : Shape := ⟨0, ![]⟩
abbrev S1x64x64 : Shape := ⟨3, ![1, 64, 64]⟩
abbrev S64x64 : Shape := ⟨2, ![64, 64]⟩
abbrev S1x200000x1 : Shape := ⟨3, ![1, 200000, 1]⟩
abbrev S200000 : Shape := ⟨1, ![200000]⟩
abbrev S200000x1 : Shape := ⟨2, ![200000, 1]⟩
abbrev S1 : Shape := ⟨1, ![1]⟩
abbrev S1x1 : Shape := ⟨2, ![1, 1]⟩
abbrev S4x200000x64 : Shape := ⟨3, ![4, 200000, 64]⟩
abbrev S200000x4x64 : Shape := ⟨3, ![200000, 4, 64]⟩
abbrev S50000x4x64 : Shape := ⟨3, ![50000, 4, 64]⟩

abbrev nBuf : Space → Nat
  | .hbm => 301
  | .vmem => 0
  | .smem => 0
  | _ => 0

abbrev hbmTy0_0 (i : Nat) : BufTy := match i % 128 with
  | 0 => ⟨S4x50000x64, .f32⟩
  | 1 => ⟨S8x200000x2, .i32⟩
  | 2 => ⟨S8x64x64, .f32⟩
  | 3 => ⟨S_, .f32⟩
  | 4 => ⟨S4x50000x64, .f32⟩
  | 5 => ⟨S1x64x64, .f32⟩
  | 6 => ⟨S64x64, .f32⟩
  | 7 => ⟨S4x50000x64, .f32⟩
  | 8 => ⟨S1x200000x1, .i32⟩
  | 9 => ⟨S200000, .i32⟩
  | 10 => ⟨S1x200000x1, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S1, .i32⟩
  | 21 => ⟨S_, .i32⟩
  | 22 => ⟨S200000x1, .i32⟩
  | 23 => ⟨S200000x1, .i1⟩
  | 24 => ⟨S1x1, .i32⟩
  | 25 => ⟨S200000x1, .i32⟩
  | 26 => ⟨S200000x1, .i1⟩
  | 27 => ⟨S200000x1, .i1⟩
  | 28 => ⟨S_, .i1⟩
  | 29 => ⟨S200000, .i1⟩
  | 30 => ⟨S4x200000x64, .f32⟩
  | 31 => ⟨S4x200000x64, .i1⟩
  | 32 => ⟨S_, .f32⟩
  | 33 => ⟨S4x200000x64, .f32⟩
  | 34 => ⟨S4x200000x64, .f32⟩
  | 35 => ⟨S200000x4x64, .f32⟩
  | 36 => ⟨S_, .f32⟩
  | 37 => ⟨S50000x4x64, .f32⟩
  | 38 => ⟨S200000x1, .i32⟩
  | 39 => ⟨S50000x4x64, .f32⟩
  | 40 => ⟨S4x50000x64, .f32⟩
  | 41 => ⟨S4x50000x64, .f32⟩
  | 42 => ⟨S1x64x64, .f32⟩
  | 43 => ⟨S64x64, .f32⟩
  | 44 => ⟨S4x50000x64, .f32⟩
  | 45 => ⟨S1x200000x1, .i32⟩
  | 46 => ⟨S200000, .i32⟩
  | 47 => ⟨S1x200000x1, .i32⟩
  | 48 => ⟨S200000, .i32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S1, .i32⟩
  | 58 => ⟨S_, .i32⟩
  | 59 => ⟨S200000x1, .i32⟩
  | 60 => ⟨S200000x1, .i1⟩
  | 61 => ⟨S1x1, .i32⟩
  | 62 => ⟨S200000x1, .i32⟩
  | 63 => ⟨S200000x1, .i1⟩
  | 64 => ⟨S200000x1, .i1⟩
  | 65 => ⟨S_, .i1⟩
  | 66 => ⟨S200000, .i1⟩
  | 67 => ⟨S4x200000x64, .f32⟩
  | 68 => ⟨S4x200000x64, .i1⟩
  | 69 => ⟨S_, .f32⟩
  | 70 => ⟨S4x200000x64, .f32⟩
  | 71 => ⟨S4x200000x64, .f32⟩
  | 72 => ⟨S200000x4x64, .f32⟩
  | 73 => ⟨S_, .f32⟩
  | 74 => ⟨S50000x4x64, .f32⟩
  | 75 => ⟨S200000x1, .i32⟩
  | 76 => ⟨S50000x4x64, .f32⟩
  | 77 => ⟨S4x50000x64, .f32⟩
  | 78 => ⟨S4x50000x64, .f32⟩
  | 79 => ⟨S1x64x64, .f32⟩
  | 80 => ⟨S64x64, .f32⟩
  | 81 => ⟨S4x50000x64, .f32⟩
  | 82 => ⟨S1x200000x1, .i32⟩
  | 83 => ⟨S200000, .i32⟩
  | 84 => ⟨S1x200000x1, .i32⟩
  | 85 => ⟨S200000, .i32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S1, .i32⟩
  | 95 => ⟨S_, .i32⟩
  | 96 => ⟨S200000x1, .i32⟩
  | 97 => ⟨S200000x1, .i1⟩
  | 98 => ⟨S1x1, .i32⟩
  | 99 => ⟨S200000x1, .i32⟩
  | 100 => ⟨S200000x1, .i1⟩
  | 101 => ⟨S200000x1, .i1⟩
  | 102 => ⟨S_, .i1⟩
  | 103 => ⟨S200000, .i1⟩
  | 104 => ⟨S4x200000x64, .f32⟩
  | 105 => ⟨S4x200000x64, .i1⟩
  | 106 => ⟨S_, .f32⟩
  | 107 => ⟨S4x200000x64, .f32⟩
  | 108 => ⟨S4x200000x64, .f32⟩
  | 109 => ⟨S200000x4x64, .f32⟩
  | 110 => ⟨S_, .f32⟩
  | 111 => ⟨S50000x4x64, .f32⟩
  | 112 => ⟨S200000x1, .i32⟩
  | 113 => ⟨S50000x4x64, .f32⟩
  | 114 => ⟨S4x50000x64, .f32⟩
  | 115 => ⟨S4x50000x64, .f32⟩
  | 116 => ⟨S1x64x64, .f32⟩
  | 117 => ⟨S64x64, .f32⟩
  | 118 => ⟨S4x50000x64, .f32⟩
  | 119 => ⟨S1x200000x1, .i32⟩
  | 120 => ⟨S200000, .i32⟩
  | 121 => ⟨S1x200000x1, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S4x50000x64, .f32⟩

abbrev hbmTy0_1 (i : Nat) : BufTy := match i % 128 with
  | 0 => ⟨S200000, .i32⟩
  | 1 => ⟨S200000, .i32⟩
  | 2 => ⟨S200000x1, .i32⟩
  | 3 => ⟨S1, .i32⟩
  | 4 => ⟨S_, .i32⟩
  | 5 => ⟨S200000x1, .i32⟩
  | 6 => ⟨S200000x1, .i1⟩
  | 7 => ⟨S1x1, .i32⟩
  | 8 => ⟨S200000x1, .i32⟩
  | 9 => ⟨S200000x1, .i1⟩
  | 10 => ⟨S200000x1, .i1⟩
  | 11 => ⟨S_, .i1⟩
  | 12 => ⟨S200000, .i1⟩
  | 13 => ⟨S4x200000x64, .f32⟩
  | 14 => ⟨S4x200000x64, .i1⟩
  | 15 => ⟨S_, .f32⟩
  | 16 => ⟨S4x200000x64, .f32⟩
  | 17 => ⟨S4x200000x64, .f32⟩
  | 18 => ⟨S200000x4x64, .f32⟩
  | 19 => ⟨S_, .f32⟩
  | 20 => ⟨S50000x4x64, .f32⟩
  | 21 => ⟨S200000x1, .i32⟩
  | 22 => ⟨S50000x4x64, .f32⟩
  | 23 => ⟨S4x50000x64, .f32⟩
  | 24 => ⟨S4x50000x64, .f32⟩
  | 25 => ⟨S1x64x64, .f32⟩
  | 26 => ⟨S64x64, .f32⟩
  | 27 => ⟨S4x50000x64, .f32⟩
  | 28 => ⟨S1x200000x1, .i32⟩
  | 29 => ⟨S200000, .i32⟩
  | 30 => ⟨S1x200000x1, .i32⟩
  | 31 => ⟨S200000, .i32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S1, .i32⟩
  | 41 => ⟨S_, .i32⟩
  | 42 => ⟨S200000x1, .i32⟩
  | 43 => ⟨S200000x1, .i1⟩
  | 44 => ⟨S1x1, .i32⟩
  | 45 => ⟨S200000x1, .i32⟩
  | 46 => ⟨S200000x1, .i1⟩
  | 47 => ⟨S200000x1, .i1⟩
  | 48 => ⟨S_, .i1⟩
  | 49 => ⟨S200000, .i1⟩
  | 50 => ⟨S4x200000x64, .f32⟩
  | 51 => ⟨S4x200000x64, .i1⟩
  | 52 => ⟨S_, .f32⟩
  | 53 => ⟨S4x200000x64, .f32⟩
  | 54 => ⟨S4x200000x64, .f32⟩
  | 55 => ⟨S200000x4x64, .f32⟩
  | 56 => ⟨S_, .f32⟩
  | 57 => ⟨S50000x4x64, .f32⟩
  | 58 => ⟨S200000x1, .i32⟩
  | 59 => ⟨S50000x4x64, .f32⟩
  | 60 => ⟨S4x50000x64, .f32⟩
  | 61 => ⟨S4x50000x64, .f32⟩
  | 62 => ⟨S1x64x64, .f32⟩
  | 63 => ⟨S64x64, .f32⟩
  | 64 => ⟨S4x50000x64, .f32⟩
  | 65 => ⟨S1x200000x1, .i32⟩
  | 66 => ⟨S200000, .i32⟩
  | 67 => ⟨S1x200000x1, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S1, .i32⟩
  | 78 => ⟨S_, .i32⟩
  | 79 => ⟨S200000x1, .i32⟩
  | 80 => ⟨S200000x1, .i1⟩
  | 81 => ⟨S1x1, .i32⟩
  | 82 => ⟨S200000x1, .i32⟩
  | 83 => ⟨S200000x1, .i1⟩
  | 84 => ⟨S200000x1, .i1⟩
  | 85 => ⟨S_, .i1⟩
  | 86 => ⟨S200000, .i1⟩
  | 87 => ⟨S4x200000x64, .f32⟩
  | 88 => ⟨S4x200000x64, .i1⟩
  | 89 => ⟨S_, .f32⟩
  | 90 => ⟨S4x200000x64, .f32⟩
  | 91 => ⟨S4x200000x64, .f32⟩
  | 92 => ⟨S200000x4x64, .f32⟩
  | 93 => ⟨S_, .f32⟩
  | 94 => ⟨S50000x4x64, .f32⟩
  | 95 => ⟨S200000x1, .i32⟩
  | 96 => ⟨S50000x4x64, .f32⟩
  | 97 => ⟨S4x50000x64, .f32⟩
  | 98 => ⟨S4x50000x64, .f32⟩
  | 99 => ⟨S1x64x64, .f32⟩
  | 100 => ⟨S64x64, .f32⟩
  | 101 => ⟨S4x50000x64, .f32⟩
  | 102 => ⟨S1x200000x1, .i32⟩
  | 103 => ⟨S200000, .i32⟩
  | 104 => ⟨S1x200000x1, .i32⟩
  | 105 => ⟨S200000, .i32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S1, .i32⟩
  | 115 => ⟨S_, .i32⟩
  | 116 => ⟨S200000x1, .i32⟩
  | 117 => ⟨S200000x1, .i1⟩
  | 118 => ⟨S1x1, .i32⟩
  | 119 => ⟨S200000x1, .i32⟩
  | 120 => ⟨S200000x1, .i1⟩
  | 121 => ⟨S200000x1, .i1⟩
  | 122 => ⟨S_, .i1⟩
  | 123 => ⟨S200000, .i1⟩
  | 124 => ⟨S4x200000x64, .f32⟩
  | 125 => ⟨S4x200000x64, .i1⟩
  | 126 => ⟨S_, .f32⟩
  | 127 => ⟨S4x200000x64, .f32⟩
  | _ => ⟨S4x50000x64, .f32⟩

abbrev hbmTy0_2 (i : Nat) : BufTy := match i % 128 with
  | 0 => ⟨S4x200000x64, .f32⟩
  | 1 => ⟨S200000x4x64, .f32⟩
  | 2 => ⟨S_, .f32⟩
  | 3 => ⟨S50000x4x64, .f32⟩
  | 4 => ⟨S200000x1, .i32⟩
  | 5 => ⟨S50000x4x64, .f32⟩
  | 6 => ⟨S4x50000x64, .f32⟩
  | 7 => ⟨S4x50000x64, .f32⟩
  | 8 => ⟨S1x64x64, .f32⟩
  | 9 => ⟨S64x64, .f32⟩
  | 10 => ⟨S4x50000x64, .f32⟩
  | 11 => ⟨S1x200000x1, .i32⟩
  | 12 => ⟨S200000, .i32⟩
  | 13 => ⟨S1x200000x1, .i32⟩
  | 14 => ⟨S200000, .i32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S1, .i32⟩
  | 24 => ⟨S_, .i32⟩
  | 25 => ⟨S200000x1, .i32⟩
  | 26 => ⟨S200000x1, .i1⟩
  | 27 => ⟨S1x1, .i32⟩
  | 28 => ⟨S200000x1, .i32⟩
  | 29 => ⟨S200000x1, .i1⟩
  | 30 => ⟨S200000x1, .i1⟩
  | 31 => ⟨S_, .i1⟩
  | 32 => ⟨S200000, .i1⟩
  | 33 => ⟨S4x200000x64, .f32⟩
  | 34 => ⟨S4x200000x64, .i1⟩
  | 35 => ⟨S_, .f32⟩
  | 36 => ⟨S4x200000x64, .f32⟩
  | 37 => ⟨S4x200000x64, .f32⟩
  | 38 => ⟨S200000x4x64, .f32⟩
  | 39 => ⟨S_, .f32⟩
  | 40 => ⟨S50000x4x64, .f32⟩
  | 41 => ⟨S200000x1, .i32⟩
  | 42 => ⟨S50000x4x64, .f32⟩
  | 43 => ⟨S4x50000x64, .f32⟩
  | 44 => ⟨S4x50000x64, .f32⟩
  | _ => ⟨S4x50000x64, .f32⟩

abbrev hbmTy (i : Nat) : BufTy := match i / 128 with
  | 0 => hbmTy0_0 i
  | 1 => hbmTy0_1 i
  | 2 => hbmTy0_2 i
  | _ => ⟨S4x50000x64, .f32⟩

abbrev bufTy : (tb : Table) → Fin (tcTables nBuf tb) → BufTy
  | .hbm, ⟨i, _⟩ => hbmTy i
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v22 : Ref sig .tc := ⟨.hbm, 71, rfl⟩
abbrev main_v23 : Ref sig .tc := ⟨.hbm, 72, rfl⟩
abbrev main_cst_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v36 : Ref sig .tc := ⟨.hbm, 108, rfl⟩
abbrev main_v37 : Ref sig .tc := ⟨.hbm, 109, rfl⟩
abbrev main_cst_2 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v50 : Ref sig .tc := ⟨.hbm, 145, rfl⟩
abbrev main_v51 : Ref sig .tc := ⟨.hbm, 146, rfl⟩
abbrev main_cst_3 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_c_1 : Ref sig .tc := ⟨.hbm, 168, rfl⟩
abbrev main_call4_c_2 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_c_3 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_call4_cst : Ref sig .tc := ⟨.hbm, 180, rfl⟩
abbrev main_call4_v15 : Ref sig .tc := ⟨.hbm, 181, rfl⟩
abbrev main_v64 : Ref sig .tc := ⟨.hbm, 182, rfl⟩
abbrev main_v65 : Ref sig .tc := ⟨.hbm, 183, rfl⟩
abbrev main_cst_4 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_call5_c : Ref sig .tc := ⟨.hbm, 197, rfl⟩
abbrev main_call5_v0 : Ref sig .tc := ⟨.hbm, 198, rfl⟩
abbrev main_call5_v1 : Ref sig .tc := ⟨.hbm, 199, rfl⟩
abbrev main_call5_c_0 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_call5_v5 : Ref sig .tc := ⟨.hbm, 204, rfl⟩
abbrev main_call5_c_1 : Ref sig .tc := ⟨.hbm, 205, rfl⟩
abbrev main_call5_c_2 : Ref sig .tc := ⟨.hbm, 206, rfl⟩
abbrev main_call5_v6 : Ref sig .tc := ⟨.hbm, 207, rfl⟩
abbrev main_call5_v7 : Ref sig .tc := ⟨.hbm, 208, rfl⟩
abbrev main_call5_v8 : Ref sig .tc := ⟨.hbm, 209, rfl⟩
abbrev main_call5_v9 : Ref sig .tc := ⟨.hbm, 210, rfl⟩
abbrev main_call5_v10 : Ref sig .tc := ⟨.hbm, 211, rfl⟩
abbrev main_call5_v11 : Ref sig .tc := ⟨.hbm, 212, rfl⟩
abbrev main_call5_c_3 : Ref sig .tc := ⟨.hbm, 213, rfl⟩
abbrev main_call5_v12 : Ref sig .tc := ⟨.hbm, 214, rfl⟩
abbrev main_call5_v13 : Ref sig .tc := ⟨.hbm, 215, rfl⟩
abbrev main_call5_v14 : Ref sig .tc := ⟨.hbm, 216, rfl⟩
abbrev main_call5_cst : Ref sig .tc := ⟨.hbm, 217, rfl⟩
abbrev main_call5_v15 : Ref sig .tc := ⟨.hbm, 218, rfl⟩
abbrev main_v78 : Ref sig .tc := ⟨.hbm, 219, rfl⟩
abbrev main_v79 : Ref sig .tc := ⟨.hbm, 220, rfl⟩
abbrev main_cst_5 : Ref sig .tc := ⟨.hbm, 221, rfl⟩
abbrev main_v80 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev main_v90 : Ref sig .tc := ⟨.hbm, 232, rfl⟩
abbrev main_v91 : Ref sig .tc := ⟨.hbm, 233, rfl⟩
abbrev main_call6_c : Ref sig .tc := ⟨.hbm, 234, rfl⟩
abbrev main_call6_v0 : Ref sig .tc := ⟨.hbm, 235, rfl⟩
abbrev main_call6_v1 : Ref sig .tc := ⟨.hbm, 236, rfl⟩
abbrev main_call6_c_0 : Ref sig .tc := ⟨.hbm, 237, rfl⟩
abbrev main_call6_v2 : Ref sig .tc := ⟨.hbm, 238, rfl⟩
abbrev main_call6_v3 : Ref sig .tc := ⟨.hbm, 239, rfl⟩
abbrev main_call6_v4 : Ref sig .tc := ⟨.hbm, 240, rfl⟩
abbrev main_call6_v5 : Ref sig .tc := ⟨.hbm, 241, rfl⟩
abbrev main_call6_c_1 : Ref sig .tc := ⟨.hbm, 242, rfl⟩
abbrev main_call6_c_2 : Ref sig .tc := ⟨.hbm, 243, rfl⟩
abbrev main_call6_v6 : Ref sig .tc := ⟨.hbm, 244, rfl⟩
abbrev main_call6_v7 : Ref sig .tc := ⟨.hbm, 245, rfl⟩
abbrev main_call6_v8 : Ref sig .tc := ⟨.hbm, 246, rfl⟩
abbrev main_call6_v9 : Ref sig .tc := ⟨.hbm, 247, rfl⟩
abbrev main_call6_v10 : Ref sig .tc := ⟨.hbm, 248, rfl⟩
abbrev main_call6_v11 : Ref sig .tc := ⟨.hbm, 249, rfl⟩
abbrev main_call6_c_3 : Ref sig .tc := ⟨.hbm, 250, rfl⟩
abbrev main_call6_v12 : Ref sig .tc := ⟨.hbm, 251, rfl⟩
abbrev main_call6_v13 : Ref sig .tc := ⟨.hbm, 252, rfl⟩
abbrev main_call6_v14 : Ref sig .tc := ⟨.hbm, 253, rfl⟩
abbrev main_call6_cst : Ref sig .tc := ⟨.hbm, 254, rfl⟩
abbrev main_call6_v15 : Ref sig .tc := ⟨.hbm, 255, rfl⟩
abbrev main_v92 : Ref sig .tc := ⟨.hbm, 256, rfl⟩
abbrev main_v93 : Ref sig .tc := ⟨.hbm, 257, rfl⟩
abbrev main_cst_6 : Ref sig .tc := ⟨.hbm, 258, rfl⟩
abbrev main_v94 : Ref sig .tc := ⟨.hbm, 259, rfl⟩
abbrev main_v95 : Ref sig .tc := ⟨.hbm, 260, rfl⟩
abbrev main_v96 : Ref sig .tc := ⟨.hbm, 261, rfl⟩
abbrev main_v97 : Ref sig .tc := ⟨.hbm, 262, rfl⟩
abbrev main_v98 : Ref sig .tc := ⟨.hbm, 263, rfl⟩
abbrev main_v99 : Ref sig .tc := ⟨.hbm, 264, rfl⟩
abbrev main_v100 : Ref sig .tc := ⟨.hbm, 265, rfl⟩
abbrev main_v101 : Ref sig .tc := ⟨.hbm, 266, rfl⟩
abbrev main_v102 : Ref sig .tc := ⟨.hbm, 267, rfl⟩
abbrev main_v103 : Ref sig .tc := ⟨.hbm, 268, rfl⟩
abbrev main_v104 : Ref sig .tc := ⟨.hbm, 269, rfl⟩
abbrev main_v105 : Ref sig .tc := ⟨.hbm, 270, rfl⟩
abbrev main_call7_c : Ref sig .tc := ⟨.hbm, 271, rfl⟩
abbrev main_call7_v0 : Ref sig .tc := ⟨.hbm, 272, rfl⟩
abbrev main_call7_v1 : Ref sig .tc := ⟨.hbm, 273, rfl⟩
abbrev main_call7_c_0 : Ref sig .tc := ⟨.hbm, 274, rfl⟩
abbrev main_call7_v2 : Ref sig .tc := ⟨.hbm, 275, rfl⟩
abbrev main_call7_v3 : Ref sig .tc := ⟨.hbm, 276, rfl⟩
abbrev main_call7_v4 : Ref sig .tc := ⟨.hbm, 277, rfl⟩
abbrev main_call7_v5 : Ref sig .tc := ⟨.hbm, 278, rfl⟩
abbrev main_call7_c_1 : Ref sig .tc := ⟨.hbm, 279, rfl⟩
abbrev main_call7_c_2 : Ref sig .tc := ⟨.hbm, 280, rfl⟩
abbrev main_call7_v6 : Ref sig .tc := ⟨.hbm, 281, rfl⟩
abbrev main_call7_v7 : Ref sig .tc := ⟨.hbm, 282, rfl⟩
abbrev main_call7_v8 : Ref sig .tc := ⟨.hbm, 283, rfl⟩
abbrev main_call7_v9 : Ref sig .tc := ⟨.hbm, 284, rfl⟩
abbrev main_call7_v10 : Ref sig .tc := ⟨.hbm, 285, rfl⟩
abbrev main_call7_v11 : Ref sig .tc := ⟨.hbm, 286, rfl⟩
abbrev main_call7_c_3 : Ref sig .tc := ⟨.hbm, 287, rfl⟩
abbrev main_call7_v12 : Ref sig .tc := ⟨.hbm, 288, rfl⟩
abbrev main_call7_v13 : Ref sig .tc := ⟨.hbm, 289, rfl⟩
abbrev main_call7_v14 : Ref sig .tc := ⟨.hbm, 290, rfl⟩
abbrev main_call7_cst : Ref sig .tc := ⟨.hbm, 291, rfl⟩
abbrev main_call7_v15 : Ref sig .tc := ⟨.hbm, 292, rfl⟩
abbrev main_v106 : Ref sig .tc := ⟨.hbm, 293, rfl⟩
abbrev main_v107 : Ref sig .tc := ⟨.hbm, 294, rfl⟩
abbrev main_cst_7 : Ref sig .tc := ⟨.hbm, 295, rfl⟩
abbrev main_v108 : Ref sig .tc := ⟨.hbm, 296, rfl⟩
abbrev main_v109 : Ref sig .tc := ⟨.hbm, 297, rfl⟩
abbrev main_v110 : Ref sig .tc := ⟨.hbm, 298, rfl⟩
abbrev main_v111 : Ref sig .tc := ⟨.hbm, 299, rfl⟩
abbrev main_v112 : Ref sig .tc := ⟨.hbm, 300, rfl⟩

abbrev nD : Nat := 1
abbrev τ : Topo := Topo.v7x

variable {F : FTy → Type} [FloatOps F]

class Facts₀ : Prop where
  bcast_S_S4x50000x64 : S_.BroadcastsInDim S4x50000x64 (![] : Fin 0 → Fin S4x50000x64.rank)
  slices_S8x64x64_S1x64x64_0_0_0 : S8x64x64.Slices ![0, 0, 0] S1x64x64
  shapeCasts_S1x64x64_S64x64 : S1x64x64.ShapeCasts S64x64
  slices_S8x200000x2_S1x200000x1_0_0_0 : S8x200000x2.Slices ![0, 0, 0] S1x200000x1
  shapeCasts_S1x200000x1_S200000 : S1x200000x1.ShapeCasts S200000
  slices_S8x200000x2_S1x200000x1_0_0_1 : S8x200000x2.Slices ![0, 0, 1] S1x200000x1
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S4x200000x64_1 : S200000.BroadcastsInDim S4x200000x64 (![1] : Fin 1 → Fin S4x200000x64.rank)
  bcast_S_S4x200000x64 : S_.BroadcastsInDim S4x200000x64 (![] : Fin 0 → Fin S4x200000x64.rank)
  transposes_S4x200000x64_S200000x4x64_1_0_2 : S4x200000x64.Transposes [1, 0, 2] S200000x4x64
  bcast_S_S50000x4x64 : S_.BroadcastsInDim S50000x4x64 (![] : Fin 0 → Fin S50000x4x64.rank)
  transposes_S50000x4x64_S4x50000x64_1_0_2 : S50000x4x64.Transposes [1, 0, 2] S4x50000x64
  slices_S8x64x64_S1x64x64_1_0_0 : S8x64x64.Slices ![1, 0, 0] S1x64x64
  slices_S8x200000x2_S1x200000x1_1_0_0 : S8x200000x2.Slices ![1, 0, 0] S1x200000x1
  slices_S8x200000x2_S1x200000x1_1_0_1 : S8x200000x2.Slices ![1, 0, 1] S1x200000x1
  slices_S8x64x64_S1x64x64_2_0_0 : S8x64x64.Slices ![2, 0, 0] S1x64x64
  slices_S8x200000x2_S1x200000x1_2_0_0 : S8x200000x2.Slices ![2, 0, 0] S1x200000x1
  slices_S8x200000x2_S1x200000x1_2_0_1 : S8x200000x2.Slices ![2, 0, 1] S1x200000x1
  slices_S8x64x64_S1x64x64_3_0_0 : S8x64x64.Slices ![3, 0, 0] S1x64x64
  slices_S8x200000x2_S1x200000x1_3_0_0 : S8x200000x2.Slices ![3, 0, 0] S1x200000x1
  slices_S8x200000x2_S1x200000x1_3_0_1 : S8x200000x2.Slices ![3, 0, 1] S1x200000x1
  slices_S8x64x64_S1x64x64_4_0_0 : S8x64x64.Slices ![4, 0, 0] S1x64x64
  slices_S8x200000x2_S1x200000x1_4_0_0 : S8x200000x2.Slices ![4, 0, 0] S1x200000x1
  slices_S8x200000x2_S1x200000x1_4_0_1 : S8x200000x2.Slices ![4, 0, 1] S1x200000x1
  slices_S8x64x64_S1x64x64_5_0_0 : S8x64x64.Slices ![5, 0, 0] S1x64x64
  slices_S8x200000x2_S1x200000x1_5_0_0 : S8x200000x2.Slices ![5, 0, 0] S1x200000x1
  slices_S8x200000x2_S1x200000x1_5_0_1 : S8x200000x2.Slices ![5, 0, 1] S1x200000x1
  slices_S8x64x64_S1x64x64_6_0_0 : S8x64x64.Slices ![6, 0, 0] S1x64x64
  slices_S8x200000x2_S1x200000x1_6_0_0 : S8x200000x2.Slices ![6, 0, 0] S1x200000x1
  slices_S8x200000x2_S1x200000x1_6_0_1 : S8x200000x2.Slices ![6, 0, 1] S1x200000x1
  slices_S8x64x64_S1x64x64_7_0_0 : S8x64x64.Slices ![7, 0, 0] S1x64x64
  slices_S8x200000x2_S1x200000x1_7_0_0 : S8x200000x2.Slices ![7, 0, 0] S1x200000x1
  slices_S8x200000x2_S1x200000x1_7_0_1 : S8x200000x2.Slices ![7, 0, 1] S1x200000x1
  dot_S4x50000x64_S64x64_S4x50000x64_2_0_01_1_n_n_wf : DotDims.WF S4x50000x64 S64x64 S4x50000x64 [2] [0] [0, 1] [1] [] []
  gather_S4x50000x64_S200000x1_S4x200000x64_02_1_n_n_1_1_4164_wf : GatherDims.WF S4x50000x64 S200000x1 S4x200000x64 [0, 2] [1] [] [1] [] 1 ![4, 1, 64]
  scatter_S50000x4x64_S200000x1_S200000x4x64_12_0_0_1_wf : ScatterDims.WF S50000x4x64 S200000x1 S200000x4x64 [1, 2] [0] [0] 1

variable [Facts₀]

def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf
def gather_S4x50000x64_S200000x1_S4x200000x64_02_1_n_n_1_1_4164 : GatherDims S4x50000x64 S200000x1 S4x200000x64 where
  offsetDims := [0, 2]
  collapsedSliceDims := [1]
  operandBatchingDims := []
  startIndicesBatchingDims := []
  startIndexMap := [1]
  indexVectorDim := 1
  sliceSizes := ![4, 1, 64]
  wf := gather_S4x50000x64_S200000x1_S4x200000x64_02_1_n_n_1_1_4164_wf
def scatter_S50000x4x64_S200000x1_S200000x4x64_12_0_0_1 : ScatterDims S50000x4x64 S200000x1 S200000x4x64 where
  updateWindowDims := [1, 2]
  insertedWindowDims := [0]
  scatterDimsToOperandDims := [0]
  indexVectorDim := 1
  wf := scatter_S50000x4x64_S200000x1_S200000x4x64_12_0_0_1_wf

class Facts : Prop extends Facts₀ where

variable [Facts]
-- ==== Proof.KFrameDefs.lean ====
import proofs.«169067_j54434415510061_1_alg».proof.Proof.Gen.Kernel.Launch
import proofs.«169067_j54434415510061_1_alg».proof.Proof.Gen.Kernel.Skeleton
import proofs.«169067_j54434415510061_1_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # The data of the frame proof of the blocked matmul `h2d = x2d · Wcat`

The one pipelined region multiplies the 200000×64 array `x2d` by the 64×512 array `Wcat` in 50 row blocks of
4000 rows. This module names what the frame proof talks about: the buffers' contents when the region is entered,
the host operations that follow it, each window's block at a grid point, what the body leaves in the output
block, and the proof data handed to the pipeline library. -/

/-! ## @main around the region -/

/-- Core `c`'s buffer contents when the region is entered: the launch contents `m` after the three host operations
    that precede it (the reshape of `x` to 200000×64, the transpose of the weights and its reshape to 64×512). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host operations after the region, stretch by stretch: the reshape of the product and, per relation, the
    index slices, the gather of source rows, the scatter-add onto destination rows and the running sum. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15, hostOps1_16]

/-! ## The windows' blocks -/

/-- Window `w`'s block at grid point `t`, read off its array as the region finds it: for window 0 rows
    `4000 t … 4000 t + 3999` of `x2d`, for window 1 all of `Wcat`, for window 2 the same rows of the output array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- The whole 4000×64 block of `x2d`: the rectangle the body loads its left factor through. -/
abbrev rectX : Rect S4000x64 := Rect.unit (s := S4000x64) ![0, 0] S4000x64.size inb_S4000x64_S4000x64_0_0
/-- The whole 64×512 array `Wcat`: the rectangle the body loads its right factor through. -/
abbrev rectW : Rect S64x512 := Rect.unit (s := S64x512) ![0, 0] S64x512.size inb_S64x512_S64x512_0_0
/-- The whole 4000×512 output block: the rectangle the body stores the product through. -/
abbrev rectY : Rect S4000x512 := Rect.unit (s := S4000x512) ![0, 0] S4000x512.size inb_S4000x512_S4000x512_0_0

/-- The output block after the body, from the two input blocks: the one store, over the whole block, of the product of
    the bf16-rounded factors accumulated in f32 from zero (`k0_pay1`). -/
def blockOut (x0 : Vec F S4000x64 .f32) (x1 : Vec F S64x512 .f32) : Vec F S4000x512 .f32 :=
  View.canon [⟨rectY, k0_pay1 (View.ld x0 rectX) (View.ld x1 rectW)⟩]

/-! ## The pipeline's proof data -/

/-- The proof data of the one pipeline on core `c`: the arrays as the region finds them; after the body at point `t`
    the two input buffers hold their blocks and the output buffer holds `blockOut` of them; the invariant is the
    class's (the scoped rest and the generator register, untouched); nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = blockOut (iblk m c 0 t) (iblk m c 1 t) := by dsimp only [dats]

end Cert.Kernel.Hand

end
-- ==== Proof.KFrameHost.lean ====
import proofs.«169067_j54434415510061_1_alg».proof.Proof.KFrameDefs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # @main around the matmul region: the host operations before and after it

Three host operations precede the region (they build `x2d` and `Wcat` from the arguments) and 291 follow it (they
consume the product). None of them allocates, none after the region writes an array of the pipeline or an argument,
and none before it writes an argument. This module proves those facts stretch by stretch and cuts @main around the
region. -/

/-! ## The buffers the later operations leave alone -/

/-- The three arguments and the three arrays the pipeline stages (`x2d`, `Wcat`, the product). -/
abbrev kept : List (Ref sig .tc) := [main_arg0, main_arg1, main_arg2, main_v0, main_v2, main_v3]

/-- A host operation that allocates nothing and writes none of `kept`. -/
def TailOk (op : HloOp τ sig (Elt F)) : Prop :=
  op.fresh = ∅ ∧ ∀ r ∈ kept, Proc.devRef (τ := τ) .tc r ∉ op.writes

/-- An operation allocating nothing whose one written buffer `y` is none of `kept` is such an operation. -/
theorem tailOk_of {op : HloOp τ sig (Elt F)} {y : Ref sig .tc} (hf : op.fresh = ∅)
    (h : op.writes = {Proc.devRef .tc y}) (hy : y ∉ kept) : TailOk op :=
  ⟨hf, fun r hr hm => by
    rw [h, Finset.mem_singleton] at hm
    exact hy (Proc.devRef_injective _ hm ▸ hr)⟩

/-! ## The stretches after the region, one by one

Each operation writes exactly its own result buffer (the builders' `_writes` facts), and that buffer is a value
defined after the region: none of `kept` (decided on the references). -/

/-- The reshape of the product and the first relation's slices: 9 operations. -/
theorem hostOps1_ok : (hostOps1 : List (HloOp τ sig (Elt F))).Forall TailOk :=
  ⟨tailOk_of rfl (StableHlo.reshape_writes ..) (by decide),
   tailOk_of rfl (StableHlo.nullary_writes ..) (by decide),
   tailOk_of rfl (StableHlo.unary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_1_ok : (hostOps1_1 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_2_ok : (hostOps1_2 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_3_ok : (hostOps1_3 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_4_ok : (hostOps1_4 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_5_ok : (hostOps1_5 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_6_ok : (hostOps1_6 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_7_ok : (hostOps1_7 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_8_ok : (hostOps1_8 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_9_ok : (hostOps1_9 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_10_ok : (hostOps1_10 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_11_ok : (hostOps1_11 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_12_ok : (hostOps1_12 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_13_ok : (hostOps1_13 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_14_ok : (hostOps1_14 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_15_ok : (hostOps1_15 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- The last scatter-add and the final sum: 7 operations. -/
theorem hostOps1_16_ok : (hostOps1_16 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide)⟩

/-- All 17 stretches. -/
theorem tailOps_ok : (tailOps : List (List (HloOp τ sig (Elt F)))).Forall fun ops => ops.Forall TailOk :=
  ⟨hostOps1_ok, hostOps1_1_ok, hostOps1_2_ok, hostOps1_3_ok, hostOps1_4_ok, hostOps1_5_ok, hostOps1_6_ok, hostOps1_7_ok, hostOps1_8_ok, hostOps1_9_ok, hostOps1_10_ok, hostOps1_11_ok, hostOps1_12_ok, hostOps1_13_ok, hostOps1_14_ok, hostOps1_15_ok, hostOps1_16_ok⟩

/-- So every operation after the region allocates nothing and writes none of `kept`. -/
theorem tailOk_mem : ∀ ops ∈ (tailOps : List (List (HloOp τ sig (Elt F)))), ∀ op ∈ ops, TailOk op :=
  fun ops hops op hop =>
    (List.forall_iff_forall_mem.mp ((List.forall_iff_forall_mem.mp tailOps_ok) ops hops)) op hop

/-- Each touches TensorCore references only. -/
theorem tailOps_sub : (tailOps : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub⟩

/-! ## What the library's frame run asks of the operations after the region -/

/-- They touch the pipeline's arrays and the bypassing buffers only (unscoped TensorCore references, and with nothing
    prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    ((List.forall_iff_forall_mem.mp ((List.forall_iff_forall_mem.mp tailOps_sub) ops hops)) op hop)

/-- They allocate nothing. -/
theorem sfx_fresh : ∀ ops ∈ (tailOps : List (List (HloOp τ sig (Elt F)))), ∀ op ∈ ops, op.fresh = ∅ :=
  fun ops hops op hop => (tailOk_mem ops hops op hop).1

/-- Each window's array is one of `kept`. -/
theorem arrRef_mem_kept : ∀ w : Fin 3, Pipeline.arrRef spec0 w ∈ kept := by decide

/-- They write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (tailOk_mem ops hops op hop).2 _ (arrRef_mem_kept w)

/-- No operation after the region writes a buffer of `kept`, read over the flattened list. -/
theorem tail_not_writes (r : Ref sig .tc) (hr : r ∈ kept) :
    ∀ op ∈ (tailOps : List (List (HloOp τ sig (Elt F)))).flatten, Proc.devRef (τ := τ) .tc r ∉ op.writes := by
  intro op hop
  obtain ⟨ops, hops, hop'⟩ := List.mem_flatten.mp hop
  exact (tailOk_mem ops hops op hop').2 r hr

/-! ## The operations before the region -/

/-- They allocate nothing. -/
theorem hostOps0_fresh : (hostOps0 : List (HloOp τ sig (Elt F))).Forall fun op => op.fresh = ∅ := by
  simp only [List.Forall]; repeat' constructor

/-- They write `x2d`, the transposed weights and `Wcat`: no argument. -/
theorem hostOps0_not_writes (r : Ref sig .tc) (hr : r ∈ [main_arg0, main_arg1, main_arg2]) :
    ∀ op ∈ List.flatten [(hostOps0 : List (HloOp τ sig (Elt F)))], Proc.devRef (τ := τ) .tc r ∉ op.writes := by
  refine List.forall_iff_forall_mem.mp ?_
  simp only [List.mem_cons, List.mem_nil_iff, or_false] at hr
  rcases hr with rfl | rfl | rfl
  all_goals
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)

/-- The region finds each argument as launched. -/
theorem V_main_arg0 (c : Dev nD) : V m c main_arg0 = m ((c : Thread nD τ).loc main_arg0) :=
  StableHlo.after_of_forall_not_mem (b := Proc.devRef .tc main_arg0) _ _ (hostOps0_not_writes main_arg0 (by decide))
theorem V_main_arg1 (c : Dev nD) : V m c main_arg1 = m ((c : Thread nD τ).loc main_arg1) :=
  StableHlo.after_of_forall_not_mem (b := Proc.devRef .tc main_arg1) _ _ (hostOps0_not_writes main_arg1 (by decide))
theorem V_main_arg2 (c : Dev nD) : V m c main_arg2 = m ((c : Thread nD τ).loc main_arg2) :=
  StableHlo.after_of_forall_not_mem (b := Proc.devRef .tc main_arg2) _ _ (hostOps0_not_writes main_arg2 (by decide))

/-! ## The arguments at the end -/

/-- An argument is no array of the pipeline. -/
theorem arrRef_ne_arg : ∀ r ∈ [main_arg0, main_arg1, main_arg2], ∀ w : Fin 3, Pipeline.arrRef spec0 w ≠ r := by decide

/-- After the operations that follow the region an argument holds what the region found, which is what was launched:
    no later operation writes it, and the region replaces the contents of its own arrays only. -/
theorem W_of_arg (dats : (p : Fin 1) → (c : Dev nD) → Dat τ (Elt F) Unit ℕ (UR sig nD τ) ℕ (cfgs p) c) (c : Dev nD)
    (r : Ref sig .tc) (hr : r ∈ [main_arg0, main_arg1, main_arg2]) (hk : r ∈ kept)
    (hV : V m c r = m ((c : Thread nD τ).loc r)) :
    Pipeline.afterTail₀ cfgs dats 0 (V0 m) tailOps c r = m ((c : Thread nD τ).loc r) := by
  unfold Pipeline.afterTail₀
  rw [StableHlo.after_of_forall_not_mem (b := Proc.devRef .tc r) _ _ (tail_not_writes r hk),
    Pipeline.withArrays_of_ne _ c (V0 m c) _ r (arrRef_ne_arg r hr)]
  exact hV

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_arg m dats c main_arg0 (by decide) (by decide) (V_main_arg0 m c)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_arg m dats c main_arg1 (by decide) (by decide) (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_arg m dats c main_arg2 (by decide) (by decide) (V_main_arg2 m c)

/-! ## @main cut around the region -/

/-- @main is the three operations before the region, the region, and the 17 stretches after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain

end Cert.Kernel.Hand

end
-- ==== Proof.KFrameBody.lean ====
import proofs.«169067_j54434415510061_1_alg».proof.Proof.KFrameDefs
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # The matmul body's triple

On whole staging memrefs — the `x2d` block and `Wcat` at read contents, the output block at anything — the body
loads both factors, loads the output block (a value it never uses) and stores the product over the whole output
block. It runs to a state with the factors' buffers as they were and the output buffer at `blockOut` of the factors. -/

/-- The one store is through the whole-block rectangle, so it covers the output block (checked by evaluation). -/
theorem coverY (p0 : Vec F S4000x512 .f32) (y : S4000x512.Idx) :
    ∃ pc ∈ ([⟨rectY, p0⟩] : List (View.Piece (Elt F) S4000x512 .f32)), y ∈ pc.1.set :=
  View.cover_of_tiled [⟨rectY, p0⟩] S4000x512.size (by rfl) y

set_option maxHeartbeats 1000000 in
/-- The body's triple: the printed function is its skeleton, which the symbolic executor runs operation by operation;
    what the store leaves, read whole, is the canonical contents of the one covering piece. -/
theorem sound_kernel (c : Dev nD) (E : Set ℕ) (i : grid0.Coords)
    (arg1 : Memref sig .tc .vmem S4000x64 .f32) (harg1 : arg1.IsWhole)
    (arg2 : Memref sig .tc .vmem S64x512 .f32) (harg2 : arg2.IsWhole)
    (arg3 : Memref sig .tc .vmem S4000x512 .f32) (harg3 : arg3.IsWhole)
    (x0 : Vec F S4000x64 .f32) (x1 : Vec F S64x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (blockOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverY _)

end Cert.Kernel.Hand

end
-- ==== Proof.KFrame.lean ====
import proofs.«169067_j54434415510061_1_alg».proof.Proof.KFrameDefs
import proofs.«169067_j54434415510061_1_alg».proof.Proof.KFrameHost
import proofs.«169067_j54434415510061_1_alg».proof.Proof.KFrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # The frame of the blocked matmul `h2d = x2d · Wcat`

From the body's triple and the facts about @main's host operations: every weakly fair execution of @main terminates
without fault in a state where each array of the pipeline holds what the library computes from the proof data and
every other unscoped buffer holds what the operations after the region leave there; in particular the three
argument arrays end as launched. -/

/-! ## What the body finds in the input windows' buffers -/

/-- The `x2d` window's current staging buffer holds its block at every point (it is fetched at each). -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The `Wcat` window's staging buffer holds `Wcat` at every point although it is fetched at the first only: its block
    index never moves and the body leaves the buffer as it found it. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

/-- What the body is called with at point `t`: the invariant, the core's dues, and the three current staging buffers —
    the inputs' at what they hold, the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same with each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; what the output
    buffer held does not matter; the invariant and the dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame from a frame run: no window stages an argument array, so each is one of the other unscoped buffers, which
    end as the operations after the region leave them — as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-- THE FRAME: every weakly fair execution of @main terminates without fault and leaves the three argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.KiFrameDefs.lean ====
import proofs.«169067_j54434415510061_1_alg».proof.Proof.Gen.KernelIdeal.Launch
import proofs.«169067_j54434415510061_1_alg».proof.Proof.Gen.KernelIdeal.Skeleton
import proofs.«169067_j54434415510061_1_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # The data of the frame proof of the blocked matmul `h2d = x2d · Wcat`

The one pipelined region multiplies the 200000×64 array `x2d` by the 64×512 array `Wcat` in 50 row blocks of
4000 rows. This module names what the frame proof talks about: the buffers' contents when the region is entered,
the host operations that follow it, each window's block at a grid point, what the body leaves in the output
block, and the proof data handed to the pipeline library. -/

/-! ## @main around the region -/

/-- Core `c`'s buffer contents when the region is entered: the launch contents `m` after the three host operations
    that precede it (the reshape of `x` to 200000×64, the transpose of the weights and its reshape to 64×512). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host operations after the region, stretch by stretch: the reshape of the product and, per relation, the
    index slices, the gather of source rows, the scatter-add onto destination rows and the running sum. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15, hostOps1_16]

/-! ## The windows' blocks -/

/-- Window `w`'s block at grid point `t`, read off its array as the region finds it: for window 0 rows
    `4000 t … 4000 t + 3999` of `x2d`, for window 1 all of `Wcat`, for window 2 the same rows of the output array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- The whole 4000×64 block of `x2d`: the rectangle the body loads its left factor through. -/
abbrev rectX : Rect S4000x64 := Rect.unit (s := S4000x64) ![0, 0] S4000x64.size inb_S4000x64_S4000x64_0_0
/-- The whole 64×512 array `Wcat`: the rectangle the body loads its right factor through. -/
abbrev rectW : Rect S64x512 := Rect.unit (s := S64x512) ![0, 0] S64x512.size inb_S64x512_S64x512_0_0
/-- The whole 4000×512 output block: the rectangle the body stores the product through. -/
abbrev rectY : Rect S4000x512 := Rect.unit (s := S4000x512) ![0, 0] S4000x512.size inb_S4000x512_S4000x512_0_0

/-- The output block after the body, from the two input blocks: the one store, over the whole block, of the product of
    the bf16-rounded factors accumulated in f32 from zero (`k0_pay1`). -/
def blockOut (x0 : Vec F S4000x64 .f32) (x1 : Vec F S64x512 .f32) : Vec F S4000x512 .f32 :=
  View.canon [⟨rectY, k0_pay1 (View.ld x0 rectX) (View.ld x1 rectW)⟩]

/-! ## The pipeline's proof data -/

/-- The proof data of the one pipeline on core `c`: the arrays as the region finds them; after the body at point `t`
    the two input buffers hold their blocks and the output buffer holds `blockOut` of them; the invariant is the
    class's (the scoped rest and the generator register, untouched); nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = blockOut (iblk m c 0 t) (iblk m c 1 t) := by dsimp only [dats]

end Cert.KernelIdeal.Hand

end
-- ==== Proof.KiFrameHost.lean ====
import proofs.«169067_j54434415510061_1_alg».proof.Proof.KiFrameDefs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # @main around the matmul region: the host operations before and after it

Three host operations precede the region (they build `x2d` and `Wcat` from the arguments) and 291 follow it (they
consume the product). None of them allocates, none after the region writes an array of the pipeline or an argument,
and none before it writes an argument. This module proves those facts stretch by stretch and cuts @main around the
region. -/

/-! ## The buffers the later operations leave alone -/

/-- The three arguments and the three arrays the pipeline stages (`x2d`, `Wcat`, the product). -/
abbrev kept : List (Ref sig .tc) := [main_arg0, main_arg1, main_arg2, main_v0, main_v2, main_v3]

/-- A host operation that allocates nothing and writes none of `kept`. -/
def TailOk (op : HloOp τ sig (Elt F)) : Prop :=
  op.fresh = ∅ ∧ ∀ r ∈ kept, Proc.devRef (τ := τ) .tc r ∉ op.writes

/-- An operation allocating nothing whose one written buffer `y` is none of `kept` is such an operation. -/
theorem tailOk_of {op : HloOp τ sig (Elt F)} {y : Ref sig .tc} (hf : op.fresh = ∅)
    (h : op.writes = {Proc.devRef .tc y}) (hy : y ∉ kept) : TailOk op :=
  ⟨hf, fun r hr hm => by
    rw [h, Finset.mem_singleton] at hm
    exact hy (Proc.devRef_injective _ hm ▸ hr)⟩

/-! ## The stretches after the region, one by one

Each operation writes exactly its own result buffer (the builders' `_writes` facts), and that buffer is a value
defined after the region: none of `kept` (decided on the references). -/

/-- The reshape of the product and the first relation's slices: 9 operations. -/
theorem hostOps1_ok : (hostOps1 : List (HloOp τ sig (Elt F))).Forall TailOk :=
  ⟨tailOk_of rfl (StableHlo.reshape_writes ..) (by decide),
   tailOk_of rfl (StableHlo.nullary_writes ..) (by decide),
   tailOk_of rfl (StableHlo.unary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_1_ok : (hostOps1_1 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_2_ok : (hostOps1_2 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_3_ok : (hostOps1_3 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_4_ok : (hostOps1_4 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_5_ok : (hostOps1_5 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_6_ok : (hostOps1_6 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_7_ok : (hostOps1_7 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_8_ok : (hostOps1_8 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_9_ok : (hostOps1_9 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_10_ok : (hostOps1_10 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_11_ok : (hostOps1_11 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_12_ok : (hostOps1_12 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_13_ok : (hostOps1_13 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- A scatter-add onto destination rows, the running sum and the next relation's slices: 13 operations. -/
theorem hostOps1_14_ok : (hostOps1_14 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide),
   tailOk_of rfl (StableHlo.unary_writes ..) (by decide),
   tailOk_of rfl (StableHlo.reshape_writes ..) (by decide)⟩

/-- A gather of source rows with its index clamp and mask: 23 operations. -/
theorem hostOps1_15_ok : (hostOps1_15 : List (HloOp τ sig (Elt F))).Forall TailOk :=
  ⟨tailOk_of rfl (StableHlo.nullary_writes ..) (by decide),
   tailOk_of rfl (StableHlo.unary_writes ..) (by decide),
   tailOk_of rfl (StableHlo.binary_writes ..) (by decide),
   tailOk_of rfl (StableHlo.nullary_writes ..) (by decide),
   tailOk_of rfl (StableHlo.unary_writes ..) (by decide),
   tailOk_of rfl (StableHlo.binary_writes ..) (by decide),
   tailOk_of rfl (StableHlo.ternary_writes ..) (by decide),
   tailOk_of rfl (StableHlo.unary_writes ..) (by decide),
   tailOk_of rfl (StableHlo.nullary_writes ..) (by decide),
   tailOk_of rfl (StableHlo.nullary_writes ..) (by decide),
   tailOk_of rfl (StableHlo.unary_writes ..) (by decide),
   tailOk_of rfl (StableHlo.binary_writes ..) (by decide),
   tailOk_of rfl (StableHlo.unary_writes ..) (by decide),
   tailOk_of rfl (StableHlo.unary_writes ..) (by decide),
   tailOk_of rfl (StableHlo.binary_writes ..) (by decide),
   tailOk_of rfl (StableHlo.binary_writes ..) (by decide),
   tailOk_of rfl (StableHlo.nullary_writes ..) (by decide),
   tailOk_of rfl (StableHlo.binary_writes ..) (by decide),
   tailOk_of rfl (StableHlo.binary_writes ..) (by decide),
   tailOk_of rfl (StableHlo.unary_writes ..) (by decide),
   tailOk_of rfl (StableHlo.nullary_writes ..) (by decide),
   tailOk_of rfl (StableHlo.unary_writes ..) (by decide),
   tailOk_of rfl (StableHlo.ternary_writes ..) (by decide)⟩

/-- The last scatter-add and the final sum: 7 operations. -/
theorem hostOps1_16_ok : (hostOps1_16 : List (HloOp τ sig (Elt F))).Forall TailOk :=
  ⟨tailOk_of rfl (StableHlo.unary_writes ..) (by decide),
   tailOk_of rfl (StableHlo.nullary_writes ..) (by decide),
   tailOk_of rfl (StableHlo.unary_writes ..) (by decide),
   tailOk_of rfl (StableHlo.unary_writes ..) (by decide),
   tailOk_of rfl (StableHlo.ternary_writes ..) (by decide),
   tailOk_of rfl (StableHlo.unary_writes ..) (by decide),
   tailOk_of rfl (StableHlo.binary_writes ..) (by decide)⟩

/-- All 17 stretches. -/
theorem tailOps_ok : (tailOps : List (List (HloOp τ sig (Elt F)))).Forall fun ops => ops.Forall TailOk :=
  ⟨hostOps1_ok, hostOps1_1_ok, hostOps1_2_ok, hostOps1_3_ok, hostOps1_4_ok, hostOps1_5_ok, hostOps1_6_ok, hostOps1_7_ok, hostOps1_8_ok, hostOps1_9_ok, hostOps1_10_ok, hostOps1_11_ok, hostOps1_12_ok, hostOps1_13_ok, hostOps1_14_ok, hostOps1_15_ok, hostOps1_16_ok⟩

/-- So every operation after the region allocates nothing and writes none of `kept`. -/
theorem tailOk_mem : ∀ ops ∈ (tailOps : List (List (HloOp τ sig (Elt F)))), ∀ op ∈ ops, TailOk op :=
  fun ops hops op hop =>
    (List.forall_iff_forall_mem.mp ((List.forall_iff_forall_mem.mp tailOps_ok) ops hops)) op hop

/-- Each touches TensorCore references only. -/
theorem tailOps_sub : (tailOps : List (List (HloOp τ sig (Elt F)))).Forall fun ops =>
    ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub⟩

/-! ## What the library's frame run asks of the operations after the region -/

/-- They touch the pipeline's arrays and the bypassing buffers only (unscoped TensorCore references, and with nothing
    prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op
    ((List.forall_iff_forall_mem.mp ((List.forall_iff_forall_mem.mp tailOps_sub) ops hops)) op hop)

/-- They allocate nothing. -/
theorem sfx_fresh : ∀ ops ∈ (tailOps : List (List (HloOp τ sig (Elt F)))), ∀ op ∈ ops, op.fresh = ∅ :=
  fun ops hops op hop => (tailOk_mem ops hops op hop).1

/-- Each window's array is one of `kept`. -/
theorem arrRef_mem_kept : ∀ w : Fin 3, Pipeline.arrRef spec0 w ∈ kept := by decide

/-- They write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (tailOk_mem ops hops op hop).2 _ (arrRef_mem_kept w)

/-- No operation after the region writes a buffer of `kept`, read over the flattened list. -/
theorem tail_not_writes (r : Ref sig .tc) (hr : r ∈ kept) :
    ∀ op ∈ (tailOps : List (List (HloOp τ sig (Elt F)))).flatten, Proc.devRef (τ := τ) .tc r ∉ op.writes := by
  intro op hop
  obtain ⟨ops, hops, hop'⟩ := List.mem_flatten.mp hop
  exact (tailOk_mem ops hops op hop').2 r hr

/-! ## The operations before the region -/

/-- They allocate nothing. -/
theorem hostOps0_fresh : (hostOps0 : List (HloOp τ sig (Elt F))).Forall fun op => op.fresh = ∅ := by
  simp only [List.Forall]; repeat' constructor

/-- They write `x2d`, the transposed weights and `Wcat`: no argument. -/
theorem hostOps0_not_writes (r : Ref sig .tc) (hr : r ∈ [main_arg0, main_arg1, main_arg2]) :
    ∀ op ∈ List.flatten [(hostOps0 : List (HloOp τ sig (Elt F)))], Proc.devRef (τ := τ) .tc r ∉ op.writes := by
  refine List.forall_iff_forall_mem.mp ?_
  simp only [List.mem_cons, List.mem_nil_iff, or_false] at hr
  rcases hr with rfl | rfl | rfl
  all_goals
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)

/-- The region finds each argument as launched. -/
theorem V_main_arg0 (c : Dev nD) : V m c main_arg0 = m ((c : Thread nD τ).loc main_arg0) :=
  StableHlo.after_of_forall_not_mem (b := Proc.devRef .tc main_arg0) _ _ (hostOps0_not_writes main_arg0 (by decide))
theorem V_main_arg1 (c : Dev nD) : V m c main_arg1 = m ((c : Thread nD τ).loc main_arg1) :=
  StableHlo.after_of_forall_not_mem (b := Proc.devRef .tc main_arg1) _ _ (hostOps0_not_writes main_arg1 (by decide))
theorem V_main_arg2 (c : Dev nD) : V m c main_arg2 = m ((c : Thread nD τ).loc main_arg2) :=
  StableHlo.after_of_forall_not_mem (b := Proc.devRef .tc main_arg2) _ _ (hostOps0_not_writes main_arg2 (by decide))

/-! ## The arguments at the end -/

/-- An argument is no array of the pipeline. -/
theorem arrRef_ne_arg : ∀ r ∈ [main_arg0, main_arg1, main_arg2], ∀ w : Fin 3, Pipeline.arrRef spec0 w ≠ r := by decide

/-- After the operations that follow the region an argument holds what the region found, which is what was launched:
    no later operation writes it, and the region replaces the contents of its own arrays only. -/
theorem W_of_arg (dats : (p : Fin 1) → (c : Dev nD) → Dat τ (Elt F) Unit ℕ (UR sig nD τ) ℕ (cfgs p) c) (c : Dev nD)
    (r : Ref sig .tc) (hr : r ∈ [main_arg0, main_arg1, main_arg2]) (hk : r ∈ kept)
    (hV : V m c r = m ((c : Thread nD τ).loc r)) :
    Pipeline.afterTail₀ cfgs dats 0 (V0 m) tailOps c r = m ((c : Thread nD τ).loc r) := by
  unfold Pipeline.afterTail₀
  rw [StableHlo.after_of_forall_not_mem (b := Proc.devRef .tc r) _ _ (tail_not_writes r hk),
    Pipeline.withArrays_of_ne _ c (V0 m c) _ r (arrRef_ne_arg r hr)]
  exact hV

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_arg m dats c main_arg0 (by decide) (by decide) (V_main_arg0 m c)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_arg m dats c main_arg1 (by decide) (by decide) (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_arg m dats c main_arg2 (by decide) (by decide) (V_main_arg2 m c)

/-! ## @main cut around the region -/

/-- @main is the three operations before the region, the region, and the 17 stretches after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain

end Cert.KernelIdeal.Hand

end
-- ==== Proof.KiFrameBody.lean ====
import proofs.«169067_j54434415510061_1_alg».proof.Proof.KiFrameDefs
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # The matmul body's triple

On whole staging memrefs — the `x2d` block and `Wcat` at read contents, the output block at anything — the body
loads both factors, loads the output block (a value it never uses) and stores the product over the whole output
block. It runs to a state with the factors' buffers as they were and the output buffer at `blockOut` of the factors. -/

/-- The one store is through the whole-block rectangle, so it covers the output block (checked by evaluation). -/
theorem coverY (p0 : Vec F S4000x512 .f32) (y : S4000x512.Idx) :
    ∃ pc ∈ ([⟨rectY, p0⟩] : List (View.Piece (Elt F) S4000x512 .f32)), y ∈ pc.1.set :=
  View.cover_of_tiled [⟨rectY, p0⟩] S4000x512.size (by rfl) y

set_option maxHeartbeats 1000000 in
/-- The body's triple: the printed function is its skeleton, which the symbolic executor runs operation by operation;
    what the store leaves, read whole, is the canonical contents of the one covering piece. -/
theorem sound_kernel (c : Dev nD) (E : Set ℕ) (i : grid0.Coords)
    (arg1 : Memref sig .tc .vmem S4000x64 .f32) (harg1 : arg1.IsWhole)
    (arg2 : Memref sig .tc .vmem S64x512 .f32) (harg2 : arg2.IsWhole)
    (arg3 : Memref sig .tc .vmem S4000x512 .f32) (harg3 : arg3.IsWhole)
    (x0 : Vec F S4000x64 .f32) (x1 : Vec F S64x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (blockOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverY _)

end Cert.KernelIdeal.Hand

end
-- ==== Proof.KiFrame.lean ====
import proofs.«169067_j54434415510061_1_alg».proof.Proof.KiFrameDefs
import proofs.«169067_j54434415510061_1_alg».proof.Proof.KiFrameHost
import proofs.«169067_j54434415510061_1_alg».proof.Proof.KiFrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # The frame of the blocked matmul `h2d = x2d · Wcat`

From the body's triple and the facts about @main's host operations: every weakly fair execution of @main terminates
without fault in a state where each array of the pipeline holds what the library computes from the proof data and
every other unscoped buffer holds what the operations after the region leave there; in particular the three
argument arrays end as launched. -/

/-! ## What the body finds in the input windows' buffers -/

/-- The `x2d` window's current staging buffer holds its block at every point (it is fetched at each). -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The `Wcat` window's staging buffer holds `Wcat` at every point although it is fetched at the first only: its block
    index never moves and the body leaves the buffer as it found it. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

/-- What the body is called with at point `t`: the invariant, the core's dues, and the three current staging buffers —
    the inputs' at what they hold, the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same with each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; what the output
    buffer held does not matter; the invariant and the dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame from a frame run: no window stages an argument array, so each is one of the other unscoped buffers, which
    end as the operations after the region leave them — as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-- THE FRAME: every weakly fair execution of @main terminates without fault and leaves the three argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KiDefs.lean ====
/-
  The graph-convolution step both programs share, as pure functions of arrays (any float instance F).
  For one relation with source nodes `src` and destination nodes `dst` (one entry per edge) and a
  per-node feature array `h` : [4, 50000, 64]:
    * `nodeIdx src`  — a negative node number counts from the end (50000 is added), as a column [200000, 1];
    * `takeRows h src` — row `nodeIdx src e` of `h` for every edge `e` ([4, 200000, 64]); an edge whose
      node number is still outside 0 … 49999 gets the not-a-number pattern instead;
    * `edgeStep acc h src dst` — `acc` plus, at every node `n`, the sum of the taken rows over the edges
      whose destination is `n` (a scatter-add into zeros, the edge axis moved in front and back).
  Nothing here is ever opened by the proofs that use it: the two programs apply the same step to
  arrays that are proved equal.
-/
import proofs.«169067_j54434415510061_1_alg».proof.Proof.Gen.KernelIdeal

noncomputable section

namespace Cert.KernelIdeal.Hand

open Cert.KernelIdeal Cert.KernelIdeal.Gen Idealize.ShloMosaic Idealize.ShloMosaic.TcCoe Idealize.SL.Sem

variable {F : FTy → Type} [FloatOps F]

/-- Node numbers as a column, a negative one counted from the end. -/
def nodeIdx (src : (⟨S200000, .i32⟩ : BufTy).Contents (Elt F)) : (⟨S200000x1, .i32⟩ : BufTy).Contents (Elt F) :=
  broadcastInDim S200000x1 ![0] bcast_S200000_S200000x1_0
    (select (cmpi .slt src (broadcastInDim S200000 ![] bcast_S_S200000 (constantI S_ 32 0#32)))
      (addi src (broadcastInDim S200000 ![] bcast_S_S200000 (constantI S_ 32 50000#32))) src)

/-- Per edge: is the node number inside 0 … 49999? -/
def nodeOk (src : (⟨S200000, .i32⟩ : BufTy).Contents (Elt F)) : (⟨S200000, .i1⟩ : BufTy).Contents (Elt F) :=
  Host.reduce IntOp.andi
    (andi (cmpi .sge (nodeIdx (F := F) src) (broadcastInDim S200000x1 ![] bcast_S_S200000x1 (constantI S_ 32 0#32)))
      (cmpi .sle (nodeIdx (F := F) src) (broadcastInDim S200000x1 ![0, 1] bcast_S1x1_S200000x1_0_1
        (broadcastInDim S1x1 ![1] bcast_S1_S1x1_1 (constantI S1 32 49999#32)))))
    (constantI S_ 1 1#1) reducesTo_S200000x1_S200000_d1 h_S_

/-- The rows of `h` at the edges' source nodes. -/
def takeRows (h : (⟨S4x50000x64, .f32⟩ : BufTy).Contents (Elt F)) (src : (⟨S200000, .i32⟩ : BufTy).Contents (Elt F)) : (⟨S4x200000x64, .f32⟩ : BufTy).Contents (Elt F) :=
  select (broadcastInDim S4x200000x64 ![1] bcast_S200000_S4x200000x64_1 (nodeOk (F := F) src))
    (Host.gather gather_S4x50000x64_S200000x1_S4x200000x64_02_1_n_n_1_1_4164 h (nodeIdx (F := F) src))
    (broadcastInDim S4x200000x64 ![] bcast_S_S4x200000x64 (constant S_ .f32 0x7FC00000#32))

/-- One relation's contribution added to the running result. -/
def edgeStep (acc h : (⟨S4x50000x64, .f32⟩ : BufTy).Contents (Elt F)) (src dst : (⟨S200000, .i32⟩ : BufTy).Contents (Elt F)) : (⟨S4x50000x64, .f32⟩ : BufTy).Contents (Elt F) :=
  addf acc
    (transpose S4x50000x64 [1, 0, 2]
      (Host.scatterAdd scatter_S50000x4x64_S200000x1_S200000x4x64_12_0_0_1
        (broadcastInDim S50000x4x64 ![] bcast_S_S50000x4x64 (constant S_ .f32 0x00000000#32))
        (broadcastInDim S200000x1 ![0] bcast_S200000_S200000x1_0 dst)
        (transpose S200000x4x64 [1, 0, 2] (takeRows h src) transposes_S4x200000x64_S200000x4x64_1_0_2))
      transposes_S50000x4x64_S4x50000x64_1_0_2)

/-- The result before any relation: zeros. -/
def zeros : (⟨S4x50000x64, .f32⟩ : BufTy).Contents (Elt F) :=
  broadcastInDim S4x50000x64 ![] bcast_S_S4x50000x64 (constant S_ .f32 0x00000000#32)

/-! The edge list `e` : [8, 200000, 2] holds, for relation `r`, the source nodes in column 0 and the
    destination nodes in column 1. -/
def src0 (e : (⟨S8x200000x2, .i32⟩ : BufTy).Contents (Elt F)) : (⟨S200000, .i32⟩ : BufTy).Contents (Elt F) :=
  shapeCast S200000 (extractStridedSlice S1x200000x1 ![0, 0, 0] e slices_S8x200000x2_S1x200000x1_0_0_0) shapeCasts_S1x200000x1_S200000
def dst0 (e : (⟨S8x200000x2, .i32⟩ : BufTy).Contents (Elt F)) : (⟨S200000, .i32⟩ : BufTy).Contents (Elt F) :=
  shapeCast S200000 (extractStridedSlice S1x200000x1 ![0, 0, 1] e slices_S8x200000x2_S1x200000x1_0_0_1) shapeCasts_S1x200000x1_S200000
def src1 (e : (⟨S8x200000x2, .i32⟩ : BufTy).Contents (Elt F)) : (⟨S200000, .i32⟩ : BufTy).Contents (Elt F) :=
  shapeCast S200000 (extractStridedSlice S1x200000x1 ![1, 0, 0] e slices_S8x200000x2_S1x200000x1_1_0_0) shapeCasts_S1x200000x1_S200000
def dst1 (e : (⟨S8x200000x2, .i32⟩ : BufTy).Contents (Elt F)) : (⟨S200000, .i32⟩ : BufTy).Contents (Elt F) :=
  shapeCast S200000 (extractStridedSlice S1x200000x1 ![1, 0, 1] e slices_S8x200000x2_S1x200000x1_1_0_1) shapeCasts_S1x200000x1_S200000
def src2 (e : (⟨S8x200000x2, .i32⟩ : BufTy).Contents (Elt F)) : (⟨S200000, .i32⟩ : BufTy).Contents (Elt F) :=
  shapeCast S200000 (extractStridedSlice S1x200000x1 ![2, 0, 0] e slices_S8x200000x2_S1x200000x1_2_0_0) shapeCasts_S1x200000x1_S200000
def dst2 (e : (⟨S8x200000x2, .i32⟩ : BufTy).Contents (Elt F)) : (⟨S200000, .i32⟩ : BufTy).Contents (Elt F) :=
  shapeCast S200000 (extractStridedSlice S1x200000x1 ![2, 0, 1] e slices_S8x200000x2_S1x200000x1_2_0_1) shapeCasts_S1x200000x1_S200000
def src3 (e : (⟨S8x200000x2, .i32⟩ : BufTy).Contents (Elt F)) : (⟨S200000, .i32⟩ : BufTy).Contents (Elt F) :=
  shapeCast S200000 (extractStridedSlice S1x200000x1 ![3, 0, 0] e slices_S8x200000x2_S1x200000x1_3_0_0) shapeCasts_S1x200000x1_S200000
def dst3 (e : (⟨S8x200000x2, .i32⟩ : BufTy).Contents (Elt F)) : (⟨S200000, .i32⟩ : BufTy).Contents (Elt F) :=
  shapeCast S200000 (extractStridedSlice S1x200000x1 ![3, 0, 1] e slices_S8x200000x2_S1x200000x1_3_0_1) shapeCasts_S1x200000x1_S200000
def src4 (e : (⟨S8x200000x2, .i32⟩ : BufTy).Contents (Elt F)) : (⟨S200000, .i32⟩ : BufTy).Contents (Elt F) :=
  shapeCast S200000 (extractStridedSlice S1x200000x1 ![4, 0, 0] e slices_S8x200000x2_S1x200000x1_4_0_0) shapeCasts_S1x200000x1_S200000
def dst4 (e : (⟨S8x200000x2, .i32⟩ : BufTy).Contents (Elt F)) : (⟨S200000, .i32⟩ : BufTy).Contents (Elt F) :=
  shapeCast S200000 (extractStridedSlice S1x200000x1 ![4, 0, 1] e slices_S8x200000x2_S1x200000x1_4_0_1) shapeCasts_S1x200000x1_S200000
def src5 (e : (⟨S8x200000x2, .i32⟩ : BufTy).Contents (Elt F)) : (⟨S200000, .i32⟩ : BufTy).Contents (Elt F) :=
  shapeCast S200000 (extractStridedSlice S1x200000x1 ![5, 0, 0] e slices_S8x200000x2_S1x200000x1_5_0_0) shapeCasts_S1x200000x1_S200000
def dst5 (e : (⟨S8x200000x2, .i32⟩ : BufTy).Contents (Elt F)) : (⟨S200000, .i32⟩ : BufTy).Contents (Elt F) :=
  shapeCast S200000 (extractStridedSlice S1x200000x1 ![5, 0, 1] e slices_S8x200000x2_S1x200000x1_5_0_1) shapeCasts_S1x200000x1_S200000
def src6 (e : (⟨S8x200000x2, .i32⟩ : BufTy).Contents (Elt F)) : (⟨S200000, .i32⟩ : BufTy).Contents (Elt F) :=
  shapeCast S200000 (extractStridedSlice S1x200000x1 ![6, 0, 0] e slices_S8x200000x2_S1x200000x1_6_0_0) shapeCasts_S1x200000x1_S200000
def dst6 (e : (⟨S8x200000x2, .i32⟩ : BufTy).Contents (Elt F)) : (⟨S200000, .i32⟩ : BufTy).Contents (Elt F) :=
  shapeCast S200000 (extractStridedSlice S1x200000x1 ![6, 0, 1] e slices_S8x200000x2_S1x200000x1_6_0_1) shapeCasts_S1x200000x1_S200000
def src7 (e : (⟨S8x200000x2, .i32⟩ : BufTy).Contents (Elt F)) : (⟨S200000, .i32⟩ : BufTy).Contents (Elt F) :=
  shapeCast S200000 (extractStridedSlice S1x200000x1 ![7, 0, 0] e slices_S8x200000x2_S1x200000x1_7_0_0) shapeCasts_S1x200000x1_S200000
def dst7 (e : (⟨S8x200000x2, .i32⟩ : BufTy).Contents (Elt F)) : (⟨S200000, .i32⟩ : BufTy).Contents (Elt F) :=
  shapeCast S200000 (extractStridedSlice S1x200000x1 ![7, 0, 1] e slices_S8x200000x2_S1x200000x1_7_0_1) shapeCasts_S1x200000x1_S200000

/-! The kernel computes all eight relations' node features at once, as one [200000, 512] product
    (rows = batch × node, columns = relation × feature); relation `r`'s features are a slice of it. -/
def featAll (h2d : (⟨S200000x512, .f32⟩ : BufTy).Contents (Elt F)) : (⟨S4x50000x8x64, .f32⟩ : BufTy).Contents (Elt F) :=
  shapeCast S4x50000x8x64 h2d shapeCasts_S200000x512_S4x50000x8x64
def featK0 (h4 : (⟨S4x50000x8x64, .f32⟩ : BufTy).Contents (Elt F)) : (⟨S4x50000x64, .f32⟩ : BufTy).Contents (Elt F) :=
  shapeCast S4x50000x64 (extractStridedSlice S4x50000x1x64 ![0, 0, 0, 0] h4 slices_S4x50000x8x64_S4x50000x1x64_0_0_0_0) shapeCasts_S4x50000x1x64_S4x50000x64
def featK1 (h4 : (⟨S4x50000x8x64, .f32⟩ : BufTy).Contents (Elt F)) : (⟨S4x50000x64, .f32⟩ : BufTy).Contents (Elt F) :=
  shapeCast S4x50000x64 (extractStridedSlice S4x50000x1x64 ![0, 0, 1, 0] h4 slices_S4x50000x8x64_S4x50000x1x64_0_0_1_0) shapeCasts_S4x50000x1x64_S4x50000x64
def featK2 (h4 : (⟨S4x50000x8x64, .f32⟩ : BufTy).Contents (Elt F)) : (⟨S4x50000x64, .f32⟩ : BufTy).Contents (Elt F) :=
  shapeCast S4x50000x64 (extractStridedSlice S4x50000x1x64 ![0, 0, 2, 0] h4 slices_S4x50000x8x64_S4x50000x1x64_0_0_2_0) shapeCasts_S4x50000x1x64_S4x50000x64
def featK3 (h4 : (⟨S4x50000x8x64, .f32⟩ : BufTy).Contents (Elt F)) : (⟨S4x50000x64, .f32⟩ : BufTy).Contents (Elt F) :=
  shapeCast S4x50000x64 (extractStridedSlice S4x50000x1x64 ![0, 0, 3, 0] h4 slices_S4x50000x8x64_S4x50000x1x64_0_0_3_0) shapeCasts_S4x50000x1x64_S4x50000x64
def featK4 (h4 : (⟨S4x50000x8x64, .f32⟩ : BufTy).Contents (Elt F)) : (⟨S4x50000x64, .f32⟩ : BufTy).Contents (Elt F) :=
  shapeCast S4x50000x64 (extractStridedSlice S4x50000x1x64 ![0, 0, 4, 0] h4 slices_S4x50000x8x64_S4x50000x1x64_0_0_4_0) shapeCasts_S4x50000x1x64_S4x50000x64
def featK5 (h4 : (⟨S4x50000x8x64, .f32⟩ : BufTy).Contents (Elt F)) : (⟨S4x50000x64, .f32⟩ : BufTy).Contents (Elt F) :=
  shapeCast S4x50000x64 (extractStridedSlice S4x50000x1x64 ![0, 0, 5, 0] h4 slices_S4x50000x8x64_S4x50000x1x64_0_0_5_0) shapeCasts_S4x50000x1x64_S4x50000x64
def featK6 (h4 : (⟨S4x50000x8x64, .f32⟩ : BufTy).Contents (Elt F)) : (⟨S4x50000x64, .f32⟩ : BufTy).Contents (Elt F) :=
  shapeCast S4x50000x64 (extractStridedSlice S4x50000x1x64 ![0, 0, 6, 0] h4 slices_S4x50000x8x64_S4x50000x1x64_0_0_6_0) shapeCasts_S4x50000x1x64_S4x50000x64
def featK7 (h4 : (⟨S4x50000x8x64, .f32⟩ : BufTy).Contents (Elt F)) : (⟨S4x50000x64, .f32⟩ : BufTy).Contents (Elt F) :=
  shapeCast S4x50000x64 (extractStridedSlice S4x50000x1x64 ![0, 0, 7, 0] h4 slices_S4x50000x8x64_S4x50000x1x64_0_0_7_0) shapeCasts_S4x50000x1x64_S4x50000x64

/-- The kernel program's result as one function of the fused product and the edge list: the eight
    relations' steps, in order. -/
def kOut (h2d : (⟨S200000x512, .f32⟩ : BufTy).Contents (Elt F)) (e : (⟨S8x200000x2, .i32⟩ : BufTy).Contents (Elt F)) : (⟨S4x50000x64, .f32⟩ : BufTy).Contents (Elt F) :=
  edgeStep (edgeStep (edgeStep (edgeStep (edgeStep (edgeStep (edgeStep (edgeStep (zeros) (featK0 (featAll h2d)) (src0 e) (dst0 e)) (featK1 (featAll h2d)) (src1 e) (dst1 e)) (featK2 (featAll h2d)) (src2 e) (dst2 e)) (featK3 (featAll h2d)) (src3 e) (dst3 e)) (featK4 (featAll h2d)) (src4 e) (dst4 e)) (featK5 (featAll h2d)) (src5 e) (dst5 e)) (featK6 (featAll h2d)) (src6 e) (dst6 e)) (featK7 (featAll h2d)) (src7 e) (dst7 e)

end Cert.KernelIdeal.Hand

end
-- ==== Proof.LibHostLine.lean ====
/-
  Reading a long straight line of host operations back as one function.

  The contents of a buffer after a line of operations is a fold: each operation rewrites the buffers it writes and
  leaves the rest.  Two facts make a line of several hundred operations readable in one pass.

  * `after_append`: the fold over a concatenation is the fold over the second list started from what the first
    left — so a line may be stated in pieces and still read as a whole.

  * `cast_same`: an operation inside an outlined function is stated at the type of the tensor value and moved to
    its buffer's own type along an equation between the two types; for a literal buffer the two types are the same
    type, and the transport is the identity.  Stated as a propositional equation (not unfolded), it lets one
    rewriting pass strip every such transport from the composed term, after which the term is, operation for
    operation, the specification's term and the two are compared structurally.

  Recipe, for a goal  `after <literal list> W b = spec (W a₁) … (W aₙ)`  over any contents `W`: expose the list's
  conses, rewrite every operation's result at its own buffer and skip it at any other (the library's one-pass
  result rewriting), rewrite with `cast_same`, and close by reflexivity — the specification's definitions unfold by
  themselves.
-/
import Idealize.ShloMosaic.Lib.StableHlo.Run

noncomputable section

namespace Cert.Lib.HostLine

open Idealize.ShloMosaic Idealize.ShloMosaic.StableHlo

variable {τ : Topo} {sig : RefSig} {Val : EltTy → Type}

/-- Running two lists one after the other is running the first, then the second from what it left. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Transport along an equation of a type with itself is the identity. -/
theorem cast_same {α : Type} (h : α = α) (a : α) : cast h a = a := eq_of_heq (cast_heq h a)

end Cert.Lib.HostLine

end
-- ==== Proof.KiTail.lean ====
/-
  The host lines after the region, read back as one function.

  After the region the program views the product as [4, 50000, 8, 64], starts from zeros and, relation by relation,
  slices the relation's features out, slices its source and destination columns out of the edge list, takes the source
  rows, scatter-adds them at the destinations and adds the result to the running sum.  Read at the last running sum,
  from ANY contents `W` of the buffers, those 291 operations compute `kOut` of what `W` holds in the product's buffer
  and in the edge list's buffer: every operation's result is looked up at the buffer it writes, and nothing else
  of `W` is read.
-/
import proofs.«169067_j54434415510061_1_alg».proof.Proof.Gen.KernelIdeal.Launch
import proofs.«169067_j54434415510061_1_alg».proof.Proof.KiDefs
import Idealize.ShloMosaic.Lib.StableHlo.Run
import proofs.«169067_j54434415510061_1_alg».proof.Proof.LibHostLine

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- The last running sum after the 17 stretches of host lines, from any buffer contents `W`. -/
theorem tail_read (W : Valuation τ sig (Elt F)) :
    after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) W (Proc.devRef .tc main_v109)
      = kOut (W (Proc.devRef .tc main_v3)) (W (Proc.devRef .tc main_arg1)) := by
  simp only [List.flatten_cons, List.flatten_nil, List.append_nil, List.cons_append, List.nil_append, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  unfold kOut
  simp only [edgeStep, takeRows, nodeOk, nodeIdx, zeros, featAll, featK0, src0, dst0, featK1, src1, dst1, featK2, src2, dst2, featK3, src3, dst3, featK4, src4, dst4, featK5, src5, dst5, featK6, src6, dst6, featK7, src7, dst7]
  after_results_simp
  simp only [Cert.Lib.HostLine.cast_same]
  rfl

end Cert.KernelIdeal.Hand

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.KiProduct.lean ====
/-
  The array the pipelined region leaves, at the exact (extended-real) values.

  The region multiplies the rows of `x2d` : [200000, 64] by `Wcat` : [64, 512] in 50 blocks of 4000 rows.
  At the exact values the rounding of both factors to bf16 is the identity and the product accumulated from zero
  is the plain sum  ∑ k, x2d (i, k) · Wcat (k, j)  (`mm`).  A row of the product reads the same row of the left
  factor only, so what grid point `t` writes back — the product of block `t` of `x2d` with all of `Wcat` — is
  block `t` of the one whole product `mm x2d Wcat`; the 50 blocks tile the output array (row `i` lies in block
  `i / 4000`), so after the region the output array IS `mm x2d Wcat`.
-/
import proofs.«169067_j54434415510061_1_alg».proof.Proof.KiFrameDefs
import proofs.«169067_j54434415510061_1_alg».proof.Proof.LibPlainDot
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.Lib.PlainDot
open Idealize.ShloMosaic.Pipeline (Dat)

variable (m : (ℓ : Loc nD τ sig) → Buf (Elt Ideal) ℓ)

theorem zero_off : (![0, 0] : Fin 2 → Nat) = fun _ => 0 := funext fun a => by fin_cases a <;> rfl

/-- At the exact values the body's one payload is the plain product of the two loaded blocks: the casts to the
    blocks' own shapes and the roundings to bf16 are identities, the accumulator starts at zero. -/
theorem pay_eq (x0 : Vec Ideal S4000x64 .f32) (x1 : Vec Ideal S64x512 .f32) :
    k0_pay1 (F := Ideal) x0 x1 = mm (M := 4000) (K := 64) (N := 512) x0 x1 := by
  unfold k0_pay1
  rw [shapeCast_self, shapeCast_self]
  exact matmul_zero (M := 4000) (K := 64) (N := 512) none x0 x1

/-- So is what the body leaves in the output block. -/
theorem blockOut_eq (x0 : Vec Ideal S4000x64 .f32) (x1 : Vec Ideal S64x512 .f32) :
    blockOut (F := Ideal) x0 x1 = mm (M := 4000) (K := 64) (N := 512) x0 x1 := by
  unfold blockOut
  rw [View.canon_unit_zero zero_off]
  simp only [View.ld_unit_zero (S := S4000x64) zero_off, View.ld_unit_zero (S := S64x512) zero_off]
  exact pay_eq x0 x1

/-- The whole product of the two arrays the region is launched on. -/
def prod (c : Dev nD) : S200000x512.Idx → EReal :=
  mm (M := 200000) (K := 64) (N := 512) (V m c main_v0) (V m c main_v2)

/-- The printed index maps over the grid: point `t` takes block row `t` of `x2d` and of the output, and all of `Wcat`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block product is the whole product's entry at the block's row: stated over plain arrays, with the
    block's rows and the right factor given as hypotheses. -/
theorem mm_block (X : S200000x64.Idx → EReal) (Wc : S64x512.Idx → EReal) (xb : S4000x64.Idx → EReal)
    (wb : S64x512.Idx → EReal) (p : Fin 4000) (q : Fin 512) (row : Fin 200000)
    (hx : ∀ k : Fin 64, xb (ix2 p k) = X (ix2 row k)) (hw : ∀ k : Fin 64, wb (ix2 k q) = Wc (ix2 k q)) :
    mm (M := 4000) (K := 64) (N := 512) xb wb (ix2 p q) = mm (M := 200000) (K := 64) (N := 512) X Wc (ix2 row q) := by
  rw [mm_apply, mm_apply]
  exact Finset.sum_congr rfl fun k _ => by rw [hx k, hw k]

/-- WHAT POINT `t` WRITES BACK is block `t` of the whole product. -/
theorem flushed_eq (c : Dev nD) (t : Fin cfg0.N) :
    (dats m 0 c).flushed 2 t = ((cfg0.win 2).blk t).view.read (Elt Ideal) (prod m c) := by
  show (cfg0.win 2).cut (grid0.coords t) ((dats m 0 c).after 2 t) = _
  rw [after0_2, blockOut_eq]
  obtain ⟨e0, e1, e2, e3, e4, e5⟩ := idx_facts t
  funext j
  show mm (M := 4000) (K := 64) (N := 512) (iblk m c 0 t) (iblk m c 1 t) j
      = prod m c (((cfg0.win 2).blk t).view.emb j)
  obtain ⟨p, q, rfl⟩ : ∃ (p : Fin 4000) (q : Fin 512), j = ix2 p q := ⟨j 0, j 1, eq_ix2 j⟩
  have ht : t.val < 50 := lt_of_lt_of_eq t.isLt N_0
  have hrow : t.val * 4000 + p.val < 200000 := by have := p.isLt; omega
  refine (mm_block (V m c main_v0) (V m c main_v2) (iblk m c 0 t) (iblk m c 1 t) p q ⟨t.val * 4000 + p.val, hrow⟩
    (fun k => ?_) (fun k => ?_)).trans ?_
  · show V m c main_v0 (((cfg0.win 0).blk t).view.emb (ix2 p k)) = V m c main_v0 (ix2 ⟨t.val * 4000 + p.val, hrow⟩ k)
    refine congrArg (V m c main_v0) (funext fun a => Fin.ext ?_)
    match a with
    | ⟨0, _⟩ => show win0_0.index t (0 : Fin 2) * 4000 + 1 * p.val = t.val * 4000 + p.val; omega
    | ⟨1, _⟩ => show win0_0.index t (1 : Fin 2) * 64 + 1 * k.val = k.val; omega
  · show V m c main_v2 (((cfg0.win 1).blk t).view.emb (ix2 k q)) = V m c main_v2 (ix2 k q)
    refine congrArg (V m c main_v2) (funext fun a => Fin.ext ?_)
    match a with
    | ⟨0, _⟩ => show win0_1.index t (0 : Fin 2) * 64 + 1 * k.val = k.val; omega
    | ⟨1, _⟩ => show win0_1.index t (1 : Fin 2) * 512 + 1 * q.val = q.val; omega
  · show prod m c (ix2 ⟨t.val * 4000 + p.val, hrow⟩ q) = prod m c (((cfg0.win 2).blk t).view.emb (ix2 p q))
    refine congrArg (prod m c) (funext fun a => Fin.ext ?_)
    match a with
    | ⟨0, _⟩ => show t.val * 4000 + p.val = win0_2.index t (0 : Fin 2) * 4000 + 1 * p.val; omega
    | ⟨1, _⟩ => show q.val = win0_2.index t (1 : Fin 2) * 512 + 1 * q.val; omega

/-- An index of the output array is in point `t`'s block iff each coordinate is in the block's range on its axis. -/
theorem mem_blk (t : Fin cfg0.N) (i : S200000x512.Idx) :
    i ∈ ((cfg0.win 2).blk t).view.set ↔ ∀ a : Fin 2, win0_2.index t a * S4000x512.size a ≤ (i a).val ∧ (i a).val < win0_2.index t a * S4000x512.size a + S4000x512.size a := by
  show i ∈ ((View.whole main_v3).slice (win0_2.rect t)).set ↔ _
  rw [View.set_slice_whole, Rect.mem_set_unit]
  exact Iff.rfl

/-- The 50 blocks tile the output array: row `i` lies in block `i / 4000`. -/
theorem cover (i : S200000x512.Idx) :
    ∃ t : Fin cfg0.N, (cfg0.win 2).flush t = true ∧ i ∈ ((cfg0.win 2).blk t).view.set := by
  have hi0 : (i 0).val < 200000 := (i 0).isLt
  have hi1 : (i 1).val < 512 := (i 1).isLt
  have hq : (i 0).val / 4000 < grid0.N := by rw [N_0]; omega
  refine ⟨⟨(i 0).val / 4000, hq⟩, flush0_2 _, ?_⟩
  rw [mem_blk]
  obtain ⟨-, -, -, -, e4, e5⟩ := idx_facts ⟨(i 0).val / 4000, hq⟩
  intro a
  match a with
  | ⟨0, _⟩ =>
    show win0_2.index ⟨(i 0).val / 4000, hq⟩ (0 : Fin 2) * 4000 ≤ (i 0).val ∧ (i 0).val < win0_2.index ⟨(i 0).val / 4000, hq⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, hq⟩ (1 : Fin 2) * 512 ≤ (i 1).val ∧ (i 1).val < win0_2.index ⟨(i 0).val / 4000, hq⟩ (1 : Fin 2) * 512 + 512
    rw [e5]; omega

/-- THE OUTPUT ARRAY after the region is the whole product. -/
theorem final (c : Dev nD) : (dats m 0 c).arrAt 2 cfg0.N = prod m c :=
  (dats m 0 c).arrAt_eq_of_cover 2 (prod m c) (fun t _ => flushed_eq m c t) cover

end Cert.KernelIdeal.Hand

end
-- ==== Proof.KiRun.lean ====
/-
  The kernel program's run with its result named.

  The frame run leaves the region's output array at the whole product (blocks-to-array module) and every buffer the
  region does not touch as the host lines after it compute it.  Read through those lines (`tail_read`), the result
  buffer ends at `kOut` of the whole product and of the edge list as launched: the lines after the region read the
  product's buffer — an array of the region, so at what the region left there — and the edge list's buffer, which
  nothing before or in the region writes.
-/
import proofs.«169067_j54434415510061_1_alg».proof.Proof.KiFrame
import proofs.«169067_j54434415510061_1_alg».proof.Proof.KiTail
import proofs.«169067_j54434415510061_1_alg».proof.Proof.KiProduct

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- What the result buffer holds after the host lines that follow the region. -/
theorem out_eq (c : Dev nD) :
    Pipeline.afterTail₀ cfgs (dats m) 0 (V0 m) tailOps c main_v109
      = kOut (prod m c) (m ((c : Thread nD τ).loc main_arg1)) := by
  unfold Pipeline.afterTail₀
  show after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) _ (Proc.devRef .tc main_v109) = _
  rw [tail_read]
  refine congrArg₂ (kOut (F := Ideal)) ?_ ?_
  · exact (Pipeline.withArrays_arr spec0 launch0.win.arr_inj c _ _ 2).trans (final m c)
  · exact (Pipeline.withArrays_of_ne spec0 c _ _ main_arg1 (by decide)).trans (V_main_arg1 m c)

/-- Every weakly fair execution of the kernel program terminates without fault, with the result at `kOut` of the whole
    product and the edge list, and the three arguments as launched. -/
theorem run : θ_run defs (onTc (τ := τ) (main (F := Ideal))) ⟨m, fun _ => 0, ρ⟩ fun r => ∀ c : Dev nD,
      r.2.mem ((c.tc : Thread nD τ).loc main_v109) = kOut (prod m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v109 (Pipeline.mem_restRefs_of main_v109 (by decide) (by decide))).trans (out_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.RefOps.lean ====
/-
  The reference program's host operations as literal lists, in the order the program runs them: the two that
  make the zero array, then relation by relation — the slice of the weight array, its matrix product with the
  node features, the two edge columns, the 23 operations that take the rows at the source nodes (a negative
  node number counted from the end, a node number outside the range answered by the not-a-number pattern),
  the scatter-add at the destination nodes with the edge axis in front, and the addition to the running
  result. A relation whose operations the program's text cuts in two is two lists here. The lists window0,
  window1, window2 are the program's three consecutive parts and ops is the whole line.
-/
import proofs.«169067_j54434415510061_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 2 operations. -/
abbrev opsInit : List (HloOp τ sig (Elt F)) :=
  [ StableHlo.nullary main_cst (constant S_ .f32 0x00000000#32),
    StableHlo.unary main_cst main_v0 (broadcastInDim S4x50000x64 ![] bcast_S_S4x50000x64 : (⟨S_, .f32⟩ : BufTy).Contents (Elt F) → (⟨S4x50000x64, .f32⟩ : BufTy).Contents (Elt F)) ]

/-- 37 operations. -/
abbrev opsRel0 : List (HloOp τ sig (Elt F)) :=
  [ StableHlo.unary main_arg2 main_v1 ((extractStridedSlice S1x64x64 ![0, 0, 0] · slices_S8x64x64_S1x64x64_0_0_0) : (⟨S8x64x64, .f32⟩ : BufTy).Contents (Elt F) → (⟨S1x64x64, .f32⟩ : BufTy).Contents (Elt F)),
    StableHlo.reshape main_v1 main_v2 rfl shapeCasts_S1x64x64_S64x64,
    StableHlo.binary main_arg0 main_v2 main_v3 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v4 ((extractStridedSlice S1x200000x1 ![0, 0, 0] · slices_S8x200000x2_S1x200000x1_0_0_0) : (⟨S8x200000x2, .i32⟩ : BufTy).Contents (Elt F) → (⟨S1x200000x1, .i32⟩ : BufTy).Contents (Elt F)),
    StableHlo.reshape main_v4 main_v5 rfl shapeCasts_S1x200000x1_S200000,
    StableHlo.unary main_arg1 main_v6 ((extractStridedSlice S1x200000x1 ![0, 0, 1] · slices_S8x200000x2_S1x200000x1_0_0_1) : (⟨S8x200000x2, .i32⟩ : BufTy).Contents (Elt F) → (⟨S1x200000x1, .i32⟩ : BufTy).Contents (Elt F)),
    StableHlo.reshape main_v6 main_v7 rfl shapeCasts_S1x200000x1_S200000,
    StableHlo.TRef.nullary main_call0.c (constantI S_ 32 0#32),
    StableHlo.TRef.unary main_call0.c main_call0.v0 (broadcastInDim S200000 ![] bcast_S_S200000),
    StableHlo.TRef.binary (.of main_v5 : StableHlo.TRef sig ⟨S200000, .i32⟩) main_call0.v0 main_call0.v1 (cmpi .slt),
    StableHlo.TRef.nullary main_call0.c_0 (constantI S_ 32 50000#32),
    StableHlo.TRef.unary main_call0.c_0 main_call0.v2 (broadcastInDim S200000 ![] bcast_S_S200000),
    StableHlo.TRef.binary (.of main_v5 : StableHlo.TRef sig ⟨S200000, .i32⟩) main_call0.v2 main_call0.v3 addi,
    StableHlo.TRef.ternary main_call0.v1 main_call0.v3 (.of main_v5 : StableHlo.TRef sig ⟨S200000, .i32⟩) main_call0.call0.v0 select,
    StableHlo.TRef.unary main_call0.call0.v0 main_call0.v5 (broadcastInDim S200000x1 ![0] bcast_S200000_S200000x1_0),
    StableHlo.TRef.nullary main_call0.c_1 (constantI S1 32 49999#32),
    StableHlo.TRef.nullary main_call0.c_2 (constantI S_ 32 0#32),
    StableHlo.TRef.unary main_call0.c_2 main_call0.v6 (broadcastInDim S200000x1 ![] bcast_S_S200000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S200000x1 ![0, 1] bcast_S1x1_S200000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S200000x1_S200000_d1 h_S_),
    StableHlo.TRef.binary (.of main_v3 : StableHlo.TRef sig ⟨S4x50000x64, .f32⟩) main_call0.v5 main_call0.v13 (fun x i => Host.gather gather_S4x50000x64_S200000x1_S4x200000x64_02_1_n_n_1_1_4164 x i),
    StableHlo.TRef.unary main_call0.v12 main_call0.v14 (broadcastInDim S4x200000x64 ![1] bcast_S200000_S4x200000x64_1),
    StableHlo.TRef.nullary main_call0.cst (constant S_ .f32 0x7FC00000#32),
    StableHlo.TRef.unary main_call0.cst main_call0.v15 (broadcastInDim S4x200000x64 ![] bcast_S_S4x200000x64),
    StableHlo.TRef.ternary main_call0.v14 main_call0.v13 main_call0.v15 main_call0.v16 select,
    StableHlo.unary main_v8 main_v9 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_0 (constant S_ .f32 0x00000000#32),
    StableHlo.unary main_cst_0 main_v10 (broadcastInDim S50000x4x64 ![] bcast_S_S50000x4x64 : (⟨S_, .f32⟩ : BufTy).Contents (Elt F) → (⟨S50000x4x64, .f32⟩ : BufTy).Contents (Elt F)),
    StableHlo.unary main_v7 main_v11 (broadcastInDim S200000x1 ![0] bcast_S200000_S200000x1_0 : (⟨S200000, .i32⟩ : BufTy).Contents (Elt F) → (⟨S200000x1, .i32⟩ : BufTy).Contents (Elt F)),
    StableHlo.ternary main_v10 main_v11 main_v9 main_v12 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)),
    StableHlo.unary main_v12 main_v13 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v0 main_v13 main_v14 (addf : (⟨S4x50000x64, .f32⟩ : BufTy).Contents (Elt F) → (⟨S4x50000x64, .f32⟩ : BufTy).Contents (Elt F) → (⟨S4x50000x64, .f32⟩ : BufTy).Contents (Elt F)) ]

/-- 37 operations. -/
abbrev opsRel1 : List (HloOp τ sig (Elt F)) :=
  [ StableHlo.unary main_arg2 main_v15 ((extractStridedSlice S1x64x64 ![1, 0, 0] · slices_S8x64x64_S1x64x64_1_0_0) : (⟨S8x64x64, .f32⟩ : BufTy).Contents (Elt F) → (⟨S1x64x64, .f32⟩ : BufTy).Contents (Elt F)),
    StableHlo.reshape main_v15 main_v16 rfl shapeCasts_S1x64x64_S64x64,
    StableHlo.binary main_arg0 main_v16 main_v17 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v18 ((extractStridedSlice S1x200000x1 ![1, 0, 0] · slices_S8x200000x2_S1x200000x1_1_0_0) : (⟨S8x200000x2, .i32⟩ : BufTy).Contents (Elt F) → (⟨S1x200000x1, .i32⟩ : BufTy).Contents (Elt F)),
    StableHlo.reshape main_v18 main_v19 rfl shapeCasts_S1x200000x1_S200000,
    StableHlo.unary main_arg1 main_v20 ((extractStridedSlice S1x200000x1 ![1, 0, 1] · slices_S8x200000x2_S1x200000x1_1_0_1) : (⟨S8x200000x2, .i32⟩ : BufTy).Contents (Elt F) → (⟨S1x200000x1, .i32⟩ : BufTy).Contents (Elt F)),
    StableHlo.reshape main_v20 main_v21 rfl shapeCasts_S1x200000x1_S200000,
    StableHlo.TRef.nullary main_call1.c (constantI S_ 32 0#32),
    StableHlo.TRef.unary main_call1.c main_call1.v0 (broadcastInDim S200000 ![] bcast_S_S200000),
    StableHlo.TRef.binary (.of main_v19 : StableHlo.TRef sig ⟨S200000, .i32⟩) main_call1.v0 main_call1.v1 (cmpi .slt),
    StableHlo.TRef.nullary main_call1.c_0 (constantI S_ 32 50000#32),
    StableHlo.TRef.unary main_call1.c_0 main_call1.v2 (broadcastInDim S200000 ![] bcast_S_S200000),
    StableHlo.TRef.binary (.of main_v19 : StableHlo.TRef sig ⟨S200000, .i32⟩) main_call1.v2 main_call1.v3 addi,
    StableHlo.TRef.ternary main_call1.v1 main_call1.v3 (.of main_v19 : StableHlo.TRef sig ⟨S200000, .i32⟩) main_call1.call0.v0 select,
    StableHlo.TRef.unary main_call1.call0.v0 main_call1.v5 (broadcastInDim S200000x1 ![0] bcast_S200000_S200000x1_0),
    StableHlo.TRef.nullary main_call1.c_1 (constantI S1 32 49999#32),
    StableHlo.TRef.nullary main_call1.c_2 (constantI S_ 32 0#32),
    StableHlo.TRef.unary main_call1.c_2 main_call1.v6 (broadcastInDim S200000x1 ![] bcast_S_S200000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S200000x1 ![0, 1] bcast_S1x1_S200000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S200000x1_S200000_d1 h_S_),
    StableHlo.TRef.binary (.of main_v17 : StableHlo.TRef sig ⟨S4x50000x64, .f32⟩) main_call1.v5 main_call1.v13 (fun x i => Host.gather gather_S4x50000x64_S200000x1_S4x200000x64_02_1_n_n_1_1_4164 x i),
    StableHlo.TRef.unary main_call1.v12 main_call1.v14 (broadcastInDim S4x200000x64 ![1] bcast_S200000_S4x200000x64_1),
    StableHlo.TRef.nullary main_call1.cst (constant S_ .f32 0x7FC00000#32),
    StableHlo.TRef.unary main_call1.cst main_call1.v15 (broadcastInDim S4x200000x64 ![] bcast_S_S4x200000x64),
    StableHlo.TRef.ternary main_call1.v14 main_call1.v13 main_call1.v15 main_call1.v16 select,
    StableHlo.unary main_v22 main_v23 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_1 (constant S_ .f32 0x00000000#32),
    StableHlo.unary main_cst_1 main_v24 (broadcastInDim S50000x4x64 ![] bcast_S_S50000x4x64 : (⟨S_, .f32⟩ : BufTy).Contents (Elt F) → (⟨S50000x4x64, .f32⟩ : BufTy).Contents (Elt F)),
    StableHlo.unary main_v21 main_v25 (broadcastInDim S200000x1 ![0] bcast_S200000_S200000x1_0 : (⟨S200000, .i32⟩ : BufTy).Contents (Elt F) → (⟨S200000x1, .i32⟩ : BufTy).Contents (Elt F)),
    StableHlo.ternary main_v24 main_v25 main_v23 main_v26 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)),
    StableHlo.unary main_v26 main_v27 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v14 main_v27 main_v28 (addf : (⟨S4x50000x64, .f32⟩ : BufTy).Contents (Elt F) → (⟨S4x50000x64, .f32⟩ : BufTy).Contents (Elt F) → (⟨S4x50000x64, .f32⟩ : BufTy).Contents (Elt F)) ]

/-- 37 operations. -/
abbrev opsRel2 : List (HloOp τ sig (Elt F)) :=
  [ StableHlo.unary main_arg2 main_v29 ((extractStridedSlice S1x64x64 ![2, 0, 0] · slices_S8x64x64_S1x64x64_2_0_0) : (⟨S8x64x64, .f32⟩ : BufTy).Contents (Elt F) → (⟨S1x64x64, .f32⟩ : BufTy).Contents (Elt F)),
    StableHlo.reshape main_v29 main_v30 rfl shapeCasts_S1x64x64_S64x64,
    StableHlo.binary main_arg0 main_v30 main_v31 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v32 ((extractStridedSlice S1x200000x1 ![2, 0, 0] · slices_S8x200000x2_S1x200000x1_2_0_0) : (⟨S8x200000x2, .i32⟩ : BufTy).Contents (Elt F) → (⟨S1x200000x1, .i32⟩ : BufTy).Contents (Elt F)),
    StableHlo.reshape main_v32 main_v33 rfl shapeCasts_S1x200000x1_S200000,
    StableHlo.unary main_arg1 main_v34 ((extractStridedSlice S1x200000x1 ![2, 0, 1] · slices_S8x200000x2_S1x200000x1_2_0_1) : (⟨S8x200000x2, .i32⟩ : BufTy).Contents (Elt F) → (⟨S1x200000x1, .i32⟩ : BufTy).Contents (Elt F)),
    StableHlo.reshape main_v34 main_v35 rfl shapeCasts_S1x200000x1_S200000,
    StableHlo.TRef.nullary main_call2.c (constantI S_ 32 0#32),
    StableHlo.TRef.unary main_call2.c main_call2.v0 (broadcastInDim S200000 ![] bcast_S_S200000),
    StableHlo.TRef.binary (.of main_v33 : StableHlo.TRef sig ⟨S200000, .i32⟩) main_call2.v0 main_call2.v1 (cmpi .slt),
    StableHlo.TRef.nullary main_call2.c_0 (constantI S_ 32 50000#32),
    StableHlo.TRef.unary main_call2.c_0 main_call2.v2 (broadcastInDim S200000 ![] bcast_S_S200000),
    StableHlo.TRef.binary (.of main_v33 : StableHlo.TRef sig ⟨S200000, .i32⟩) main_call2.v2 main_call2.v3 addi,
    StableHlo.TRef.ternary main_call2.v1 main_call2.v3 (.of main_v33 : StableHlo.TRef sig ⟨S200000, .i32⟩) main_call2.call0.v0 select,
    StableHlo.TRef.unary main_call2.call0.v0 main_call2.v5 (broadcastInDim S200000x1 ![0] bcast_S200000_S200000x1_0),
    StableHlo.TRef.nullary main_call2.c_1 (constantI S1 32 49999#32),
    StableHlo.TRef.nullary main_call2.c_2 (constantI S_ 32 0#32),
    StableHlo.TRef.unary main_call2.c_2 main_call2.v6 (broadcastInDim S200000x1 ![] bcast_S_S200000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S200000x1 ![0, 1] bcast_S1x1_S200000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S200000x1_S200000_d1 h_S_),
    StableHlo.TRef.binary (.of main_v31 : StableHlo.TRef sig ⟨S4x50000x64, .f32⟩) main_call2.v5 main_call2.v13 (fun x i => Host.gather gather_S4x50000x64_S200000x1_S4x200000x64_02_1_n_n_1_1_4164 x i),
    StableHlo.TRef.unary main_call2.v12 main_call2.v14 (broadcastInDim S4x200000x64 ![1] bcast_S200000_S4x200000x64_1),
    StableHlo.TRef.nullary main_call2.cst (constant S_ .f32 0x7FC00000#32),
    StableHlo.TRef.unary main_call2.cst main_call2.v15 (broadcastInDim S4x200000x64 ![] bcast_S_S4x200000x64),
    StableHlo.TRef.ternary main_call2.v14 main_call2.v13 main_call2.v15 main_call2.v16 select,
    StableHlo.unary main_v36 main_v37 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_2 (constant S_ .f32 0x00000000#32),
    StableHlo.unary main_cst_2 main_v38 (broadcastInDim S50000x4x64 ![] bcast_S_S50000x4x64 : (⟨S_, .f32⟩ : BufTy).Contents (Elt F) → (⟨S50000x4x64, .f32⟩ : BufTy).Contents (Elt F)),
    StableHlo.unary main_v35 main_v39 (broadcastInDim S200000x1 ![0] bcast_S200000_S200000x1_0 : (⟨S200000, .i32⟩ : BufTy).Contents (Elt F) → (⟨S200000x1, .i32⟩ : BufTy).Contents (Elt F)),
    StableHlo.ternary main_v38 main_v39 main_v37 main_v40 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)),
    StableHlo.unary main_v40 main_v41 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v28 main_v41 main_v42 (addf : (⟨S4x50000x64, .f32⟩ : BufTy).Contents (Elt F) → (⟨S4x50000x64, .f32⟩ : BufTy).Contents (Elt F) → (⟨S4x50000x64, .f32⟩ : BufTy).Contents (Elt F)) ]

/-- 35 operations. -/
abbrev opsRel3a : List (HloOp τ sig (Elt F)) :=
  [ StableHlo.unary main_arg2 main_v43 ((extractStridedSlice S1x64x64 ![3, 0, 0] · slices_S8x64x64_S1x64x64_3_0_0) : (⟨S8x64x64, .f32⟩ : BufTy).Contents (Elt F) → (⟨S1x64x64, .f32⟩ : BufTy).Contents (Elt F)),
    StableHlo.reshape main_v43 main_v44 rfl shapeCasts_S1x64x64_S64x64,
    StableHlo.binary main_arg0 main_v44 main_v45 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v46 ((extractStridedSlice S1x200000x1 ![3, 0, 0] · slices_S8x200000x2_S1x200000x1_3_0_0) : (⟨S8x200000x2, .i32⟩ : BufTy).Contents (Elt F) → (⟨S1x200000x1, .i32⟩ : BufTy).Contents (Elt F)),
    StableHlo.reshape main_v46 main_v47 rfl shapeCasts_S1x200000x1_S200000,
    StableHlo.unary main_arg1 main_v48 ((extractStridedSlice S1x200000x1 ![3, 0, 1] · slices_S8x200000x2_S1x200000x1_3_0_1) : (⟨S8x200000x2, .i32⟩ : BufTy).Contents (Elt F) → (⟨S1x200000x1, .i32⟩ : BufTy).Contents (Elt F)),
    StableHlo.reshape main_v48 main_v49 rfl shapeCasts_S1x200000x1_S200000,
    StableHlo.TRef.nullary main_call3.c (constantI S_ 32 0#32),
    StableHlo.TRef.unary main_call3.c main_call3.v0 (broadcastInDim S200000 ![] bcast_S_S200000),
    StableHlo.TRef.binary (.of main_v47 : StableHlo.TRef sig ⟨S200000, .i32⟩) main_call3.v0 main_call3.v1 (cmpi .slt),
    StableHlo.TRef.nullary main_call3.c_0 (constantI S_ 32 50000#32),
    StableHlo.TRef.unary main_call3.c_0 main_call3.v2 (broadcastInDim S200000 ![] bcast_S_S200000),
    StableHlo.TRef.binary (.of main_v47 : StableHlo.TRef sig ⟨S200000, .i32⟩) main_call3.v2 main_call3.v3 addi,
    StableHlo.TRef.ternary main_call3.v1 main_call3.v3 (.of main_v47 : StableHlo.TRef sig ⟨S200000, .i32⟩) main_call3.call0.v0 select,
    StableHlo.TRef.unary main_call3.call0.v0 main_call3.v5 (broadcastInDim S200000x1 ![0] bcast_S200000_S200000x1_0),
    StableHlo.TRef.nullary main_call3.c_1 (constantI S1 32 49999#32),
    StableHlo.TRef.nullary main_call3.c_2 (constantI S_ 32 0#32),
    StableHlo.TRef.unary main_call3.c_2 main_call3.v6 (broadcastInDim S200000x1 ![] bcast_S_S200000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S200000x1 ![0, 1] bcast_S1x1_S200000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S200000x1_S200000_d1 h_S_),
    StableHlo.TRef.binary (.of main_v45 : StableHlo.TRef sig ⟨S4x50000x64, .f32⟩) main_call3.v5 main_call3.v13 (fun x i => Host.gather gather_S4x50000x64_S200000x1_S4x200000x64_02_1_n_n_1_1_4164 x i),
    StableHlo.TRef.unary main_call3.v12 main_call3.v14 (broadcastInDim S4x200000x64 ![1] bcast_S200000_S4x200000x64_1),
    StableHlo.TRef.nullary main_call3.cst (constant S_ .f32 0x7FC00000#32),
    StableHlo.TRef.unary main_call3.cst main_call3.v15 (broadcastInDim S4x200000x64 ![] bcast_S_S4x200000x64),
    StableHlo.TRef.ternary main_call3.v14 main_call3.v13 main_call3.v15 main_call3.v16 select,
    StableHlo.unary main_v50 main_v51 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_3 (constant S_ .f32 0x00000000#32),
    StableHlo.unary main_cst_3 main_v52 (broadcastInDim S50000x4x64 ![] bcast_S_S50000x4x64 : (⟨S_, .f32⟩ : BufTy).Contents (Elt F) → (⟨S50000x4x64, .f32⟩ : BufTy).Contents (Elt F)),
    StableHlo.unary main_v49 main_v53 (broadcastInDim S200000x1 ![0] bcast_S200000_S200000x1_0 : (⟨S200000, .i32⟩ : BufTy).Contents (Elt F) → (⟨S200000x1, .i32⟩ : BufTy).Contents (Elt F)),
    StableHlo.ternary main_v52 main_v53 main_v51 main_v54 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)) ]

/-- 2 operations. -/
abbrev opsRel3b : List (HloOp τ sig (Elt F)) :=
  [ StableHlo.unary main_v54 main_v55 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v42 main_v55 main_v56 (addf : (⟨S4x50000x64, .f32⟩ : BufTy).Contents (Elt F) → (⟨S4x50000x64, .f32⟩ : BufTy).Contents (Elt F) → (⟨S4x50000x64, .f32⟩ : BufTy).Contents (Elt F)) ]

/-- 37 operations. -/
abbrev opsRel4 : List (HloOp τ sig (Elt F)) :=
  [ StableHlo.unary main_arg2 main_v57 ((extractStridedSlice S1x64x64 ![4, 0, 0] · slices_S8x64x64_S1x64x64_4_0_0) : (⟨S8x64x64, .f32⟩ : BufTy).Contents (Elt F) → (⟨S1x64x64, .f32⟩ : BufTy).Contents (Elt F)),
    StableHlo.reshape main_v57 main_v58 rfl shapeCasts_S1x64x64_S64x64,
    StableHlo.binary main_arg0 main_v58 main_v59 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v60 ((extractStridedSlice S1x200000x1 ![4, 0, 0] · slices_S8x200000x2_S1x200000x1_4_0_0) : (⟨S8x200000x2, .i32⟩ : BufTy).Contents (Elt F) → (⟨S1x200000x1, .i32⟩ : BufTy).Contents (Elt F)),
    StableHlo.reshape main_v60 main_v61 rfl shapeCasts_S1x200000x1_S200000,
    StableHlo.unary main_arg1 main_v62 ((extractStridedSlice S1x200000x1 ![4, 0, 1] · slices_S8x200000x2_S1x200000x1_4_0_1) : (⟨S8x200000x2, .i32⟩ : BufTy).Contents (Elt F) → (⟨S1x200000x1, .i32⟩ : BufTy).Contents (Elt F)),
    StableHlo.reshape main_v62 main_v63 rfl shapeCasts_S1x200000x1_S200000,
    StableHlo.TRef.nullary main_call4.c (constantI S_ 32 0#32),
    StableHlo.TRef.unary main_call4.c main_call4.v0 (broadcastInDim S200000 ![] bcast_S_S200000),
    StableHlo.TRef.binary (.of main_v61 : StableHlo.TRef sig ⟨S200000, .i32⟩) main_call4.v0 main_call4.v1 (cmpi .slt),
    StableHlo.TRef.nullary main_call4.c_0 (constantI S_ 32 50000#32),
    StableHlo.TRef.unary main_call4.c_0 main_call4.v2 (broadcastInDim S200000 ![] bcast_S_S200000),
    StableHlo.TRef.binary (.of main_v61 : StableHlo.TRef sig ⟨S200000, .i32⟩) main_call4.v2 main_call4.v3 addi,
    StableHlo.TRef.ternary main_call4.v1 main_call4.v3 (.of main_v61 : StableHlo.TRef sig ⟨S200000, .i32⟩) main_call4.call0.v0 select,
    StableHlo.TRef.unary main_call4.call0.v0 main_call4.v5 (broadcastInDim S200000x1 ![0] bcast_S200000_S200000x1_0),
    StableHlo.TRef.nullary main_call4.c_1 (constantI S1 32 49999#32),
    StableHlo.TRef.nullary main_call4.c_2 (constantI S_ 32 0#32),
    StableHlo.TRef.unary main_call4.c_2 main_call4.v6 (broadcastInDim S200000x1 ![] bcast_S_S200000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S200000x1 ![0, 1] bcast_S1x1_S200000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S200000x1_S200000_d1 h_S_),
    StableHlo.TRef.binary (.of main_v59 : StableHlo.TRef sig ⟨S4x50000x64, .f32⟩) main_call4.v5 main_call4.v13 (fun x i => Host.gather gather_S4x50000x64_S200000x1_S4x200000x64_02_1_n_n_1_1_4164 x i),
    StableHlo.TRef.unary main_call4.v12 main_call4.v14 (broadcastInDim S4x200000x64 ![1] bcast_S200000_S4x200000x64_1),
    StableHlo.TRef.nullary main_call4.cst (constant S_ .f32 0x7FC00000#32),
    StableHlo.TRef.unary main_call4.cst main_call4.v15 (broadcastInDim S4x200000x64 ![] bcast_S_S4x200000x64),
    StableHlo.TRef.ternary main_call4.v14 main_call4.v13 main_call4.v15 main_call4.v16 select,
    StableHlo.unary main_v64 main_v65 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_4 (constant S_ .f32 0x00000000#32),
    StableHlo.unary main_cst_4 main_v66 (broadcastInDim S50000x4x64 ![] bcast_S_S50000x4x64 : (⟨S_, .f32⟩ : BufTy).Contents (Elt F) → (⟨S50000x4x64, .f32⟩ : BufTy).Contents (Elt F)),
    StableHlo.unary main_v63 main_v67 (broadcastInDim S200000x1 ![0] bcast_S200000_S200000x1_0 : (⟨S200000, .i32⟩ : BufTy).Contents (Elt F) → (⟨S200000x1, .i32⟩ : BufTy).Contents (Elt F)),
    StableHlo.ternary main_v66 main_v67 main_v65 main_v68 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)),
    StableHlo.unary main_v68 main_v69 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v56 main_v69 main_v70 (addf : (⟨S4x50000x64, .f32⟩ : BufTy).Contents (Elt F) → (⟨S4x50000x64, .f32⟩ : BufTy).Contents (Elt F) → (⟨S4x50000x64, .f32⟩ : BufTy).Contents (Elt F)) ]

/-- 37 operations. -/
abbrev opsRel5 : List (HloOp τ sig (Elt F)) :=
  [ StableHlo.unary main_arg2 main_v71 ((extractStridedSlice S1x64x64 ![5, 0, 0] · slices_S8x64x64_S1x64x64_5_0_0) : (⟨S8x64x64, .f32⟩ : BufTy).Contents (Elt F) → (⟨S1x64x64, .f32⟩ : BufTy).Contents (Elt F)),
    StableHlo.reshape main_v71 main_v72 rfl shapeCasts_S1x64x64_S64x64,
    StableHlo.binary main_arg0 main_v72 main_v73 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v74 ((extractStridedSlice S1x200000x1 ![5, 0, 0] · slices_S8x200000x2_S1x200000x1_5_0_0) : (⟨S8x200000x2, .i32⟩ : BufTy).Contents (Elt F) → (⟨S1x200000x1, .i32⟩ : BufTy).Contents (Elt F)),
    StableHlo.reshape main_v74 main_v75 rfl shapeCasts_S1x200000x1_S200000,
    StableHlo.unary main_arg1 main_v76 ((extractStridedSlice S1x200000x1 ![5, 0, 1] · slices_S8x200000x2_S1x200000x1_5_0_1) : (⟨S8x200000x2, .i32⟩ : BufTy).Contents (Elt F) → (⟨S1x200000x1, .i32⟩ : BufTy).Contents (Elt F)),
    StableHlo.reshape main_v76 main_v77 rfl shapeCasts_S1x200000x1_S200000,
    StableHlo.TRef.nullary main_call5.c (constantI S_ 32 0#32),
    StableHlo.TRef.unary main_call5.c main_call5.v0 (broadcastInDim S200000 ![] bcast_S_S200000),
    StableHlo.TRef.binary (.of main_v75 : StableHlo.TRef sig ⟨S200000, .i32⟩) main_call5.v0 main_call5.v1 (cmpi .slt),
    StableHlo.TRef.nullary main_call5.c_0 (constantI S_ 32 50000#32),
    StableHlo.TRef.unary main_call5.c_0 main_call5.v2 (broadcastInDim S200000 ![] bcast_S_S200000),
    StableHlo.TRef.binary (.of main_v75 : StableHlo.TRef sig ⟨S200000, .i32⟩) main_call5.v2 main_call5.v3 addi,
    StableHlo.TRef.ternary main_call5.v1 main_call5.v3 (.of main_v75 : StableHlo.TRef sig ⟨S200000, .i32⟩) main_call5.call0.v0 select,
    StableHlo.TRef.unary main_call5.call0.v0 main_call5.v5 (broadcastInDim S200000x1 ![0] bcast_S200000_S200000x1_0),
    StableHlo.TRef.nullary main_call5.c_1 (constantI S1 32 49999#32),
    StableHlo.TRef.nullary main_call5.c_2 (constantI S_ 32 0#32),
    StableHlo.TRef.unary main_call5.c_2 main_call5.v6 (broadcastInDim S200000x1 ![] bcast_S_S200000x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S200000x1 ![0, 1] bcast_S1x1_S200000x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S200000x1_S200000_d1 h_S_),
    StableHlo.TRef.binary (.of main_v73 : StableHlo.TRef sig ⟨S4x50000x64, .f32⟩) main_call5.v5 main_call5.v13 (fun x i => Host.gather gather_S4x50000x64_S200000x1_S4x200000x64_02_1_n_n_1_1_4164 x i),
    StableHlo.TRef.unary main_call5.v12 main_call5.v14 (broadcastInDim S4x200000x64 ![1] bcast_S200000_S4x200000x64_1),
    StableHlo.TRef.nullary main_call5.cst (constant S_ .f32 0x7FC00000#32),
    StableHlo.TRef.unary main_call5.cst main_call5.v15 (broadcastInDim S4x200000x64 ![] bcast_S_S4x200000x64),
    StableHlo.TRef.ternary main_call5.v14 main_call5.v13 main_call5.v15 main_call5.v16 select,
    StableHlo.unary main_v78 main_v79 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_5 (constant S_ .f32 0x00000000#32),
    StableHlo.unary main_cst_5 main_v80 (broadcastInDim S50000x4x64 ![] bcast_S_S50000x4x64 : (⟨S_, .f32⟩ : BufTy).Contents (Elt F) → (⟨S50000x4x64, .f32⟩ : BufTy).Contents (Elt F)),
    StableHlo.unary main_v77 main_v81 (broadcastInDim S200000x1 ![0] bcast_S200000_S200000x1_0 : (⟨S200000, .i32⟩ : BufTy).Contents (Elt F) → (⟨S200000x1, .i32⟩ : BufTy).Contents (Elt F)),
    StableHlo.ternary main_v80 main_v81 main_v79 main_v82 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)),
    StableHlo.unary main_v82 main_v83 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v70 main_v83 main_v84 (addf : (⟨S4x50000x64, .f32⟩ : BufTy).Contents (Elt F) → (⟨S4x50000x64, .f32⟩ : BufTy).Contents (Elt F) → (⟨S4x50000x64, .f32⟩ : BufTy).Contents (Elt F)) ]

/-- 37 operations. -/
abbrev opsRel6 : List (HloOp τ sig (Elt F)) :=
  [ StableHlo.unary main_arg2 main_v85 ((extractStridedSlice S1x64x64 ![6, 0, 0] · slices_S8x64x64_S1x64x64_6_0_0) : (⟨S8x64x64, .f32⟩ : BufTy).Contents (Elt F) → (⟨S1x64x64, .f32⟩ : BufTy).Contents (Elt F)),
    StableHlo.reshape main_v85 main_v86 rfl shapeCasts_S1x64x64_S64x64,
    StableHlo.binary main_arg0 main_v86 main_v87 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v88 ((extractStridedSlice S1x200000x1 ![6, 0, 0] · slices_S8x200000x2_S1x200000x1_6_0_0) : (⟨S8x200000x2, .i32⟩ : BufTy).Contents (Elt F) → (⟨S1x200000x1, .i32⟩ : BufTy).Contents (Elt F)),
    StableHlo.reshape main_v88 main_v89 rfl shapeCasts_S1x200000x1_S200000,
    StableHlo.unary main_arg1 main_v90 ((extractStridedSlice S1x200000x1 ![6, 0, 1] · slices_S8x200000x2_S1x200000x1_6_0_1) : (⟨S8x200000x2, .i32⟩ : BufTy).Contents (Elt F) → (⟨S1x200000x1, .i32⟩ : BufTy).Contents (Elt F)),
    StableHlo.reshape main_v90 main_v91 rfl shapeCasts_S1x200000x1_S200000,
    StableHlo.TRef.nullary main_call6.c (constantI S_ 32 0#32),
    StableHlo.TRef.unary main_call6.c main_call6.v0 (broadcastInDim S200000 ![] bcast_S_S200000),
    StableHlo.TRef.binary (.of main_v89 : StableHlo.TRef sig ⟨S200000, .i32⟩) main_call6.v0 main_call6.v1 (cmpi .slt),
    StableHlo.TRef.nullary main_call6.c_0 (constantI S_ 32 50000#32),
    StableHlo.TRef.unary main_call6.c_0 main_call6.v2 (broadcastInDim S200000 ![] bcast_S_S200000),
    StableHlo.TRef.binary (.of main_v89 : StableHlo.TRef sig ⟨S200000, .i32⟩) main_call6.v2 main_call6.v3 addi,
    StableHlo.TRef.ternary main_call6.v1 main_call6.v3 (.of main_v89 : StableHlo.TRef sig ⟨S200000, .i32⟩) main_call6.call0.v0 select,
    StableHlo.TRef.unary main_call6.call0.v0 main_call6.v5 (broadcastInDim S200000x1 ![0] bcast_S200000_S200000x1_0),
    StableHlo.TRef.nullary main_call6.c_1 (constantI S1 32 49999#32),
    StableHlo.TRef.nullary main_call6.c_2 (constantI S_ 32 0#32),
    StableHlo.TRef.unary main_call6.c_2 main_call6.v6 (broadcastInDim S200000x1 ![] bcast_S_S200000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S200000x1 ![0, 1] bcast_S1x1_S200000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S200000x1_S200000_d1 h_S_),
    StableHlo.TRef.binary (.of main_v87 : StableHlo.TRef sig ⟨S4x50000x64, .f32⟩) main_call6.v5 main_call6.v13 (fun x i => Host.gather gather_S4x50000x64_S200000x1_S4x200000x64_02_1_n_n_1_1_4164 x i),
    StableHlo.TRef.unary main_call6.v12 main_call6.v14 (broadcastInDim S4x200000x64 ![1] bcast_S200000_S4x200000x64_1),
    StableHlo.TRef.nullary main_call6.cst (constant S_ .f32 0x7FC00000#32),
    StableHlo.TRef.unary main_call6.cst main_call6.v15 (broadcastInDim S4x200000x64 ![] bcast_S_S4x200000x64),
    StableHlo.TRef.ternary main_call6.v14 main_call6.v13 main_call6.v15 main_call6.v16 select,
    StableHlo.unary main_v92 main_v93 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_6 (constant S_ .f32 0x00000000#32),
    StableHlo.unary main_cst_6 main_v94 (broadcastInDim S50000x4x64 ![] bcast_S_S50000x4x64 : (⟨S_, .f32⟩ : BufTy).Contents (Elt F) → (⟨S50000x4x64, .f32⟩ : BufTy).Contents (Elt F)),
    StableHlo.unary main_v91 main_v95 (broadcastInDim S200000x1 ![0] bcast_S200000_S200000x1_0 : (⟨S200000, .i32⟩ : BufTy).Contents (Elt F) → (⟨S200000x1, .i32⟩ : BufTy).Contents (Elt F)),
    StableHlo.ternary main_v94 main_v95 main_v93 main_v96 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)),
    StableHlo.unary main_v96 main_v97 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v84 main_v97 main_v98 (addf : (⟨S4x50000x64, .f32⟩ : BufTy).Contents (Elt F) → (⟨S4x50000x64, .f32⟩ : BufTy).Contents (Elt F) → (⟨S4x50000x64, .f32⟩ : BufTy).Contents (Elt F)) ]

/-- 35 operations. -/
abbrev opsRel7a : List (HloOp τ sig (Elt F)) :=
  [ StableHlo.unary main_arg2 main_v99 ((extractStridedSlice S1x64x64 ![7, 0, 0] · slices_S8x64x64_S1x64x64_7_0_0) : (⟨S8x64x64, .f32⟩ : BufTy).Contents (Elt F) → (⟨S1x64x64, .f32⟩ : BufTy).Contents (Elt F)),
    StableHlo.reshape main_v99 main_v100 rfl shapeCasts_S1x64x64_S64x64,
    StableHlo.binary main_arg0 main_v100 main_v101 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg1 main_v102 ((extractStridedSlice S1x200000x1 ![7, 0, 0] · slices_S8x200000x2_S1x200000x1_7_0_0) : (⟨S8x200000x2, .i32⟩ : BufTy).Contents (Elt F) → (⟨S1x200000x1, .i32⟩ : BufTy).Contents (Elt F)),
    StableHlo.reshape main_v102 main_v103 rfl shapeCasts_S1x200000x1_S200000,
    StableHlo.unary main_arg1 main_v104 ((extractStridedSlice S1x200000x1 ![7, 0, 1] · slices_S8x200000x2_S1x200000x1_7_0_1) : (⟨S8x200000x2, .i32⟩ : BufTy).Contents (Elt F) → (⟨S1x200000x1, .i32⟩ : BufTy).Contents (Elt F)),
    StableHlo.reshape main_v104 main_v105 rfl shapeCasts_S1x200000x1_S200000,
    StableHlo.TRef.nullary main_call7.c (constantI S_ 32 0#32),
    StableHlo.TRef.unary main_call7.c main_call7.v0 (broadcastInDim S200000 ![] bcast_S_S200000),
    StableHlo.TRef.binary (.of main_v103 : StableHlo.TRef sig ⟨S200000, .i32⟩) main_call7.v0 main_call7.v1 (cmpi .slt),
    StableHlo.TRef.nullary main_call7.c_0 (constantI S_ 32 50000#32),
    StableHlo.TRef.unary main_call7.c_0 main_call7.v2 (broadcastInDim S200000 ![] bcast_S_S200000),
    StableHlo.TRef.binary (.of main_v103 : StableHlo.TRef sig ⟨S200000, .i32⟩) main_call7.v2 main_call7.v3 addi,
    StableHlo.TRef.ternary main_call7.v1 main_call7.v3 (.of main_v103 : StableHlo.TRef sig ⟨S200000, .i32⟩) main_call7.call0.v0 select,
    StableHlo.TRef.unary main_call7.call0.v0 main_call7.v5 (broadcastInDim S200000x1 ![0] bcast_S200000_S200000x1_0),
    StableHlo.TRef.nullary main_call7.c_1 (constantI S1 32 49999#32),
    StableHlo.TRef.nullary main_call7.c_2 (constantI S_ 32 0#32),
    StableHlo.TRef.unary main_call7.c_2 main_call7.v6 (broadcastInDim S200000x1 ![] bcast_S_S200000x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S200000x1 ![0, 1] bcast_S1x1_S200000x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S200000x1_S200000_d1 h_S_),
    StableHlo.TRef.binary (.of main_v101 : StableHlo.TRef sig ⟨S4x50000x64, .f32⟩) main_call7.v5 main_call7.v13 (fun x i => Host.gather gather_S4x50000x64_S200000x1_S4x200000x64_02_1_n_n_1_1_4164 x i),
    StableHlo.TRef.unary main_call7.v12 main_call7.v14 (broadcastInDim S4x200000x64 ![1] bcast_S200000_S4x200000x64_1),
    StableHlo.TRef.nullary main_call7.cst (constant S_ .f32 0x7FC00000#32),
    StableHlo.TRef.unary main_call7.cst main_call7.v15 (broadcastInDim S4x200000x64 ![] bcast_S_S4x200000x64),
    StableHlo.TRef.ternary main_call7.v14 main_call7.v13 main_call7.v15 main_call7.v16 select,
    StableHlo.unary main_v106 main_v107 ((transpose S200000x4x64 [1, 0, 2] · transposes_S4x200000x64_S200000x4x64_1_0_2) : (⟨S4x200000x64, .f32⟩ : BufTy).Contents (Elt F) → (⟨S200000x4x64, .f32⟩ : BufTy).Contents (Elt F)),
    StableHlo.nullary main_cst_7 (constant S_ .f32 0x00000000#32),
    StableHlo.unary main_cst_7 main_v108 (broadcastInDim S50000x4x64 ![] bcast_S_S50000x4x64 : (⟨S_, .f32⟩ : BufTy).Contents (Elt F) → (⟨S50000x4x64, .f32⟩ : BufTy).Contents (Elt F)),
    StableHlo.unary main_v105 main_v109 (broadcastInDim S200000x1 ![0] bcast_S200000_S200000x1_0 : (⟨S200000, .i32⟩ : BufTy).Contents (Elt F) → (⟨S200000x1, .i32⟩ : BufTy).Contents (Elt F)),
    StableHlo.ternary main_v108 main_v109 main_v107 main_v110 ((fun x i u => Host.scatterAdd scatter_S50000x4x64_S200000x1_S200000x4x64_12_0_0_1 x i u) : (⟨S50000x4x64, .f32⟩ : BufTy).Contents (Elt F) → (⟨S200000x1, .i32⟩ : BufTy).Contents (Elt F) → (⟨S200000x4x64, .f32⟩ : BufTy).Contents (Elt F) → (⟨S50000x4x64, .f32⟩ : BufTy).Contents (Elt F)) ]

/-- 2 operations. -/
abbrev opsRel7b : List (HloOp τ sig (Elt F)) :=
  [ StableHlo.unary main_v110 main_v111 ((transpose S4x50000x64 [1, 0, 2] · transposes_S50000x4x64_S4x50000x64_1_0_2) : (⟨S50000x4x64, .f32⟩ : BufTy).Contents (Elt F) → (⟨S4x50000x64, .f32⟩ : BufTy).Contents (Elt F)),
    StableHlo.binary main_v98 main_v111 main_v112 (addf : (⟨S4x50000x64, .f32⟩ : BufTy).Contents (Elt F) → (⟨S4x50000x64, .f32⟩ : BufTy).Contents (Elt F) → (⟨S4x50000x64, .f32⟩ : BufTy).Contents (Elt F)) ]

/-- The program's part 0. -/
abbrev window0 : List (HloOp τ sig (Elt F)) := opsInit ++ opsRel0 ++ opsRel1 ++ opsRel2 ++ opsRel3a

/-- The program's part 1. -/
abbrev window1 : List (HloOp τ sig (Elt F)) := opsRel3b ++ opsRel4 ++ opsRel5 ++ opsRel6 ++ opsRel7a

/-- The program's part 2. -/
abbrev window2 : List (HloOp τ sig (Elt F)) := opsRel7b

/-- The whole program, in order. -/
abbrev ops : List (HloOp τ sig (Elt F)) := window0 ++ (window1 ++ window2)

end Cert.ReferenceIdeal.Hand

end
-- ==== Proof.RefMain.lean ====
/-
  The reference program is one straight line of host operations: each of its three consecutive parts is the
  line of its own operations (the two outlined functions unfold at their calls, each value of a call at the buffer
  the call's record gives it), and the parts run in order are the concatenated line. Beside it, what running
  such a line asks: no buffer and no semaphore of the signature is scoped, every operation touches TensorCore
  references only, and every operation determines its results.
-/
import proofs.«169067_j54434415510061_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Over an appended list a property of the entries holds when it holds over both lists. -/
theorem forall_mem_append {α : Type} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

/-! ## The program as a line -/

set_option maxRecDepth 16384 in
set_option maxHeartbeats 4000000 in
/-- The first part: the zero array, relations 0 to 2, and relation 3 up to its scatter-add. -/
theorem part0_eq (c : Dev nD) : main_part0 (F := F) c = seq window0 := rfl

set_option maxRecDepth 16384 in
set_option maxHeartbeats 4000000 in
/-- The second part: the end of relation 3, relations 4 to 6, and relation 7 up to its scatter-add. -/
theorem part1_eq (c : Dev nD) : main_part1 (F := F) c = seq window1 := rfl

set_option maxRecDepth 16384 in
/-- The third part: the end of relation 7. -/
theorem part2_eq (c : Dev nD) : main_part2 (F := F) c = seq window2 := rfl

/-- The program runs its three parts in order; lines run in order are the concatenated line. -/
theorem main_eq (c : Dev nD) : main (F := F) c = seq ops := by
  rw [show main (F := F) c = (main_part0 c >>= fun _ => main_part1 c >>= fun _ => main_part2 c) from rfl,
    part0_eq, part1_eq, part2_eq, ← seq_append, ← seq_append]

/-! ## What running the line asks -/

theorem scopedRefs_eq : (Finset.univ.filter fun b : Ref sig .tc => b.isScoped) = ∅ := by decide
theorem scopedSems_eq : (Finset.univ.filter fun sm : SemLoc sig => sm.isScoped .tc) = ∅ := by decide

theorem opsInit_sub : (opsInit : List (HloOp τ sig (Elt F))).Forall fun op => op.bufs ⊆ tcRefs τ sig := by
  simp only [List.Forall, nullary_bufs_sub, unary_bufs_sub, binary_bufs_sub, ternary_bufs_sub, reshape_bufs_sub, and_self]
theorem opsInit_fresh : ∀ op ∈ (opsInit : List (HloOp τ sig (Elt F))), op.fresh = ∅ := by
  intro _ h; (repeat (cases h with | head => rfl | tail _ h => ?_)); exact nomatch h
theorem opsRel0_sub : (opsRel0 : List (HloOp τ sig (Elt F))).Forall fun op => op.bufs ⊆ tcRefs τ sig := by
  simp only [List.Forall, nullary_bufs_sub, unary_bufs_sub, binary_bufs_sub, ternary_bufs_sub, reshape_bufs_sub, and_self]
theorem opsRel0_fresh : ∀ op ∈ (opsRel0 : List (HloOp τ sig (Elt F))), op.fresh = ∅ := by
  intro _ h; (repeat (cases h with | head => rfl | tail _ h => ?_)); exact nomatch h
theorem opsRel1_sub : (opsRel1 : List (HloOp τ sig (Elt F))).Forall fun op => op.bufs ⊆ tcRefs τ sig := by
  simp only [List.Forall, nullary_bufs_sub, unary_bufs_sub, binary_bufs_sub, ternary_bufs_sub, reshape_bufs_sub, and_self]
theorem opsRel1_fresh : ∀ op ∈ (opsRel1 : List (HloOp τ sig (Elt F))), op.fresh = ∅ := by
  intro _ h; (repeat (cases h with | head => rfl | tail _ h => ?_)); exact nomatch h
theorem opsRel2_sub : (opsRel2 : List (HloOp τ sig (Elt F))).Forall fun op => op.bufs ⊆ tcRefs τ sig := by
  simp only [List.Forall, nullary_bufs_sub, unary_bufs_sub, binary_bufs_sub, ternary_bufs_sub, reshape_bufs_sub, and_self]
theorem opsRel2_fresh : ∀ op ∈ (opsRel2 : List (HloOp τ sig (Elt F))), op.fresh = ∅ := by
  intro _ h; (repeat (cases h with | head => rfl | tail _ h => ?_)); exact nomatch h
theorem opsRel3a_sub : (opsRel3a : List (HloOp τ sig (Elt F))).Forall fun op => op.bufs ⊆ tcRefs τ sig := by
  simp only [List.Forall, nullary_bufs_sub, unary_bufs_sub, binary_bufs_sub, ternary_bufs_sub, reshape_bufs_sub, and_self]
theorem opsRel3a_fresh : ∀ op ∈ (opsRel3a : List (HloOp τ sig (Elt F))), op.fresh = ∅ := by
  intro _ h; (repeat (cases h with | head => rfl | tail _ h => ?_)); exact nomatch h
theorem opsRel3b_sub : (opsRel3b : List (HloOp τ sig (Elt F))).Forall fun op => op.bufs ⊆ tcRefs τ sig := by
  simp only [List.Forall, nullary_bufs_sub, unary_bufs_sub, binary_bufs_sub, ternary_bufs_sub, reshape_bufs_sub, and_self]
theorem opsRel3b_fresh : ∀ op ∈ (opsRel3b : List (HloOp τ sig (Elt F))), op.fresh = ∅ := by
  intro _ h; (repeat (cases h with | head => rfl | tail _ h => ?_)); exact nomatch h
theorem opsRel4_sub : (opsRel4 : List (HloOp τ sig (Elt F))).Forall fun op => op.bufs ⊆ tcRefs τ sig := by
  simp only [List.Forall, nullary_bufs_sub, unary_bufs_sub, binary_bufs_sub, ternary_bufs_sub, reshape_bufs_sub, and_self]
theorem opsRel4_fresh : ∀ op ∈ (opsRel4 : List (HloOp τ sig (Elt F))), op.fresh = ∅ := by
  intro _ h; (repeat (cases h with | head => rfl | tail _ h => ?_)); exact nomatch h
theorem opsRel5_sub : (opsRel5 : List (HloOp τ sig (Elt F))).Forall fun op => op.bufs ⊆ tcRefs τ sig := by
  simp only [List.Forall, nullary_bufs_sub, unary_bufs_sub, binary_bufs_sub, ternary_bufs_sub, reshape_bufs_sub, and_self]
theorem opsRel5_fresh : ∀ op ∈ (opsRel5 : List (HloOp τ sig (Elt F))), op.fresh = ∅ := by
  intro _ h; (repeat (cases h with | head => rfl | tail _ h => ?_)); exact nomatch h
theorem opsRel6_sub : (opsRel6 : List (HloOp τ sig (Elt F))).Forall fun op => op.bufs ⊆ tcRefs τ sig := by
  simp only [List.Forall, nullary_bufs_sub, unary_bufs_sub, binary_bufs_sub, ternary_bufs_sub, reshape_bufs_sub, and_self]
theorem opsRel6_fresh : ∀ op ∈ (opsRel6 : List (HloOp τ sig (Elt F))), op.fresh = ∅ := by
  intro _ h; (repeat (cases h with | head => rfl | tail _ h => ?_)); exact nomatch h
theorem opsRel7a_sub : (opsRel7a : List (HloOp τ sig (Elt F))).Forall fun op => op.bufs ⊆ tcRefs τ sig := by
  simp only [List.Forall, nullary_bufs_sub, unary_bufs_sub, binary_bufs_sub, ternary_bufs_sub, reshape_bufs_sub, and_self]
theorem opsRel7a_fresh : ∀ op ∈ (opsRel7a : List (HloOp τ sig (Elt F))), op.fresh = ∅ := by
  intro _ h; (repeat (cases h with | head => rfl | tail _ h => ?_)); exact nomatch h
theorem opsRel7b_sub : (opsRel7b : List (HloOp τ sig (Elt F))).Forall fun op => op.bufs ⊆ tcRefs τ sig := by
  simp only [List.Forall, nullary_bufs_sub, unary_bufs_sub, binary_bufs_sub, ternary_bufs_sub, reshape_bufs_sub, and_self]
theorem opsRel7b_fresh : ∀ op ∈ (opsRel7b : List (HloOp τ sig (Elt F))), op.fresh = ∅ := by
  intro _ h; (repeat (cases h with | head => rfl | tail _ h => ?_)); exact nomatch h

/-- Every operation of the program touches TensorCore references only. -/
theorem ops_sub : (ops : List (HloOp τ sig (Elt F))).Forall fun op => op.bufs ⊆ tcRefs τ sig :=
  List.forall_iff_forall_mem.mpr <|
    forall_mem_append
      (forall_mem_append (forall_mem_append (forall_mem_append (forall_mem_append
        (List.forall_iff_forall_mem.mp opsInit_sub) (List.forall_iff_forall_mem.mp opsRel0_sub))
        (List.forall_iff_forall_mem.mp opsRel1_sub)) (List.forall_iff_forall_mem.mp opsRel2_sub))
        (List.forall_iff_forall_mem.mp opsRel3a_sub))
      (forall_mem_append
        (forall_mem_append (forall_mem_append (forall_mem_append (forall_mem_append
          (List.forall_iff_forall_mem.mp opsRel3b_sub) (List.forall_iff_forall_mem.mp opsRel4_sub))
          (List.forall_iff_forall_mem.mp opsRel5_sub)) (List.forall_iff_forall_mem.mp opsRel6_sub))
          (List.forall_iff_forall_mem.mp opsRel7a_sub))
        (List.forall_iff_forall_mem.mp opsRel7b_sub))

/-- Every operation of the program determines its results. -/
theorem ops_fresh : ∀ op ∈ (ops : List (HloOp τ sig (Elt F))), op.fresh = ∅ :=
  forall_mem_append
    (forall_mem_append (forall_mem_append (forall_mem_append (forall_mem_append
      opsInit_fresh opsRel0_fresh) opsRel1_fresh) opsRel2_fresh) opsRel3a_fresh)
    (forall_mem_append
      (forall_mem_append (forall_mem_append (forall_mem_append (forall_mem_append
        opsRel3b_fresh opsRel4_fresh) opsRel5_fresh) opsRel6_fresh) opsRel7a_fresh)
      opsRel7b_fresh)

end Cert.ReferenceIdeal.Hand

end
-- ==== Proof.RefDefs.lean ====
/-
  The graph-convolution step both programs share, as pure functions of arrays (any float instance F).
  For one relation with source nodes `src` and destination nodes `dst` (one entry per edge) and a
  per-node feature array `h` : [4, 50000, 64]:
    * `nodeIdx src`  — a negative node number counts from the end (50000 is added), as a column [200000, 1];
    * `takeRows h src` — row `nodeIdx src e` of `h` for every edge `e` ([4, 200000, 64]); an edge whose
      node number is still outside 0 … 49999 gets the not-a-number pattern instead;
    * `edgeStep acc h src dst` — `acc` plus, at every node `n`, the sum of the taken rows over the edges
      whose destination is `n` (a scatter-add into zeros, the edge axis moved in front and back).
  Nothing here is ever opened by the proofs that use it: the two programs apply the same step to
  arrays that are proved equal.
-/
import proofs.«169067_j54434415510061_1_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Node numbers as a column, a negative one counted from the end. -/
def nodeIdx (src : (⟨S200000, .i32⟩ : BufTy).Contents (Elt F)) : (⟨S200000x1, .i32⟩ : BufTy).Contents (Elt F) :=
  broadcastInDim S200000x1 ![0] bcast_S200000_S200000x1_0
    (select (cmpi .slt src (broadcastInDim S200000 ![] bcast_S_S200000 (constantI S_ 32 0#32)))
      (addi src (broadcastInDim S200000 ![] bcast_S_S200000 (constantI S_ 32 50000#32))) src)

/-- Per edge: is the node number inside 0 … 49999? -/
def nodeOk (src : (⟨S200000, .i32⟩ : BufTy).Contents (Elt F)) : (⟨S200000, .i1⟩ : BufTy).Contents (Elt F) :=
  Host.reduce IntOp.andi
    (andi (cmpi .sge (nodeIdx (F := F) src) (broadcastInDim S200000x1 ![] bcast_S_S200000x1 (constantI S_ 32 0#32)))
      (cmpi .sle (nodeIdx (F := F) src) (broadcastInDim S200000x1 ![0, 1] bcast_S1x1_S200000x1_0_1
        (broadcastInDim S1x1 ![1] bcast_S1_S1x1_1 (constantI S1 32 49999#32)))))
    (constantI S_ 1 1#1) reducesTo_S200000x1_S200000_d1 h_S_

/-- The rows of `h` at the edges' source nodes. -/
def takeRows (h : (⟨S4x50000x64, .f32⟩ : BufTy).Contents (Elt F)) (src : (⟨S200000, .i32⟩ : BufTy).Contents (Elt F)) : (⟨S4x200000x64, .f32⟩ : BufTy).Contents (Elt F) :=
  select (broadcastInDim S4x200000x64 ![1] bcast_S200000_S4x200000x64_1 (nodeOk (F := F) src))
    (Host.gather gather_S4x50000x64_S200000x1_S4x200000x64_02_1_n_n_1_1_4164 h (nodeIdx (F := F) src))
    (broadcastInDim S4x200000x64 ![] bcast_S_S4x200000x64 (constant S_ .f32 0x7FC00000#32))

/-- One relation's contribution added to the running result. -/
def edgeStep (acc h : (⟨S4x50000x64, .f32⟩ : BufTy).Contents (Elt F)) (src dst : (⟨S200000, .i32⟩ : BufTy).Contents (Elt F)) : (⟨S4x50000x64, .f32⟩ : BufTy).Contents (Elt F) :=
  addf acc
    (transpose S4x50000x64 [1, 0, 2]
      (Host.scatterAdd scatter_S50000x4x64_S200000x1_S200000x4x64_12_0_0_1
        (broadcastInDim S50000x4x64 ![] bcast_S_S50000x4x64 (constant S_ .f32 0x00000000#32))
        (broadcastInDim S200000x1 ![0] bcast_S200000_S200000x1_0 dst)
        (transpose S200000x4x64 [1, 0, 2] (takeRows h src) transposes_S4x200000x64_S200000x4x64_1_0_2))
      transposes_S50000x4x64_S4x50000x64_1_0_2)

/-- The result before any relation: zeros. -/
def zeros : (⟨S4x50000x64, .f32⟩ : BufTy).Contents (Elt F) :=
  broadcastInDim S4x50000x64 ![] bcast_S_S4x50000x64 (constant S_ .f32 0x00000000#32)

/-! The edge list `e` : [8, 200000, 2] holds, for relation `r`, the source nodes in column 0 and the
    destination nodes in column 1. -/
def src0 (e : (⟨S8x200000x2, .i32⟩ : BufTy).Contents (Elt F)) : (⟨S200000, .i32⟩ : BufTy).Contents (Elt F) :=
  shapeCast S200000 (extractStridedSlice S1x200000x1 ![0, 0, 0] e slices_S8x200000x2_S1x200000x1_0_0_0) shapeCasts_S1x200000x1_S200000
def dst0 (e : (⟨S8x200000x2, .i32⟩ : BufTy).Contents (Elt F)) : (⟨S200000, .i32⟩ : BufTy).Contents (Elt F) :=
  shapeCast S200000 (extractStridedSlice S1x200000x1 ![0, 0, 1] e slices_S8x200000x2_S1x200000x1_0_0_1) shapeCasts_S1x200000x1_S200000
def src1 (e : (⟨S8x200000x2, .i32⟩ : BufTy).Contents (Elt F)) : (⟨S200000, .i32⟩ : BufTy).Contents (Elt F) :=
  shapeCast S200000 (extractStridedSlice S1x200000x1 ![1, 0, 0] e slices_S8x200000x2_S1x200000x1_1_0_0) shapeCasts_S1x200000x1_S200000
def dst1 (e : (⟨S8x200000x2, .i32⟩ : BufTy).Contents (Elt F)) : (⟨S200000, .i32⟩ : BufTy).Contents (Elt F) :=
  shapeCast S200000 (extractStridedSlice S1x200000x1 ![1, 0, 1] e slices_S8x200000x2_S1x200000x1_1_0_1) shapeCasts_S1x200000x1_S200000
def src2 (e : (⟨S8x200000x2, .i32⟩ : BufTy).Contents (Elt F)) : (⟨S200000, .i32⟩ : BufTy).Contents (Elt F) :=
  shapeCast S200000 (extractStridedSlice S1x200000x1 ![2, 0, 0] e slices_S8x200000x2_S1x200000x1_2_0_0) shapeCasts_S1x200000x1_S200000
def dst2 (e : (⟨S8x200000x2, .i32⟩ : BufTy).Contents (Elt F)) : (⟨S200000, .i32⟩ : BufTy).Contents (Elt F) :=
  shapeCast S200000 (extractStridedSlice S1x200000x1 ![2, 0, 1] e slices_S8x200000x2_S1x200000x1_2_0_1) shapeCasts_S1x200000x1_S200000
def src3 (e : (⟨S8x200000x2, .i32⟩ : BufTy).Contents (Elt F)) : (⟨S200000, .i32⟩ : BufTy).Contents (Elt F) :=
  shapeCast S200000 (extractStridedSlice S1x200000x1 ![3, 0, 0] e slices_S8x200000x2_S1x200000x1_3_0_0) shapeCasts_S1x200000x1_S200000
def dst3 (e : (⟨S8x200000x2, .i32⟩ : BufTy).Contents (Elt F)) : (⟨S200000, .i32⟩ : BufTy).Contents (Elt F) :=
  shapeCast S200000 (extractStridedSlice S1x200000x1 ![3, 0, 1] e slices_S8x200000x2_S1x200000x1_3_0_1) shapeCasts_S1x200000x1_S200000
def src4 (e : (⟨S8x200000x2, .i32⟩ : BufTy).Contents (Elt F)) : (⟨S200000, .i32⟩ : BufTy).Contents (Elt F) :=
  shapeCast S200000 (extractStridedSlice S1x200000x1 ![4, 0, 0] e slices_S8x200000x2_S1x200000x1_4_0_0) shapeCasts_S1x200000x1_S200000
def dst4 (e : (⟨S8x200000x2, .i32⟩ : BufTy).Contents (Elt F)) : (⟨S200000, .i32⟩ : BufTy).Contents (Elt F) :=
  shapeCast S200000 (extractStridedSlice S1x200000x1 ![4, 0, 1] e slices_S8x200000x2_S1x200000x1_4_0_1) shapeCasts_S1x200000x1_S200000
def src5 (e : (⟨S8x200000x2, .i32⟩ : BufTy).Contents (Elt F)) : (⟨S200000, .i32⟩ : BufTy).Contents (Elt F) :=
  shapeCast S200000 (extractStridedSlice S1x200000x1 ![5, 0, 0] e slices_S8x200000x2_S1x200000x1_5_0_0) shapeCasts_S1x200000x1_S200000
def dst5 (e : (⟨S8x200000x2, .i32⟩ : BufTy).Contents (Elt F)) : (⟨S200000, .i32⟩ : BufTy).Contents (Elt F) :=
  shapeCast S200000 (extractStridedSlice S1x200000x1 ![5, 0, 1] e slices_S8x200000x2_S1x200000x1_5_0_1) shapeCasts_S1x200000x1_S200000
def src6 (e : (⟨S8x200000x2, .i32⟩ : BufTy).Contents (Elt F)) : (⟨S200000, .i32⟩ : BufTy).Contents (Elt F) :=
  shapeCast S200000 (extractStridedSlice S1x200000x1 ![6, 0, 0] e slices_S8x200000x2_S1x200000x1_6_0_0) shapeCasts_S1x200000x1_S200000
def dst6 (e : (⟨S8x200000x2, .i32⟩ : BufTy).Contents (Elt F)) : (⟨S200000, .i32⟩ : BufTy).Contents (Elt F) :=
  shapeCast S200000 (extractStridedSlice S1x200000x1 ![6, 0, 1] e slices_S8x200000x2_S1x200000x1_6_0_1) shapeCasts_S1x200000x1_S200000
def src7 (e : (⟨S8x200000x2, .i32⟩ : BufTy).Contents (Elt F)) : (⟨S200000, .i32⟩ : BufTy).Contents (Elt F) :=
  shapeCast S200000 (extractStridedSlice S1x200000x1 ![7, 0, 0] e slices_S8x200000x2_S1x200000x1_7_0_0) shapeCasts_S1x200000x1_S200000
def dst7 (e : (⟨S8x200000x2, .i32⟩ : BufTy).Contents (Elt F)) : (⟨S200000, .i32⟩ : BufTy).Contents (Elt F) :=
  shapeCast S200000 (extractStridedSlice S1x200000x1 ![7, 0, 1] e slices_S8x200000x2_S1x200000x1_7_0_1) shapeCasts_S1x200000x1_S200000

/-! The reference transforms the node features by relation `r`'s own 64 × 64 matrix. -/
def feat0 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![0, 0, 0] w slices_S8x64x64_S1x64x64_0_0_0) shapeCasts_S1x64x64_S64x64)
def feat1 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![1, 0, 0] w slices_S8x64x64_S1x64x64_1_0_0) shapeCasts_S1x64x64_S64x64)
def feat2 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![2, 0, 0] w slices_S8x64x64_S1x64x64_2_0_0) shapeCasts_S1x64x64_S64x64)
def feat3 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![3, 0, 0] w slices_S8x64x64_S1x64x64_3_0_0) shapeCasts_S1x64x64_S64x64)
def feat4 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![4, 0, 0] w slices_S8x64x64_S1x64x64_4_0_0) shapeCasts_S1x64x64_S64x64)
def feat5 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![5, 0, 0] w slices_S8x64x64_S1x64x64_5_0_0) shapeCasts_S1x64x64_S64x64)
def feat6 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![6, 0, 0] w slices_S8x64x64_S1x64x64_6_0_0) shapeCasts_S1x64x64_S64x64)
def feat7 (x : (⟨S4x50000x64, .f32⟩ : BufTy).Contents (Elt F)) (w : (⟨S8x64x64, .f32⟩ : BufTy).Contents (Elt F)) : (⟨S4x50000x64, .f32⟩ : BufTy).Contents (Elt F) :=
  Host.dotGeneral dot_S4x50000x64_S64x64_S4x50000x64_2_0_01_1_n_n none x
    (shapeCast S64x64 (extractStridedSlice S1x64x64 ![7, 0, 0] w slices_S8x64x64_S1x64x64_7_0_0) shapeCasts_S1x64x64_S64x64)

/-- The reference's result as one function of its three arguments: the eight relations' steps, in order. -/
def refOut (x : (⟨S4x50000x64, .f32⟩ : BufTy).Contents (Elt F)) (e : (⟨S8x200000x2, .i32⟩ : BufTy).Contents (Elt F)) (w : (⟨S8x64x64, .f32⟩ : BufTy).Contents (Elt F)) : (⟨S4x50000x64, .f32⟩ : BufTy).Contents (Elt F) :=
  edgeStep (edgeStep (edgeStep (edgeStep (edgeStep (edgeStep (edgeStep (edgeStep (zeros) (feat0 x w) (src0 e) (dst0 e)) (feat1 x w) (src1 e) (dst1 e)) (feat2 x w) (src2 e) (dst2 e)) (feat3 x w) (src3 e) (dst3 e)) (feat4 x w) (src4 e) (dst4 e)) (feat5 x w) (src5 e) (dst5 e)) (feat6 x w) (src6 e) (dst6 e)) (feat7 x w) (src7 e) (dst7 e)

end Cert.ReferenceIdeal.Hand

end
-- ==== Proof.RefRead.lean ====
/-
  What the reference program's line leaves in the buffers, read back: from any contents of the device's buffers,
  after the whole line the result buffer holds the eight relations' steps applied in order to the zero array —
  each step the relation's own feature product, its rows taken at the source nodes, scatter-added at the
  destination nodes and added to the running result — as a function of the three argument buffers' contents,
  and the three argument buffers hold what they held: no operation writes them.
-/
import proofs.«169067_j54434415510061_1_alg».proof.Proof.RefOps
import proofs.«169067_j54434415510061_1_alg».proof.Proof.RefDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running the first, then the second from what it left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The arguments

Piece by piece: none of a piece's operations has an argument's buffer as its result buffer. -/

theorem opsInit_arg0 (V : Valuation τ sig (Elt F)) :
    after opsInit V (Proc.devRef .tc main_arg0) = V (Proc.devRef .tc main_arg0) := by
  simp only [opsInit]; after_results_simp
theorem opsInit_arg1 (V : Valuation τ sig (Elt F)) :
    after opsInit V (Proc.devRef .tc main_arg1) = V (Proc.devRef .tc main_arg1) := by
  simp only [opsInit]; after_results_simp
theorem opsInit_arg2 (V : Valuation τ sig (Elt F)) :
    after opsInit V (Proc.devRef .tc main_arg2) = V (Proc.devRef .tc main_arg2) := by
  simp only [opsInit]; after_results_simp
theorem opsRel0_arg0 (V : Valuation τ sig (Elt F)) :
    after opsRel0 V (Proc.devRef .tc main_arg0) = V (Proc.devRef .tc main_arg0) := by
  simp only [opsRel0]; after_results_simp
theorem opsRel0_arg1 (V : Valuation τ sig (Elt F)) :
    after opsRel0 V (Proc.devRef .tc main_arg1) = V (Proc.devRef .tc main_arg1) := by
  simp only [opsRel0]; after_results_simp
theorem opsRel0_arg2 (V : Valuation τ sig (Elt F)) :
    after opsRel0 V (Proc.devRef .tc main_arg2) = V (Proc.devRef .tc main_arg2) := by
  simp only [opsRel0]; after_results_simp
theorem opsRel1_arg0 (V : Valuation τ sig (Elt F)) :
    after opsRel1 V (Proc.devRef .tc main_arg0) = V (Proc.devRef .tc main_arg0) := by
  simp only [opsRel1]; after_results_simp
theorem opsRel1_arg1 (V : Valuation τ sig (Elt F)) :
    after opsRel1 V (Proc.devRef .tc main_arg1) = V (Proc.devRef .tc main_arg1) := by
  simp only [opsRel1]; after_results_simp
theorem opsRel1_arg2 (V : Valuation τ sig (Elt F)) :
    after opsRel1 V (Proc.devRef .tc main_arg2) = V (Proc.devRef .tc main_arg2) := by
  simp only [opsRel1]; after_results_simp
theorem opsRel2_arg0 (V : Valuation τ sig (Elt F)) :
    after opsRel2 V (Proc.devRef .tc main_arg0) = V (Proc.devRef .tc main_arg0) := by
  simp only [opsRel2]; after_results_simp
theorem opsRel2_arg1 (V : Valuation τ sig (Elt F)) :
    after opsRel2 V (Proc.devRef .tc main_arg1) = V (Proc.devRef .tc main_arg1) := by
  simp only [opsRel2]; after_results_simp
theorem opsRel2_arg2 (V : Valuation τ sig (Elt F)) :
    after opsRel2 V (Proc.devRef .tc main_arg2) = V (Proc.devRef .tc main_arg2) := by
  simp only [opsRel2]; after_results_simp
theorem opsRel3a_arg0 (V : Valuation τ sig (Elt F)) :
    after opsRel3a V (Proc.devRef .tc main_arg0) = V (Proc.devRef .tc main_arg0) := by
  simp only [opsRel3a]; after_results_simp
theorem opsRel3a_arg1 (V : Valuation τ sig (Elt F)) :
    after opsRel3a V (Proc.devRef .tc main_arg1) = V (Proc.devRef .tc main_arg1) := by
  simp only [opsRel3a]; after_results_simp
theorem opsRel3a_arg2 (V : Valuation τ sig (Elt F)) :
    after opsRel3a V (Proc.devRef .tc main_arg2) = V (Proc.devRef .tc main_arg2) := by
  simp only [opsRel3a]; after_results_simp
theorem opsRel3b_arg0 (V : Valuation τ sig (Elt F)) :
    after opsRel3b V (Proc.devRef .tc main_arg0) = V (Proc.devRef .tc main_arg0) := by
  simp only [opsRel3b]; after_results_simp
theorem opsRel3b_arg1 (V : Valuation τ sig (Elt F)) :
    after opsRel3b V (Proc.devRef .tc main_arg1) = V (Proc.devRef .tc main_arg1) := by
  simp only [opsRel3b]; after_results_simp
theorem opsRel3b_arg2 (V : Valuation τ sig (Elt F)) :
    after opsRel3b V (Proc.devRef .tc main_arg2) = V (Proc.devRef .tc main_arg2) := by
  simp only [opsRel3b]; after_results_simp
theorem opsRel4_arg0 (V : Valuation τ sig (Elt F)) :
    after opsRel4 V (Proc.devRef .tc main_arg0) = V (Proc.devRef .tc main_arg0) := by
  simp only [opsRel4]; after_results_simp
theorem opsRel4_arg1 (V : Valuation τ sig (Elt F)) :
    after opsRel4 V (Proc.devRef .tc main_arg1) = V (Proc.devRef .tc main_arg1) := by
  simp only [opsRel4]; after_results_simp
theorem opsRel4_arg2 (V : Valuation τ sig (Elt F)) :
    after opsRel4 V (Proc.devRef .tc main_arg2) = V (Proc.devRef .tc main_arg2) := by
  simp only [opsRel4]; after_results_simp
theorem opsRel5_arg0 (V : Valuation τ sig (Elt F)) :
    after opsRel5 V (Proc.devRef .tc main_arg0) = V (Proc.devRef .tc main_arg0) := by
  simp only [opsRel5]; after_results_simp
theorem opsRel5_arg1 (V : Valuation τ sig (Elt F)) :
    after opsRel5 V (Proc.devRef .tc main_arg1) = V (Proc.devRef .tc main_arg1) := by
  simp only [opsRel5]; after_results_simp
theorem opsRel5_arg2 (V : Valuation τ sig (Elt F)) :
    after opsRel5 V (Proc.devRef .tc main_arg2) = V (Proc.devRef .tc main_arg2) := by
  simp only [opsRel5]; after_results_simp
theorem opsRel6_arg0 (V : Valuation τ sig (Elt F)) :
    after opsRel6 V (Proc.devRef .tc main_arg0) = V (Proc.devRef .tc main_arg0) := by
  simp only [opsRel6]; after_results_simp
theorem opsRel6_arg1 (V : Valuation τ sig (Elt F)) :
    after opsRel6 V (Proc.devRef .tc main_arg1) = V (Proc.devRef .tc main_arg1) := by
  simp only [opsRel6]; after_results_simp
theorem opsRel6_arg2 (V : Valuation τ sig (Elt F)) :
    after opsRel6 V (Proc.devRef .tc main_arg2) = V (Proc.devRef .tc main_arg2) := by
  simp only [opsRel6]; after_results_simp
theorem opsRel7a_arg0 (V : Valuation τ sig (Elt F)) :
    after opsRel7a V (Proc.devRef .tc main_arg0) = V (Proc.devRef .tc main_arg0) := by
  simp only [opsRel7a]; after_results_simp
theorem opsRel7a_arg1 (V : Valuation τ sig (Elt F)) :
    after opsRel7a V (Proc.devRef .tc main_arg1) = V (Proc.devRef .tc main_arg1) := by
  simp only [opsRel7a]; after_results_simp
theorem opsRel7a_arg2 (V : Valuation τ sig (Elt F)) :
    after opsRel7a V (Proc.devRef .tc main_arg2) = V (Proc.devRef .tc main_arg2) := by
  simp only [opsRel7a]; after_results_simp
theorem opsRel7b_arg0 (V : Valuation τ sig (Elt F)) :
    after opsRel7b V (Proc.devRef .tc main_arg0) = V (Proc.devRef .tc main_arg0) := by
  simp only [opsRel7b]; after_results_simp
theorem opsRel7b_arg1 (V : Valuation τ sig (Elt F)) :
    after opsRel7b V (Proc.devRef .tc main_arg1) = V (Proc.devRef .tc main_arg1) := by
  simp only [opsRel7b]; after_results_simp
theorem opsRel7b_arg2 (V : Valuation τ sig (Elt F)) :
    after opsRel7b V (Proc.devRef .tc main_arg2) = V (Proc.devRef .tc main_arg2) := by
  simp only [opsRel7b]; after_results_simp

/-- No operation of the line writes the first argument's buffer. -/
theorem arg0_eq (V : Valuation τ sig (Elt F)) :
    after ops V (Proc.devRef .tc main_arg0) = V (Proc.devRef .tc main_arg0) := by
  simp only [ops, window0, window1, window2, after_append]
  rw [opsRel7b_arg0, opsRel7a_arg0, opsRel6_arg0, opsRel5_arg0, opsRel4_arg0, opsRel3b_arg0, opsRel3a_arg0, opsRel2_arg0, opsRel1_arg0, opsRel0_arg0, opsInit_arg0]

/-- No operation of the line writes the second argument's buffer. -/
theorem arg1_eq (V : Valuation τ sig (Elt F)) :
    after ops V (Proc.devRef .tc main_arg1) = V (Proc.devRef .tc main_arg1) := by
  simp only [ops, window0, window1, window2, after_append]
  rw [opsRel7b_arg1, opsRel7a_arg1, opsRel6_arg1, opsRel5_arg1, opsRel4_arg1, opsRel3b_arg1, opsRel3a_arg1, opsRel2_arg1, opsRel1_arg1, opsRel0_arg1, opsInit_arg1]

/-- No operation of the line writes the third argument's buffer. -/
theorem arg2_eq (V : Valuation τ sig (Elt F)) :
    after ops V (Proc.devRef .tc main_arg2) = V (Proc.devRef .tc main_arg2) := by
  simp only [ops, window0, window1, window2, after_append]
  rw [opsRel7b_arg2, opsRel7a_arg2, opsRel6_arg2, opsRel5_arg2, opsRel4_arg2, opsRel3b_arg2, opsRel3a_arg2, opsRel2_arg2, opsRel1_arg2, opsRel0_arg2, opsInit_arg2]

/-! ## The result

Piece by piece again. Within one relation's operations each operation's result at its own buffer is its function of
its operands' contents and any other buffer keeps what it held; composed, and the changes of type at the called
function's buffers dropped, that is the relation's step, term for term. -/

/-- A change of type along an equation between a type and itself changes nothing. Stated as an equation to rewrite
    with: the contents of a call's buffers are written and read through such changes of type, between the type the
    called function states for a value and the type the signature's table gives its buffer, which are one type. -/
theorem cast_same {α : Type} (h : α = α) (a : α) : cast h a = a := eq_of_heq (cast_heq h a)

/-- The two first operations leave the zero array in the buffer of the running result. -/
theorem opsInit_out (V : Valuation τ sig (Elt F)) : after opsInit V (Proc.devRef .tc main_v0) = zeros := by
  simp only [opsInit]
  after_results_simp
  rfl

/-- Relation 0: its operations leave, in the buffer of the new running result, its step applied to the old one. -/
theorem opsRel0_out (V : Valuation τ sig (Elt F)) :
    after opsRel0 V (Proc.devRef .tc main_v14)
      = edgeStep (V (Proc.devRef .tc main_v0)) (feat0 (V (Proc.devRef .tc main_arg0)) (V (Proc.devRef .tc main_arg2)))
          (src0 (V (Proc.devRef .tc main_arg1))) (dst0 (V (Proc.devRef .tc main_arg1))) := by
  simp only [opsRel0]
  after_results_simp
  simp only [cast_same]
  rfl

/-- Relation 1: its operations leave, in the buffer of the new running result, its step applied to the old one. -/
theorem opsRel1_out (V : Valuation τ sig (Elt F)) :
    after opsRel1 V (Proc.devRef .tc main_v28)
      = edgeStep (V (Proc.devRef .tc main_v14)) (feat1 (V (Proc.devRef .tc main_arg0)) (V (Proc.devRef .tc main_arg2)))
          (src1 (V (Proc.devRef .tc main_arg1))) (dst1 (V (Proc.devRef .tc main_arg1))) := by
  simp only [opsRel1]
  after_results_simp
  simp only [cast_same]
  rfl

/-- Relation 2: its operations leave, in the buffer of the new running result, its step applied to the old one. -/
theorem opsRel2_out (V : Valuation τ sig (Elt F)) :
    after opsRel2 V (Proc.devRef .tc main_v42)
      = edgeStep (V (Proc.devRef .tc main_v28)) (feat2 (V (Proc.devRef .tc main_arg0)) (V (Proc.devRef .tc main_arg2)))
          (src2 (V (Proc.devRef .tc main_arg1))) (dst2 (V (Proc.devRef .tc main_arg1))) := by
  simp only [opsRel2]
  after_results_simp
  simp only [cast_same]
  rfl

/-- Relation 3: its operations leave, in the buffer of the new running result, its step applied to the old one. -/
theorem opsRel3_out (V : Valuation τ sig (Elt F)) :
    after opsRel3b (after opsRel3a V) (Proc.devRef .tc main_v56)
      = edgeStep (V (Proc.devRef .tc main_v42)) (feat3 (V (Proc.devRef .tc main_arg0)) (V (Proc.devRef .tc main_arg2)))
          (src3 (V (Proc.devRef .tc main_arg1))) (dst3 (V (Proc.devRef .tc main_arg1))) := by
  simp only [opsRel3a, opsRel3b]
  after_results_simp
  simp only [cast_same]
  rfl

/-- Relation 4: its operations leave, in the buffer of the new running result, its step applied to the old one. -/
theorem opsRel4_out (V : Valuation τ sig (Elt F)) :
    after opsRel4 V (Proc.devRef .tc main_v70)
      = edgeStep (V (Proc.devRef .tc main_v56)) (feat4 (V (Proc.devRef .tc main_arg0)) (V (Proc.devRef .tc main_arg2)))
          (src4 (V (Proc.devRef .tc main_arg1))) (dst4 (V (Proc.devRef .tc main_arg1))) := by
  simp only [opsRel4]
  after_results_simp
  simp only [cast_same]
  rfl

/-- Relation 5: its operations leave, in the buffer of the new running result, its step applied to the old one. -/
theorem opsRel5_out (V : Valuation τ sig (Elt F)) :
    after opsRel5 V (Proc.devRef .tc main_v84)
      = edgeStep (V (Proc.devRef .tc main_v70)) (feat5 (V (Proc.devRef .tc main_arg0)) (V (Proc.devRef .tc main_arg2)))
          (src5 (V (Proc.devRef .tc main_arg1))) (dst5 (V (Proc.devRef .tc main_arg1))) := by
  simp only [opsRel5]
  after_results_simp
  simp only [cast_same]
  rfl

/-- Relation 6: its operations leave, in the buffer of the new running result, its step applied to the old one. -/
theorem opsRel6_out (V : Valuation τ sig (Elt F)) :
    after opsRel6 V (Proc.devRef .tc main_v98)
      = edgeStep (V (Proc.devRef .tc main_v84)) (feat6 (V (Proc.devRef .tc main_arg0)) (V (Proc.devRef .tc main_arg2)))
          (src6 (V (Proc.devRef .tc main_arg1))) (dst6 (V (Proc.devRef .tc main_arg1))) := by
  simp only [opsRel6]
  after_results_simp
  simp only [cast_same]
  rfl

/-- Relation 7: its operations leave, in the buffer of the new running result, its step applied to the old one. -/
theorem opsRel7_out (V : Valuation τ sig (Elt F)) :
    after opsRel7b (after opsRel7a V) (Proc.devRef .tc main_v112)
      = edgeStep (V (Proc.devRef .tc main_v98)) (feat7 (V (Proc.devRef .tc main_arg0)) (V (Proc.devRef .tc main_arg2)))
          (src7 (V (Proc.devRef .tc main_arg1))) (dst7 (V (Proc.devRef .tc main_arg1))) := by
  simp only [opsRel7a, opsRel7b]
  after_results_simp
  simp only [cast_same]
  rfl

/-- The result buffer after the whole line: relation by relation from the last, the new running result is the
    relation's step of the old one and of the arguments, which every earlier piece of the line has left alone. -/
theorem out_eq (V : Valuation τ sig (Elt F)) :
    after ops V (Proc.devRef .tc main_v112)
      = refOut (V (Proc.devRef .tc main_arg0)) (V (Proc.devRef .tc main_arg1)) (V (Proc.devRef .tc main_arg2)) := by
  simp only [ops, window0, window1, window2, after_append]
  rw [opsRel7_out,
    opsRel6_out, opsRel6_arg0, opsRel6_arg1, opsRel6_arg2,
    opsRel5_out, opsRel5_arg0, opsRel5_arg1, opsRel5_arg2,
    opsRel4_out, opsRel4_arg0, opsRel4_arg1, opsRel4_arg2,
    opsRel3_out, opsRel3b_arg0, opsRel3b_arg1, opsRel3b_arg2, opsRel3a_arg0, opsRel3a_arg1, opsRel3a_arg2,
    opsRel2_out, opsRel2_arg0, opsRel2_arg1, opsRel2_arg2,
    opsRel1_out, opsRel1_arg0, opsRel1_arg1, opsRel1_arg2,
    opsRel0_out, opsRel0_arg0, opsRel0_arg1, opsRel0_arg2,
    opsInit_out, opsInit_arg0, opsInit_arg1, opsInit_arg2]
  rfl

end Cert.ReferenceIdeal.Hand

end
-- ==== Proof.RefRun.lean ====
/-
  The reference program's run: on every device, for any float values, from any memory with zero counters,
  every weakly fair execution of the program terminates; its result buffer then holds the eight relations'
  steps applied in order to the zero array, as a function of the three arguments' launch contents, and the three
  argument buffers hold their launch contents. The second statement keeps only the arguments.
-/
import proofs.«169067_j54434415510061_1_alg».proof.Proof.RefMain
import proofs.«169067_j54434415510061_1_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program terminates with its result the composed steps of the arguments and the arguments unchanged:
    the run of the straight line from the launch contents, its buffers read back. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v112).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ (fun _ => ops_fresh))

/-- The program terminates with its three argument buffers at their launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.ReferenceIdeal.Hand

end
-- ==== Proof.Feat.lean ====
/-
  Relation `r`'s node features, as one function of the node array `x` : [4, 50000, 64] and the weights
  `w` : [8, 64, 64] over the extended reals:
      feat r x w (b, n, o) = ∑ k < 64, x (b, n, k) · w (r, k, o).
  Two readings of it are proved here, over plain index functions (no program is imported):
    * the fused form — flatten `x` to rows [200000, 64], lay the eight matrices side by side as columns
      [64, 512] (column r·64 + o holds w (r, ·, o)), multiply once, view the [200000, 512] product as
      [4, 50000, 8, 64] and take relation `r`'s slice;
    * the per-relation form — contract `x`'s last axis with the first axis of relation `r`'s own matrix.
  Both are sums over the same 64 terms, so no finiteness is needed: nothing is reordered or distributed.
-/
import Idealize.ShloMosaic.PureOps.Ideal.Laws
import Idealize.ShloMosaic.Lib.ValueIdx
import Idealize.ShloMosaic.Lib.ValueLayout
import Idealize.ShloMosaic.Lib.Pipeline.Value
import proofs.«169067_j54434415510061_1_alg».proof.Proof.LibPlainDot

noncomputable section

namespace Cert.Hand

open Idealize.ShloMosaic Idealize.ShloMosaic.ValueIdx Cert.Lib.PlainDot

abbrev SX : Shape := ⟨3, ![4, 50000, 64]⟩
abbrev SW : Shape := ⟨3, ![8, 64, 64]⟩
abbrev SX2 : Shape := ⟨2, ![200000, 64]⟩
abbrev SWc : Shape := ⟨2, ![64, 512]⟩
abbrev SWt : Shape := ⟨3, ![64, 8, 64]⟩
abbrev SH2 : Shape := ⟨2, ![200000, 512]⟩
abbrev SH4 : Shape := ⟨4, ![4, 50000, 8, 64]⟩
abbrev SH41 : Shape := ⟨4, ![4, 50000, 1, 64]⟩
abbrev SW1 : Shape := ⟨3, ![1, 64, 64]⟩
abbrev SWm : Shape := ⟨2, ![64, 64]⟩

/-- Relation `r`'s features. -/
def feat (r : Fin 8) (x : SX.Idx → EReal) (w : SW.Idx → EReal) : SX.Idx → EReal :=
  fun j => ∑ k : Fin 64, x (ix3 (j 0) (j 1) k) * w (ix3 r k (j 2))

/-- The node array as rows: row b·50000 + n is node n of batch b. -/
theorem rows_apply (x : SX.Idx → EReal) (h : SX.ShapeCasts SX2) (b : Fin 4) (n : Fin 50000) (k : Fin 64)
    (row : Fin 200000) (hrow : row.val = b.val * 50000 + n.val) :
    shapeCast SX2 x h (ix2 row k) = x (ix3 b n k) :=
  shapeCast_apply x h _ _ (by
    rw [Shape.rowMajor_val_three, Shape.rowMajor_val_two]
    show (b.val * 50000 + n.val) * 64 + k.val = row.val * 64 + k.val
    rw [hrow])

/-- The eight matrices side by side: column r·64 + o of row k is w (r, k, o). -/
theorem cols_apply (w : SW.Idx → EReal) (ht : SW.Transposes [1, 0, 2] SWt) (h : SWt.ShapeCasts SWc)
    (r : Fin 8) (k : Fin 64) (o : Fin 64) (col : Fin 512) (hcol : col.val = r.val * 64 + o.val) :
    shapeCast SWc (transpose SWt [1, 0, 2] w ht) h (ix2 k col) = w (ix3 r k o) := by
  rw [shapeCast_apply (transpose SWt [1, 0, 2] w ht) h (ix2 k col) (ix3 k r o) (by
    rw [Shape.rowMajor_val_three, Shape.rowMajor_val_two]
    show (k.val * 8 + r.val) * 64 + o.val = k.val * 512 + col.val
    rw [hcol]; omega)]
  exact transpose_apply _ w ht _ (ix3 r k o) fun c => match c with | ⟨0, _⟩ => rfl | ⟨1, _⟩ => rfl | ⟨2, _⟩ => rfl

/-- The fused product viewed as [4, 50000, 8, 64], relation `r`'s slice, as [4, 50000, 64]: entry (b, n, o) is
    the product's entry at row b·50000 + n and column r·64 + o. -/
theorem slice_apply (g : SH2.Idx → EReal) (h4 : SH2.ShapeCasts SH4) (off : Fin 4 → Nat) (r : Fin 8)
    (hoff : off = ![0, 0, r.val, 0]) (hs : SH4.Slices off SH41) (h3 : SH41.ShapeCasts SX)
    (b : Fin 4) (n : Fin 50000) (o : Fin 64) (row : Fin 200000) (col : Fin 512)
    (hrow : row.val = b.val * 50000 + n.val) (hcol : col.val = r.val * 64 + o.val) :
    shapeCast SX (extractStridedSlice SH41 off (shapeCast SH4 g h4) hs) h3 (ix3 b n o) = g (ix2 row col) := by
  subst hoff
  rw [shapeCast_apply (extractStridedSlice SH41 _ (shapeCast SH4 g h4) hs) h3 (ix3 b n o) (ix4 b n (0 : Fin 1) o) (by
    rw [Shape.rowMajor_val_four, Shape.rowMajor_val_three]
    show ((b.val * 50000 + n.val) * 1 + 0) * 64 + o.val = (b.val * 50000 + n.val) * 64 + o.val
    omega)]
  rw [extractStridedSlice_apply _ (shapeCast SH4 g h4) hs (ix4 b n (0 : Fin 1) o) (ix4 b n r o) (fun a =>
    match a with
    | ⟨0, _⟩ => (Nat.zero_add _).symm
    | ⟨1, _⟩ => (Nat.zero_add _).symm
    | ⟨2, _⟩ => (Nat.add_zero _).symm
    | ⟨3, _⟩ => (Nat.zero_add _).symm)]
  exact shapeCast_apply g h4 _ _ (by
    rw [Shape.rowMajor_val_two, Shape.rowMajor_val_four]
    show row.val * 512 + col.val = ((b.val * 50000 + n.val) * 8 + r.val) * 64 + o.val
    rw [hrow, hcol]; omega)

/-- THE FUSED FORM: relation `r`'s slice of the one product of the flattened nodes with the side-by-side matrices is
    `feat r`. -/
theorem fused_eq (x : SX.Idx → EReal) (w : SW.Idx → EReal) (hx : SX.ShapeCasts SX2)
    (ht : SW.Transposes [1, 0, 2] SWt) (hw : SWt.ShapeCasts SWc)
    (h4 : SH2.ShapeCasts SH4) (off : Fin 4 → Nat) (r : Fin 8) (hoff : off = ![0, 0, r.val, 0])
    (hs : SH4.Slices off SH41) (h3 : SH41.ShapeCasts SX) :
    shapeCast SX (extractStridedSlice SH41 off
        (shapeCast SH4 (mm (shapeCast SX2 x hx) (shapeCast SWc (transpose SWt [1, 0, 2] w ht) hw)) h4) hs) h3
      = feat r x w := by
  funext j
  obtain ⟨b, n, o, rfl⟩ : ∃ (b : Fin 4) (n : Fin 50000) (o : Fin 64), j = ix3 b n o := ⟨j 0, j 1, j 2, eq_ix3 j⟩
  have hr : b.val * 50000 + n.val < 200000 := by have := b.isLt; have := n.isLt; omega
  have hc : r.val * 64 + o.val < 512 := by have := r.isLt; have := o.isLt; omega
  rw [slice_apply _ h4 off r hoff hs h3 b n o ⟨_, hr⟩ ⟨_, hc⟩ rfl rfl, mm_apply]
  show _ = ∑ k : Fin 64, x (ix3 b n k) * w (ix3 r k o)
  refine Finset.sum_congr rfl fun k _ => ?_
  rw [rows_apply x hx b n k ⟨_, hr⟩ rfl, cols_apply w ht hw r k o ⟨_, hc⟩ rfl]

/-- Relation `r`'s own matrix: the slice [r : r+1] of the weights with its unit axis dropped. -/
theorem own_apply (w : SW.Idx → EReal) (off : Fin 3 → Nat) (r : Fin 8) (hoff : off = ![r.val, 0, 0])
    (hs : SW.Slices off SW1) (hc : SW1.ShapeCasts SWm) (k o : Fin 64) :
    shapeCast SWm (extractStridedSlice SW1 off w hs) hc (ix2 k o) = w (ix3 r k o) := by
  subst hoff
  rw [shapeCast_1ab_ab_apply]
  exact extractStridedSlice_apply _ w hs (ix3 (0 : Fin 1) k o) (ix3 r k o) fun a =>
    match a with
    | ⟨0, _⟩ => (Nat.add_zero _).symm
    | ⟨1, _⟩ => (Nat.zero_add _).symm
    | ⟨2, _⟩ => (Nat.zero_add _).symm

end Cert.Hand

end
-- ==== Proof.KiFeat.lean ====
/-
  The kernel's per-relation features are `feat r`.  The host lines before the region flatten the node array to
  rows ([4, 50000, 64] → [200000, 64]) and lay the eight weight matrices side by side ([8, 64, 64] → [64, 8, 64] →
  [64, 512]); the region leaves their product (the whole product, by the blocks-to-array module); the host lines
  after it view the product as [4, 50000, 8, 64] and slice relation `r` out.  That slice is `feat r` of the
  launch arguments — the fused form of the specification.
-/
import proofs.«169067_j54434415510061_1_alg».proof.Proof.KiProduct
import proofs.«169067_j54434415510061_1_alg».proof.Proof.KiDefs
import proofs.«169067_j54434415510061_1_alg».proof.Proof.Feat

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.Lib.PlainDot

variable (m : (ℓ : Loc nD τ sig) → Buf (Elt Ideal) ℓ)

/-- The region's left array is the node array flattened to rows. -/
theorem rows_eq (c : Dev nD) :
    (V m c main_v0 : S200000x64.Idx → EReal)
      = shapeCast S200000x64 (m ((c : Thread nD τ).loc main_arg0)) shapeCasts_S4x50000x64_S200000x64 := by
  show StableHlo.after (List.flatten [hostOps0]) (fun b => m (c, b)) (Proc.devRef .tc main_v0) = _
  simp only [List.flatten_cons, List.flatten_nil, List.append_nil, hostOps0]
  after_results
  rfl

/-- The region's right array is the eight matrices side by side. -/
theorem cols_eq (c : Dev nD) :
    (V m c main_v2 : S64x512.Idx → EReal)
      = shapeCast S64x512 (transpose S64x8x64 [1, 0, 2] (m ((c : Thread nD τ).loc main_arg2)) transposes_S8x64x64_S64x8x64_1_0_2)
          shapeCasts_S64x8x64_S64x512 := by
  show StableHlo.after (List.flatten [hostOps0]) (fun b => m (c, b)) (Proc.devRef .tc main_v2) = _
  simp only [List.flatten_cons, List.flatten_nil, List.append_nil, hostOps0]
  after_results
  rfl

theorem featK0_eq (c : Dev nD) :
    featK0 (F := Ideal) (featAll (prod m c))
      = Cert.Hand.feat 0 (m ((c : Thread nD τ).loc main_arg0)) (m ((c : Thread nD τ).loc main_arg2)) := by
  unfold featK0 featAll prod
  rw [rows_eq, cols_eq]
  exact Cert.Hand.fused_eq _ _ _ _ _ _ _ 0 rfl _ _
theorem featK1_eq (c : Dev nD) :
    featK1 (F := Ideal) (featAll (prod m c))
      = Cert.Hand.feat 1 (m ((c : Thread nD τ).loc main_arg0)) (m ((c : Thread nD τ).loc main_arg2)) := by
  unfold featK1 featAll prod
  rw [rows_eq, cols_eq]
  exact Cert.Hand.fused_eq _ _ _ _ _ _ _ 1 rfl _ _
theorem featK2_eq (c : Dev nD) :
    featK2 (F := Ideal) (featAll (prod m c))
      = Cert.Hand.feat 2 (m ((c : Thread nD τ).loc main_arg0)) (m ((c : Thread nD τ).loc main_arg2)) := by
  unfold featK2 featAll prod
  rw [rows_eq, cols_eq]
  exact Cert.Hand.fused_eq _ _ _ _ _ _ _ 2 rfl _ _
theorem featK3_eq (c : Dev nD) :
    featK3 (F := Ideal) (featAll (prod m c))
      = Cert.Hand.feat 3 (m ((c : Thread nD τ).loc main_arg0)) (m ((c : Thread nD τ).loc main_arg2)) := by
  unfold featK3 featAll prod
  rw [rows_eq, cols_eq]
  exact Cert.Hand.fused_eq _ _ _ _ _ _ _ 3 rfl _ _
theorem featK4_eq (c : Dev nD) :
    featK4 (F := Ideal) (featAll (prod m c))
      = Cert.Hand.feat 4 (m ((c : Thread nD τ).loc main_arg0)) (m ((c : Thread nD τ).loc main_arg2)) := by
  unfold featK4 featAll prod
  rw [rows_eq, cols_eq]
  exact Cert.Hand.fused_eq _ _ _ _ _ _ _ 4 rfl _ _
theorem featK5_eq (c : Dev nD) :
    featK5 (F := Ideal) (featAll (prod m c))
      = Cert.Hand.feat 5 (m ((c : Thread nD τ).loc main_arg0)) (m ((c : Thread nD τ).loc main_arg2)) := by
  unfold featK5 featAll prod
  rw [rows_eq, cols_eq]
  exact Cert.Hand.fused_eq _ _ _ _ _ _ _ 5 rfl _ _
theorem featK6_eq (c : Dev nD) :
    featK6 (F := Ideal) (featAll (prod m c))
      = Cert.Hand.feat 6 (m ((c : Thread nD τ).loc main_arg0)) (m ((c : Thread nD τ).loc main_arg2)) := by
  unfold featK6 featAll prod
  rw [rows_eq, cols_eq]
  exact Cert.Hand.fused_eq _ _ _ _ _ _ _ 6 rfl _ _
theorem featK7_eq (c : Dev nD) :
    featK7 (F := Ideal) (featAll (prod m c))
      = Cert.Hand.feat 7 (m ((c : Thread nD τ).loc main_arg0)) (m ((c : Thread nD τ).loc main_arg2)) := by
  unfold featK7 featAll prod
  rw [rows_eq, cols_eq]
  exact Cert.Hand.fused_eq _ _ _ _ _ _ _ 7 rfl _ _

end Cert.KernelIdeal.Hand

end
-- ==== Proof.RefFeat.lean ====
/-
  The reference's per-relation features are `feat r`: its `dot_general` contracts the node array's last axis with
  the first axis of relation `r`'s own 64 × 64 matrix (the weights sliced at `r`, the unit axis dropped), which at the
  exact values is the sum  ∑ k, x (b, n, k) · w (r, k, o).
-/
import proofs.«169067_j54434415510061_1_alg».proof.Proof.RefDefs
import proofs.«169067_j54434415510061_1_alg».proof.Proof.Feat

noncomputable section

namespace Cert.ReferenceIdeal.Hand

open Cert.ReferenceIdeal Cert.ReferenceIdeal.Gen Idealize.ShloMosaic Idealize.ShloMosaic.TcCoe Idealize.SL.Sem
open Idealize.ShloMosaic.ValueIdx

/-- The host's contraction of a [4, 50000, 64] array with a [64, 64] matrix, at the exact values, index by index. -/
theorem contract (x : FVec Ideal S4x50000x64 .f32) (wm : FVec Ideal S64x64 .f32) (b : Fin 4) (n : Fin 50000) (o : Fin 64) :
    Host.dotGeneral (F := Ideal) dot_S4x50000x64_S64x64_S4x50000x64_2_0_01_1_n_n none x wm (ix3 b n o)
      = ∑ k : Fin 64, (x (ix3 b n k) : EReal) * (wm (ix2 k o) : EReal) := by
  refine (Ideal.dotGeneral_apply dot_S4x50000x64_S64x64_S4x50000x64_2_0_01_1_n_n none .single x wm (ix3 b n o)).trans ?_
  rw [← Equiv.sum_comp (contrEquiv1 dot_S4x50000x64_S64x64_S4x50000x64_2_0_01_1_n_n 64 rfl rfl).symm]
  refine Finset.sum_congr rfl fun k _ => ?_
  have hk := contrEquiv1_symm_val dot_S4x50000x64_S64x64_S4x50000x64_2_0_01_1_n_n 64 rfl rfl k
  have el : dot_S4x50000x64_S64x64_S4x50000x64_2_0_01_1_n_n.lhsIdx (ix3 b n o)
      ((contrEquiv1 dot_S4x50000x64_S64x64_S4x50000x64_2_0_01_1_n_n 64 rfl rfl).symm k) = ix3 b n k :=
    funext fun a => Fin.ext (by
      match a with
      | ⟨0, _⟩ => rfl
      | ⟨1, _⟩ => rfl
      | ⟨2, _⟩ => exact (dot_S4x50000x64_S64x64_S4x50000x64_2_0_01_1_n_n.lhsIdx_val_of_single (cl := 2) rfl (ix3 b n o) _).trans hk)
  have er : dot_S4x50000x64_S64x64_S4x50000x64_2_0_01_1_n_n.rhsIdx (ix3 b n o)
      ((contrEquiv1 dot_S4x50000x64_S64x64_S4x50000x64_2_0_01_1_n_n 64 rfl rfl).symm k) = ix2 k o :=
    funext fun a => Fin.ext (by
      match a with
      | ⟨0, _⟩ => exact (dot_S4x50000x64_S64x64_S4x50000x64_2_0_01_1_n_n.rhsIdx_val_of_single (cr := 0) rfl (ix3 b n o) _).trans hk
      | ⟨1, _⟩ => rfl)
  rw [el, er]

/-- Contracting with relation `r`'s own matrix gives `feat r`, whatever the slice's offset is called. -/
theorem feat_own (x : FVec Ideal S4x50000x64 .f32) (w : FVec Ideal S8x64x64 .f32) (off : Fin 3 → Nat) (r : Fin 8)
    (hoff : off = ![r.val, 0, 0]) (hs : S8x64x64.Slices off S1x64x64) :
    Host.dotGeneral (F := Ideal) dot_S4x50000x64_S64x64_S4x50000x64_2_0_01_1_n_n none x
        (shapeCast S64x64 (extractStridedSlice S1x64x64 off w hs) shapeCasts_S1x64x64_S64x64)
      = Cert.Hand.feat r x w := by
  funext j
  obtain ⟨b, n, o, rfl⟩ : ∃ (b : Fin 4) (n : Fin 50000) (o : Fin 64), j = ix3 b n o := ⟨j 0, j 1, j 2, eq_ix3 j⟩
  rw [contract]
  show _ = ∑ k : Fin 64, (x (ix3 b n k) : EReal) * (w (ix3 r k o) : EReal)
  refine Finset.sum_congr rfl fun k _ => ?_
  rw [Cert.Hand.own_apply w off r hoff hs shapeCasts_S1x64x64_S64x64 k o]

theorem feat0_eq (x : FVec Ideal S4x50000x64 .f32) (w : FVec Ideal S8x64x64 .f32) : feat0 (F := Ideal) x w = Cert.Hand.feat 0 x w :=
  feat_own x w _ 0 rfl _
theorem feat1_eq (x : FVec Ideal S4x50000x64 .f32) (w : FVec Ideal S8x64x64 .f32) : feat1 (F := Ideal) x w = Cert.Hand.feat 1 x w :=
  feat_own x w _ 1 rfl _
theorem feat2_eq (x : FVec Ideal S4x50000x64 .f32) (w : FVec Ideal S8x64x64 .f32) : feat2 (F := Ideal) x w = Cert.Hand.feat 2 x w :=
  feat_own x w _ 2 rfl _
theorem feat3_eq (x : FVec Ideal S4x50000x64 .f32) (w : FVec Ideal S8x64x64 .f32) : feat3 (F := Ideal) x w = Cert.Hand.feat 3 x w :=
  feat_own x w _ 3 rfl _
theorem feat4_eq (x : FVec Ideal S4x50000x64 .f32) (w : FVec Ideal S8x64x64 .f32) : feat4 (F := Ideal) x w = Cert.Hand.feat 4 x w :=
  feat_own x w _ 4 rfl _
theorem feat5_eq (x : FVec Ideal S4x50000x64 .f32) (w : FVec Ideal S8x64x64 .f32) : feat5 (F := Ideal) x w = Cert.Hand.feat 5 x w :=
  feat_own x w _ 5 rfl _
theorem feat6_eq (x : FVec Ideal S4x50000x64 .f32) (w : FVec Ideal S8x64x64 .f32) : feat6 (F := Ideal) x w = Cert.Hand.feat 6 x w :=
  feat_own x w _ 6 rfl _
theorem feat7_eq (x : FVec Ideal S4x50000x64 .f32) (w : FVec Ideal S8x64x64 .f32) : feat7 (F := Ideal) x w = Cert.Hand.feat 7 x w :=
  feat_own x w _ 7 rfl _

end Cert.ReferenceIdeal.Hand

end
-- ==== Proof.Bridge.lean ====
/-
  The two programs compute one function.

  The reference's result is eight edge steps from zeros over the per-relation features `dot_general x W[r]`; the
  kernel program's is the same eight steps over the slices of its one fused product.  Both families of features are
  `feat r` of the launch arguments (the per-relation form and the fused form of the specification), and the steps,
  the zeros and the edge columns are the same functions on both sides — the two programs spell them with the same
  operations — so the results are equal.  The edge step itself (gather, scatter-add) is never opened.
-/
import proofs.«169067_j54434415510061_1_alg».proof.Proof.KiFeat
import proofs.«169067_j54434415510061_1_alg».proof.Proof.RefFeat

noncomputable section

namespace Cert.Hand

open Idealize.ShloMosaic Idealize.ShloMosaic.TcCoe Idealize.SL.Sem

set_option maxRecDepth 400000 in
/-- If every relation's slice of an array `g` is that relation's `feat`, the kernel program's chain over `g` is the
    reference's chain. -/
theorem chain_agree (x : FVec Ideal Cert.ReferenceIdeal.S4x50000x64 .f32) (e : (⟨Cert.ReferenceIdeal.S8x200000x2, .i32⟩ : BufTy).Contents (Elt Ideal))
    (w : FVec Ideal Cert.ReferenceIdeal.S8x64x64 .f32) (g : (⟨Cert.KernelIdeal.S200000x512, .f32⟩ : BufTy).Contents (Elt Ideal))
    (h0 : Cert.KernelIdeal.Hand.featK0 (F := Ideal) (Cert.KernelIdeal.Hand.featAll g) = feat 0 x w)
    (h1 : Cert.KernelIdeal.Hand.featK1 (F := Ideal) (Cert.KernelIdeal.Hand.featAll g) = feat 1 x w)
    (h2 : Cert.KernelIdeal.Hand.featK2 (F := Ideal) (Cert.KernelIdeal.Hand.featAll g) = feat 2 x w)
    (h3 : Cert.KernelIdeal.Hand.featK3 (F := Ideal) (Cert.KernelIdeal.Hand.featAll g) = feat 3 x w)
    (h4 : Cert.KernelIdeal.Hand.featK4 (F := Ideal) (Cert.KernelIdeal.Hand.featAll g) = feat 4 x w)
    (h5 : Cert.KernelIdeal.Hand.featK5 (F := Ideal) (Cert.KernelIdeal.Hand.featAll g) = feat 5 x w)
    (h6 : Cert.KernelIdeal.Hand.featK6 (F := Ideal) (Cert.KernelIdeal.Hand.featAll g) = feat 6 x w)
    (h7 : Cert.KernelIdeal.Hand.featK7 (F := Ideal) (Cert.KernelIdeal.Hand.featAll g) = feat 7 x w) :
    Cert.ReferenceIdeal.Hand.refOut (F := Ideal) x e w = Cert.KernelIdeal.Hand.kOut (F := Ideal) g e := by
  unfold Cert.ReferenceIdeal.Hand.refOut Cert.KernelIdeal.Hand.kOut
  rw [Cert.ReferenceIdeal.Hand.feat0_eq x w, Cert.ReferenceIdeal.Hand.feat1_eq x w, Cert.ReferenceIdeal.Hand.feat2_eq x w, Cert.ReferenceIdeal.Hand.feat3_eq x w, Cert.ReferenceIdeal.Hand.feat4_eq x w, Cert.ReferenceIdeal.Hand.feat5_eq x w, Cert.ReferenceIdeal.Hand.feat6_eq x w, Cert.ReferenceIdeal.Hand.feat7_eq x w]
  rw [h0, h1, h2, h3, h4, h5, h6, h7]
  rfl

end Cert.Hand

end
-- ==== Proof.lean ====
/-
  Relational graph convolution: for every relation r and every edge (src, dst) of r, out[:, dst] += x[:, src] · W[r].

  Both programs start from zeros and, relation by relation, take the rows of the relation's node features
  h_r (b, n, o) = ∑ k, x (b, n, k) · W (r, k, o) at the edges' source nodes, scatter-add them at the destination
  nodes and add the result to the running sum.  They differ only in how h_r is obtained.  The reference contracts x
  with W[r] once per relation.  The kernel program flattens x to 200000 rows, lays the eight matrices side by side as
  512 columns, multiplies once — on the accelerator, 4000 rows per grid point, the factors rounded to bf16 and the sum
  accumulated in f32 from zero — and slices relation r's 64 columns out.  At the exact values rounding is the identity
  and both are the same sum of 64 products, so nothing is reordered and no finiteness is used; the gathers and
  scatter-adds are the same functions applied to equal arrays and are never opened.

  The three frames: the reference is a straight line of host operations, run one after the other; each kernel program
  is three host operations, the pipelined product (the body loads its two blocks and stores their product over the
  whole output block), and 291 host operations that write only buffers of their own.  No rewrite was applied when the
  kernel was idealized, so the idealization claim is the trivial one.
-/
import proofs.«169067_j54434415510061_1_alg».proof.Defs
import proofs.«169067_j54434415510061_1_alg».proof.Proof.Gen.Kernel
import proofs.«169067_j54434415510061_1_alg».proof.Proof.Gen.Kernel.Skeleton
import proofs.«169067_j54434415510061_1_alg».proof.Proof.Gen.Kernel.Launch
import proofs.«169067_j54434415510061_1_alg».proof.Proof.Gen.Kernel.Points
import proofs.«169067_j54434415510061_1_alg».proof.Proof.Gen.KernelIdeal
import proofs.«169067_j54434415510061_1_alg».proof.Proof.Gen.KernelIdeal.Skeleton
import proofs.«169067_j54434415510061_1_alg».proof.Proof.Gen.KernelIdeal.Launch
import proofs.«169067_j54434415510061_1_alg».proof.Proof.Gen.KernelIdeal.Points
import proofs.«169067_j54434415510061_1_alg».proof.Proof.Gen.ReferenceIdeal
import proofs.«169067_j54434415510061_1_alg».proof.Proof.Gen.Pre_finite_inputs
import proofs.«169067_j54434415510061_1_alg».proof.Proof.KFrame
import proofs.«169067_j54434415510061_1_alg».proof.Proof.KiRun
import proofs.«169067_j54434415510061_1_alg».proof.Proof.RefRun
import proofs.«169067_j54434415510061_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m g _ => Cert.Kernel.Hand.frame m g

/-- So does its idealization. -/
theorem frame_ki : Cert.frame_KernelIdeal := fun m g _ => Cert.KernelIdeal.Hand.frame m g

/-- So does the reference. -/
theorem frame_ri : Cert.frame_ReferenceIdeal := fun m g _ => Cert.ReferenceIdeal.Hand.frame m g

/-- At the exact values, from memories that agree on the arguments, both programs end with the eight-relation chain
    over `feat r` of the arguments: the kernel program's over the slices of its whole product, the reference's over its
    per-relation contractions. -/
theorem algebraic : Cert.algebraic_KernelIdeal_ReferenceIdeal := by
  intro m g m' g' _ hagree
  refine ⟨fun c => Cert.KernelIdeal.Hand.kOut (Cert.KernelIdeal.Hand.prod m c)
      (m ((c.tc : Thread Cert.KernelIdeal.nD Cert.KernelIdeal.τ).loc Cert.KernelIdeal.main_arg1)),
    Cert.KernelIdeal.Hand.run m g, ?_⟩
  refine (θ_run Cert.ReferenceIdeal.defs _ _).mono (fun _ h c => ⟨(h c).1.trans ?_, (h c).2⟩)
    (Cert.ReferenceIdeal.Hand.run (F := Ideal) m' g')
  rw [(hagree c).1, (hagree c).2.1, (hagree c).2.2]
  exact Cert.Hand.chain_agree _ _ _ _
    (Cert.KernelIdeal.Hand.featK0_eq m c) (Cert.KernelIdeal.Hand.featK1_eq m c) (Cert.KernelIdeal.Hand.featK2_eq m c) (Cert.KernelIdeal.Hand.featK3_eq m c) (Cert.KernelIdeal.Hand.featK4_eq m c) (Cert.KernelIdeal.Hand.featK5_eq m c) (Cert.KernelIdeal.Hand.featK6_eq m c) (Cert.KernelIdeal.Hand.featK7_eq m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
